-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_sqrt_dk" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S4x4096 : Shape := ⟨2, ![4, 4096]⟩
abbrev S128x128 : Shape := ⟨2, ![128, 128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S4x4096x128 .f32) (main_arg1 : IVec S4x4096 32) (main_arg2 : FVec F S128x128 .f32) (main_arg3 : FVec F S128x128 .f32) (main_arg4 : FVec F S128x128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S4x4096x128 : Shape := ⟨3, ![4, 4096, 128]⟩
abbrev S4x4096 : Shape := ⟨2, ![4, 4096]⟩
abbrev S128x128 : Shape := ⟨2, ![128, 128]⟩
abbrev S128x384 : Shape := ⟨2, ![128, 384]⟩
abbrev S1x4096x128 : Shape := ⟨3, ![1, 4096, 128]⟩
abbrev S4096x128 : Shape := ⟨2, ![4096, 128]⟩
abbrev S4096x384 : Shape := ⟨2, ![4096, 384]⟩
abbrev S4x256x128 : Shape := ⟨3, ![4, 256, 128]⟩
abbrev S4x256x1 : Shape := ⟨3, ![4, 256, 1]⟩
abbrev S4x512x128 : Shape := ⟨3, ![4, 512, 128]⟩
abbrev S4x256x512 : Shape := ⟨3, ![4, 256, 512]⟩
abbrev S4x256 : Shape := ⟨2, ![4, 256]⟩

abbrev nBuf : Space → Nat
  | .hbm => 10
  | .vmem => 18
  | .smem => 0
  | _ => 0

abbrev bufTy : (tb : Table) → Fin (tcTables nBuf tb) → BufTy
  | .hbm, ⟨0, _⟩ => ⟨S4x4096x128, .f32⟩
  | .hbm, ⟨1, _⟩ => ⟨S4x4096, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x384, .f32⟩
  | .hbm, ⟨6, _⟩ => ⟨S4x4096x128, .f32⟩
  | .hbm, ⟨7, _⟩ => ⟨S4x4096x128, .f32⟩
  | .hbm, ⟨8, _⟩ => ⟨S4x4096x128, .bf16⟩
  | .hbm, ⟨9, _⟩ => ⟨S4x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S128x384, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .bf16⟩
  | .local _ .vmem, ⟨8, _⟩ => ⟨S1x4096x128, .bf16⟩
  | .local _ .vmem, ⟨9, _⟩ => ⟨S4x256x128, .f32⟩
  | .local _ .vmem, ⟨10, _⟩ => ⟨S4x256x128, .f32⟩
  | .local _ .vmem, ⟨11, _⟩ => ⟨S4x4096x128, .f32⟩
  | .local _ .vmem, ⟨12, _⟩ => ⟨S4x4096x128, .bf16⟩
  | .local _ .vmem, ⟨13, _⟩ => ⟨S4x256x128, .f32⟩
  | .local _ .vmem, ⟨14, _⟩ => ⟨S4x256x128, .f32⟩
  | .local _ .vmem, ⟨15, _⟩ => ⟨S4x256x1, .f32⟩
  | .local _ .vmem, ⟨16, _⟩ => ⟨S4x256x1, .f32⟩
  | .local _ .vmem, ⟨17, _⟩ => ⟨S4x256x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 8], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def k1_cond2 (i : grid1.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_32 : BitVec 32 := 0#32
  let v48 : BitVec 1 := Scalar.cmpi .ne v47 c0_i32_32
  v48

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4x4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S4x4096x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S4x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  concatenates_S128x128_S128x128_S128x128_S128x384_d1 : Shape.Concatenates [S128x128, S128x128, S128x128] S128x384 1
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S4096x384_o0_0_S4096x128 : S4096x384.Slices ![0, 0] S4096x128
  shapeCasts_S4096x128_S1x4096x128 : S4096x128.ShapeCasts S1x4096x128
  slices_S4096x384_o0_128_S4096x128 : S4096x384.Slices ![0, 128] S4096x128
  slices_S4096x384_o0_256_S4096x128 : S4096x384.Slices ![0, 256] S4096x128
  packedbf16_S1x4096x128_S1x4096x128_0_0_0 : (Rect.unit (s := S1x4096x128) ![0, 0, 0] S1x4096x128.size inb_S1x4096x128_S1x4096x128_0_0_0).PackedRows (EltTy.packing .bf16)
  inb_S4x256x1_S4x256x1_0_0_0 : ∀ a, (![0, 0, 0] : Fin 3 → Nat) a + S4x256x1.size a ≤ S4x256x1.size a
  h_S4x256x1 : 0 < S4x256x1.numel
  shapeCasts_S4x256x1_S4x256x1 : S4x256x1.ShapeCasts S4x256x1
  inb_S4x256x128_S4x256x128_0_0_0 : ∀ a, (![0, 0, 0] : Fin 3 → Nat) a + S4x256x128.size a ≤ S4x256x128.size a
  h_S4x256x128 : 0 < S4x256x128.numel
  shapeCasts_S4x256x128_S4x256x128 : S4x256x128.ShapeCasts S4x256x128
  h_S4x512x128 : 0 < S4x512x128.numel
  shapeCasts_S4x512x128_S4x512x128 : S4x512x128.ShapeCasts S4x512x128
  reduces_S4x256x512_S4x256 : S4x256x512.Reduces [2] S4x256
  shapeCasts_S4x256_S4x256x1 : S4x256.ShapeCasts S4x256x1
  broadcasts_S4x256x1_S4x256x512 : S4x256x1.Broadcasts S4x256x512
  broadcasts_S4x256x1_S4x256x128 : S4x256x1.Broadcasts S4x256x128
  dot_S4096x128_S128x384_S4096x384_1_0_0_1_n_n_wf : DotDims.WF S4096x128 S128x384 S4096x384 [1] [0] [0] [1] [] []
  dot_S4x256x128_S4x512x128_S4x256x512_2_2_1_1_0_0_wf : DotDims.WF S4x256x128 S4x512x128 S4x256x512 [2] [2] [1] [1] [0] [0]
  dot_S4x256x512_S4x512x128_S4x256x128_2_1_1_2_0_0_wf : DotDims.WF S4x256x512 S4x512x128 S4x256x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x4096x128.size a
  hwx0_0 : ∀ i : grid0.Coords, EltTy.bits .f32 = 32 ∨ (Rect.block (s := S4x4096x128) S1x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x128.size a ≤ S4x4096x128.size a
  hwx0_2 : ∀ i : grid0.Coords, EltTy.bits .f32 = 32 ∨ (Rect.block (s := S4x4096x128) S1x4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x128.size a ≤ S4x4096x128.size a
  hwx0_3 : ∀ i : grid0.Coords, EltTy.bits .f32 = 32 ∨ (Rect.block (s := S4x4096x128) S1x4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x128.size a ≤ S4x4096x128.size a
  hwx0_4 : ∀ i : grid0.Coords, EltTy.bits .bf16 = 32 ∨ (Rect.block (s := S4x4096x128) S1x4096x128.size (cc0_transform_4 i) (hinb0_4 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S4x512x128.size a ≤ S4x4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x256x128.size a ≤ S4x4096x128.size a
  hwx1_0 : ∀ i : grid1.Coords, EltTy.bits .f32 = 32 ∨ (Rect.block (s := S4x4096x128) S4x256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x4096x128.size a ≤ S4x4096x128.size a
  hwx1_1 : ∀ i : grid1.Coords, EltTy.bits .f32 = 32 ∨ (Rect.block (s := S4x4096x128) S4x4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x4096x128.size a ≤ S4x4096x128.size a
  hwx1_2 : ∀ i : grid1.Coords, EltTy.bits .bf16 = 32 ∨ (Rect.block (s := S4x4096x128) S4x4096x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x256x128.size a ≤ S4x4096x128.size a
  hwx1_3 : ∀ i : grid1.Coords, EltTy.bits .f32 = 32 ∨ (Rect.block (s := S4x4096x128) S4x256x128.size (cc1_transform_3 i) (hinb1_3 i)).WholeWords (EltTy.packing .f32)

variable [Facts₀]

def dot_S4096x128_S128x384_S4096x384_1_0_0_1_n_n : DotDims S4096x128 S128x384 S4096x384 where
  lhsContracting := [1]
  rhsContracting := [0]
  lhsNonContracting := [0]
  rhsNonContracting := [1]
  lhsBatch := []
  rhsBatch := []
  wf := dot_S4096x128_S128x384_S4096x384_1_0_0_1_n_n_wf
def dot_S4x256x128_S4x512x128_S4x256x512_2_2_1_1_0_0 : DotDims S4x256x128 S4x512x128 S4x256x512 where
  lhsContracting := [2]
  rhsContracting := [2]
  lhsNonContracting := [1]
  rhsNonContracting := [1]
  lhsBatch := [0]
  rhsBatch := [0]
  wf := dot_S4x256x128_S4x512x128_S4x256x512_2_2_1_1_0_0_wf
def dot_S4x256x512_S4x512x128_S4x256x128_2_1_1_2_0_0 : DotDims S4x256x512 S4x512x128 S4x256x128 where
  lhsContracting := [2]
  rhsContracting := [1]
  lhsNonContracting := [1]
  rhsNonContracting := [2]
  lhsBatch := [0]
  rhsBatch := [0]
  wf := dot_S4x256x512_S4x512x128_S4x256x128_2_1_1_2_0_0_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x4096x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x4096x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_0) S4x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S4x4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S4x4096x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S4x256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x128 : Shape := ⟨3, ![4, 4096, 128]⟩
abbrev S4x4096 : Shape := ⟨2, ![4, 4096]⟩
abbrev S128x128 : Shape := ⟨2, ![128, 128]⟩
abbrev S4x4096x4096 : Shape := ⟨3, ![4, 4096, 4096]⟩
abbrev S_ : Shape := ⟨0, ![]⟩
abbrev S4x4096x1 : Shape := ⟨3, ![4, 4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S4x4096x128, .f32⟩
  | .hbm, ⟨6, _⟩ => ⟨S4x4096x128, .f32⟩
  | .hbm, ⟨7, _⟩ => ⟨S4x4096x128, .f32⟩
  | .hbm, ⟨8, _⟩ => ⟨S4x4096x4096, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x4096x1, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x128_S128x128_S4x4096x128_2_0_01_1_n_n_wf : DotDims.WF S4x4096x128 S128x128 S4x4096x128 [2] [0] [0, 1] [1] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x128_S128x128_S4x4096x128_2_0_01_1_n_n : DotDims S4x4096x128 S128x128 S4x4096x128 where
  lhsContracting := [2]
  rhsContracting := [0]
  lhsNonContracting := [0, 1]
  rhsNonContracting := [1]
  lhsBatch := []
  rhsBatch := []
  wf := dot_S4x4096x128_S128x128_S4x4096x128_2_0_01_1_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.KR0.lean ====
/- REGION 0 of the projection-and-attention program (the kernel program over bit patterns): the half of the frame
   certificate that belongs to the first kernel call, the projection proj = x[b] · [wq | wk | wv], at a PARAMETER V —
   the TensorCore's buffer contents when the region is entered. Each window's block at a point, what the body leaves
   in each output window's buffer, the body's triple, the pipeline's proof data and the body obligation. -/
import proofs.«154512_j5798205849797_2_alg».proof.Proof.Gen.Kernel.Launch
import proofs.«154512_j5798205849797_2_alg».proof.Proof.Gen.Kernel.Skeleton
import proofs.«154512_j5798205849797_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (one batch row of x, fetched at every point) holds its block at every point, for any proof data
    whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the concatenated weights, fetched at the first point only) holds its block at every point:
    where it is not fetched its block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole [1,4096,128] buffer as a rectangle at zero offsets (every load and store of windows 0, 2, 3, 4). -/
abbrev r0_0 : Rect S1x4096x128 := Rect.unit (s := S1x4096x128) ![0, 0, 0] S1x4096x128.size inb_S1x4096x128_S1x4096x128_0_0_0
/-- The whole [128,384] weight buffer as a rectangle at zero offsets (the load of window 1). -/
abbrev r0_1 : Rect S128x384 := Rect.unit (s := S128x384) ![0, 0] S128x384.size inb_S128x384_S128x384_0_0

theorem zeros3 : (![0, 0, 0] : Fin S1x4096x128.rank → ℕ) = fun _ => 0 := funext fun a => by fin_cases a <;> rfl
theorem zeros2 : (![0, 0] : Fin S128x384.rank → ℕ) = fun _ => 0 := funext fun a => by fin_cases a <;> rfl

/-! ## What the body leaves in each output window's buffer -/

/-- Window 2's staging buffer after the body (the q columns of the projection), from the input windows' blocks:
    its one store as a piece. -/
def out0_2 (x0 : Vec F S1x4096x128 .f32) (x1 : Vec F S128x384 .f32) : Vec F S1x4096x128 .f32 :=
  View.canon [⟨r0_0, k0_pay2 (View.ld x0 r0_0) (View.ld x1 r0_1)⟩]
/-- Window 3's staging buffer after the body (the k columns). -/
def out0_3 (x0 : Vec F S1x4096x128 .f32) (x1 : Vec F S128x384 .f32) : Vec F S1x4096x128 .f32 :=
  View.canon [⟨r0_0, k0_pay3 (View.ld x0 r0_0) (View.ld x1 r0_1)⟩]
/-- Window 4's staging buffer after the body (the v columns, in bf16). -/
def out0_4 (x0 : Vec F S1x4096x128 .f32) (x1 : Vec F S128x384 .f32) : Vec F S1x4096x128 .bf16 :=
  View.canon [⟨r0_0, k0_pay4 (View.ld x0 r0_0) (View.ld x1 r0_1)⟩]

/-- The one store of a whole buffer at zero offsets covers it. -/
theorem cover0 {e : EltTy} (p0 : Vec F S1x4096x128 e) (y : S1x4096x128.Idx) :
    ∃ pc ∈ ([⟨r0_0, p0⟩] : List (View.Piece (Elt F) S1x4096x128 e)), y ∈ pc.1.set :=
  ⟨_, List.mem_singleton_self _, View.mem_set_unit_zero (S := S1x4096x128) zeros3 inb_S1x4096x128_S1x4096x128_0_0_0 y⟩

/-- One store of the whole buffer at zero offsets leaves its payload, and the loads of whole buffers read them. -/
theorem out0_2_eq (x0 : Vec F S1x4096x128 .f32) (x1 : Vec F S128x384 .f32) : out0_2 x0 x1 = k0_pay2 x0 x1 := by
  unfold out0_2
  rw [View.canon_unit_zero (S := S1x4096x128) zeros3, View.ld_unit_zero (S := S1x4096x128) zeros3, View.ld_unit_zero (S := S128x384) zeros2]
theorem out0_3_eq (x0 : Vec F S1x4096x128 .f32) (x1 : Vec F S128x384 .f32) : out0_3 x0 x1 = k0_pay3 x0 x1 := by
  unfold out0_3
  rw [View.canon_unit_zero (S := S1x4096x128) zeros3, View.ld_unit_zero (S := S1x4096x128) zeros3, View.ld_unit_zero (S := S128x384) zeros2]
theorem out0_4_eq (x0 : Vec F S1x4096x128 .f32) (x1 : Vec F S128x384 .f32) : out0_4 x0 x1 = k0_pay4 x0 x1 := by
  unfold out0_4
  rw [View.canon_unit_zero (S := S1x4096x128) zeros3, View.ld_unit_zero (S := S1x4096x128) zeros3, View.ld_unit_zero (S := S128x384) zeros2]

/-! ## The body's triple -/

set_option maxHeartbeats 1000000 in
/-- The kernel body on whole staging memrefs, the inputs' at read contents and the outputs' at anything, runs to the
    continuation holding the inputs' as they were and each output's at out0_W of the inputs'. The body also loads each
    output buffer before storing into it; those loads read whatever is there and their values are not used. -/
theorem sound_kernel0 (c : Dev nD) (E : Set ℕ) (i : grid0.Coords)
    (arg1 : Memref sig .tc .vmem S1x4096x128 .f32) (harg1 : arg1.IsWhole) (arg2 : Memref sig .tc .vmem S128x384 .f32) (harg2 : arg2.IsWhole)
    (arg3 : Memref sig .tc .vmem S1x4096x128 .f32) (harg3 : arg3.IsWhole) (arg4 : Memref sig .tc .vmem S1x4096x128 .f32) (harg4 : arg4.IsWhole)
    (arg5 : Memref sig .tc .vmem S1x4096x128 .bf16) (harg5 : arg5.IsWhole)
    (x0 : Vec F S1x4096x128 .f32) (x1 : Vec F S128x384 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The pipeline's proof data -/

/-- The proof data of pipeline 0 on core c: the arrays as the region finds them; after the body at point t each
    input's buffer at its block and each output's at out0_W of the input blocks; the class's invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so sound_kernel0 applies; the invariant and the
    core's owed part pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.KR1a.lean ====
import proofs.«154512_j5798205849797_2_alg».proof.Proof.Gen.Kernel.Launch
import proofs.«154512_j5798205849797_2_alg».proof.Proof.Gen.Kernel.Skeleton
import proofs.«154512_j5798205849797_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks, at the contents `V` the region is entered with -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: unfetched, the
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branch conditions, decided over the grid -/

/-- The first conditional (the reset of the running maximum, sum and accumulator): taken at key tile 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional (the normalised result stored into the output block): taken at the last key tile. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the last conditional is not taken nothing is stored into the output block: the window is idle there, -/
theorem idleAt1_3 : ∀ t : Fin cfg1.N, ¬cond1_1 (grid1.coords t) → cfg1.idle 3 (grid1.coords t) = true := by decide +kernel
/-- and is not written back. -/
theorem noFlush1_3 : ∀ t : Fin cfg1.N, ¬cond1_1 (grid1.coords t) → (cfg1.win 3).flush t = false := by decide +kernel
/-- Where it is taken the window is live. -/
theorem liveAt1_3 : ∀ t : Fin cfg1.N, cond1_1 (grid1.coords t) → cfg1.idle 3 (grid1.coords t) = false := by decide +kernel

/-! ## The staging and scratch memrefs -/

abbrev VO1_3 : View sig .tc .vmem S4x256x128 .f32 := (Memref.whole cc1_stg3_0 : Memref sig .tc .vmem S4x256x128 .f32).view
abbrev ms1_0 (t : Fin cfg1.N) : Memref sig .tc .vmem S4x256x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x4096x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x256x128 .f32 := win1_3.stage (cfg1.slots t 3)
abbrev hs1_3 (t : Fin cfg1.N) : (ms1_3 t).IsWhole := hstage1_3 ((cfg1.slots t 3).cast nbuf1_3)
/-- The scratch operands: the running maximum, the running sum, the accumulator. -/
abbrev scM1_0 : Memref sig .tc .vmem S4x256x1 .f32 := Memref.whole cc1_scratch0
abbrev scM1_1 : Memref sig .tc .vmem S4x256x1 .f32 := Memref.whole cc1_scratch1
abbrev scM1_2 : Memref sig .tc .vmem S4x256x128 .f32 := Memref.whole cc1_scratch2
abbrev VS1_0 : View sig .tc .vmem S4x256x1 .f32 := scM1_0.view
abbrev VS1_1 : View sig .tc .vmem S4x256x1 .f32 := scM1_1.view
abbrev VS1_2 : View sig .tc .vmem S4x256x128 .f32 := scM1_2.view

set_option maxHeartbeats 4000000 in
/-- The body IN CASE A (key tile 0: the reset taken, the final store not): on whole memrefs — the inputs' at their
    contents, the output's at contents handed back untouched, the three scratch operands at anything (each is
    stored whole before it is read) — it runs to the continuation holding the inputs and the output as they were
    and each scratch with its pieces written; the pieces are the witness the run finds. -/
noncomputable def kernelRun1_A (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : cond1_0 i) (hc1 : ¬cond1_1 i)
    (x0 : Vec F S4x256x128 .f32) (x1 : Vec F S4x4096x128 .f32) (x2 : Vec F S4x4096x128 .bf16) :
    Σ' (L3 : List (View.Piece (Elt F) S4x256x128 .f32)) (LS0 : List (View.Piece (Elt F) S4x256x1 .f32)) (LS1 : List (View.Piece (Elt F) S4x256x1 .f32)), { LS2 : List (View.Piece (Elt F) S4x256x128 .f32) //
      ∀ (xi3 : Vec F S4x256x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KR1b.lean ====
import proofs.«154512_j5798205849797_2_alg».proof.Proof.KR1a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body IN CASE B (a key tile that is neither the first nor the last: neither conditional taken): on whole
    memrefs — the inputs' at their contents, the output's at contents handed back untouched, the three scratch
    operands at what the point before left — it runs to the continuation holding the inputs and the output as they
    were and each scratch with its pieces written. -/
noncomputable def kernelRun1_B (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : ¬cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) :
    Σ' (L3 : List (View.Piece (Elt F) S4x256x128 .f32)) (LS0 : List (View.Piece (Elt F) S4x256x1 .f32)) (LS1 : List (View.Piece (Elt F) S4x256x1 .f32)), { LS2 : List (View.Piece (Elt F) S4x256x128 .f32) //
      ∀ (xi3 : Vec F S4x256x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KR1c.lean ====
import proofs.«154512_j5798205849797_2_alg».proof.Proof.KR1b

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body IN CASE C (the last key tile: the reset not taken, the final store taken): on whole memrefs — the
    inputs' at their contents, the output's at anything, the three scratch operands at what the point before left —
    it runs to the continuation holding the inputs as they were and the output and each scratch with its pieces
    written. -/
noncomputable def kernelRun1_C (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) :
    Σ' (L3 : List (View.Piece (Elt F) S4x256x128 .f32)) (LS0 : List (View.Piece (Elt F) S4x256x1 .f32)) (LS1 : List (View.Piece (Elt F) S4x256x1 .f32)), { LS2 : List (View.Piece (Elt F) S4x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.KR1.lean ====
import proofs.«154512_j5798205849797_2_alg».proof.Proof.KR1c

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the attention kernel): what each case leaves, the accumulation point by point, the proof data and
    the body obligation — all at the contents `V` the region is entered with -/

/-! ### Case A -/

/-- What case A leaves in the output's staging buffer: its pieces read back over junk (no piece: the case stores
    nothing there, and nothing consults this value — the window is idle and not written back at its points). -/
def out1_A_3 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : cond1_0 i) (hc1 : ¬cond1_1 i)
    (x0 : Vec F S4x256x128 .f32) (x1 : Vec F S4x4096x128 .f32) (x2 : Vec F S4x4096x128 .bf16) : Vec F S4x256x128 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

/-- Case A's pieces for scratch 0 (the running maximum) cover it. -/
theorem scover1_A_0 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : cond1_0 i) (hc1 : ¬cond1_1 i)
    (x0 : Vec F S4x256x128 .f32) (x1 : Vec F S4x4096x128 .f32) (x2 : Vec F S4x4096x128 .bf16) (y : S4x256x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S4x256x1.size (by sl_kernel_rfl) y

/-- What case A leaves in scratch 0: its pieces read back over junk. -/
def sout1_A_0 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : cond1_0 i) (hc1 : ¬cond1_1 i)
    (x0 : Vec F S4x256x128 .f32) (x1 : Vec F S4x4096x128 .f32) (x2 : Vec F S4x4096x128 .bf16) : Vec F S4x256x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- Case A's pieces for scratch 1 (the running sum) cover it. -/
theorem scover1_A_1 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : cond1_0 i) (hc1 : ¬cond1_1 i)
    (x0 : Vec F S4x256x128 .f32) (x1 : Vec F S4x4096x128 .f32) (x2 : Vec F S4x4096x128 .bf16) (y : S4x256x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S4x256x1.size (by sl_kernel_rfl) y

/-- What case A leaves in scratch 1: its pieces read back over junk. -/
def sout1_A_1 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : cond1_0 i) (hc1 : ¬cond1_1 i)
    (x0 : Vec F S4x256x128 .f32) (x1 : Vec F S4x4096x128 .f32) (x2 : Vec F S4x4096x128 .bf16) : Vec F S4x256x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- Case A's pieces for scratch 2 (the accumulator) cover it. -/
theorem scover1_A_2 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : cond1_0 i) (hc1 : ¬cond1_1 i)
    (x0 : Vec F S4x256x128 .f32) (x1 : Vec F S4x4096x128 .f32) (x2 : Vec F S4x4096x128 .bf16) (y : S4x256x128.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S4x256x128.size (by sl_kernel_rfl) y

/-- What case A leaves in scratch 2: its pieces read back over junk. -/
def sout1_A_2 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : cond1_0 i) (hc1 : ¬cond1_1 i)
    (x0 : Vec F S4x256x128 .f32) (x1 : Vec F S4x4096x128 .f32) (x2 : Vec F S4x4096x128 .bf16) : Vec F S4x256x128 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-! ### Case B -/

/-- What case B leaves in the output's staging buffer: its pieces read back over junk (no piece: the case stores
    nothing there, and nothing consults this value — the window is idle and not written back at its points). -/
def out1_B_3 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : ¬cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) : Vec F S4x256x128 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)

/-- Case B's pieces for scratch 0 (the running maximum) cover it. -/
theorem scover1_B_0 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : ¬cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) (y : S4x256x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S4x256x1.size (by sl_kernel_rfl) y

/-- What case B leaves in scratch 0: its pieces read back over junk. -/
def sout1_B_0 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : ¬cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) : Vec F S4x256x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

/-- Case B's pieces for scratch 1 (the running sum) cover it. -/
theorem scover1_B_1 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : ¬cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) (y : S4x256x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S4x256x1.size (by sl_kernel_rfl) y

/-- What case B leaves in scratch 1: its pieces read back over junk. -/
def sout1_B_1 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : ¬cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) : Vec F S4x256x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

/-- Case B's pieces for scratch 2 (the accumulator) cover it. -/
theorem scover1_B_2 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : ¬cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) (y : S4x256x128.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S4x256x128.size (by sl_kernel_rfl) y

/-- What case B leaves in scratch 2: its pieces read back over junk. -/
def sout1_B_2 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : ¬cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) : Vec F S4x256x128 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-! ### Case C -/

/-- Case C's pieces for the output block cover it (one store of the whole block). -/
theorem cover1_C_3 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) (y : S4x256x128.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S4x256x128.size (by sl_kernel_rfl) y

/-- What case C leaves in the output's staging buffer: its pieces read back over junk. -/
def out1_C_3 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) : Vec F S4x256x128 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- Case C's pieces for scratch 0 (the running maximum) cover it. -/
theorem scover1_C_0 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) (y : S4x256x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S4x256x1.size (by sl_kernel_rfl) y

/-- What case C leaves in scratch 0: its pieces read back over junk. -/
def sout1_C_0 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) : Vec F S4x256x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- Case C's pieces for scratch 1 (the running sum) cover it. -/
theorem scover1_C_1 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) (y : S4x256x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S4x256x1.size (by sl_kernel_rfl) y

/-- What case C leaves in scratch 1: its pieces read back over junk. -/
def sout1_C_1 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) : Vec F S4x256x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- Case C's pieces for scratch 2 (the accumulator) cover it. -/
theorem scover1_C_2 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) (y : S4x256x128.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S4x256x128.size (by sl_kernel_rfl) y

/-- What case C leaves in scratch 2: its pieces read back over junk. -/
def sout1_C_2 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) : Vec F S4x256x128 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-- The scoped buffers of the core that belong to the other region's staging: each whole at some contents. The
    region's invariant carries them untouched. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- Two propositions that entail each other are equal. -/
theorem eq_of_entails {P Q : sProp 𝕄} (h1 : P ⊢ Q) (h2 : Q ⊢ P) : P = Q := BI.Entails.antisymm h1 h2

/-- The region's invariant as the launch hands it over: the other region's scoped buffers, the three scratch operands
    as memrefs owned at some contents, and the generator register at some state. -/
theorem PhiA1_eq (c : Dev nD) :
    (Pipeline.ΦA spec1 c : sProp 𝕄)
      = iprop(iprop(other1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA other1; rw [scopedRest1_eq]; simp only [scM1_0, scM1_1, scM1_2, owns_whole]
  refine eq_of_entails ?_ ?_
  · iintro ⟨⟨R0, R1, R2, R3, R4, R5, R6, R7, R8, S0, S1, S2⟩, Hg⟩
    isplitr [Hg]
    · isplitl [R0 R1 R2 R3 R4 R5 R6 R7 R8]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        iexact R8
      isplitl [S0]; · iexact S0
      isplitl [S1]; · iexact S1
      iexact S2
    iexact Hg
  · iintro ⟨⟨⟨R0, R1, R2, R3, R4, R5, R6, R7, R8⟩, S0, S1, S2⟩, Hg⟩
    isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [S0]; · iexact S0
      isplitl [S1]; · iexact S1
      iexact S2
    iexact Hg

section
variable (V : (c : Dev nD) → (b : Ref sig .tc) → Buf (Elt F) ((c : Thread nD τ).loc b))

/-! ## What the output's buffer and the scratch hold after each point -/

/-- The output's staging buffer and the three scratch buffers after a point of case A (key tile 0): the case's run at the point's memrefs and input blocks. -/
def ptA (c : Dev nD) (t : Fin cfg1.N) (h0 : t.val % 8 = 0) (h1 : ¬t.val % 8 = 7) : Vec F S4x256x128 .f32 × Vec F S4x256x1 .f32 × Vec F S4x256x1 .f32 × Vec F S4x256x128 .f32 :=
  (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))

/-- The output's staging buffer and the three scratch buffers after a point of case B: the case's run at the point's memrefs and input blocks, the scratch at what the point before left (`p`). -/
def ptB (c : Dev nD) (t : Fin cfg1.N) (h0 : ¬t.val % 8 = 0) (h1 : ¬t.val % 8 = 7) (p : Vec F S4x256x1 .f32 × Vec F S4x256x1 .f32 × Vec F S4x256x128 .f32) : Vec F S4x256x128 .f32 × Vec F S4x256x1 .f32 × Vec F S4x256x1 .f32 × Vec F S4x256x128 .f32 :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2)

/-- The output's staging buffer and the three scratch buffers after a point of case C (the last key tile): the case's run at the point's memrefs and input blocks, the scratch at what the point before left (`p`). -/
def ptC (c : Dev nD) (t : Fin cfg1.N) (h0 : ¬t.val % 8 = 0) (h1 : t.val % 8 = 7) (p : Vec F S4x256x1 .f32 × Vec F S4x256x1 .f32 × Vec F S4x256x128 .f32) : Vec F S4x256x128 .f32 × Vec F S4x256x1 .f32 × Vec F S4x256x1 .f32 × Vec F S4x256x128 .f32 :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2,
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2,
   sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2,
   sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2)

/-- THE ACCUMULATION. What the output's staging buffer and the three scratch buffers (running maximum, running sum,
    accumulator) hold after the body at position `n`: the case the closed forms select at `n`, run at the point's
    memrefs and input blocks, the scratch at what position `n - 1` left. Both conditions at once is no case. -/
def outsAt1 (c : Dev nD) : (n : ℕ) → n < cfg1.N → Vec F S4x256x128 .f32 × Vec F S4x256x1 .f32 × Vec F S4x256x1 .f32 × Vec F S4x256x128 .f32
  | 0, hn => ptA V c ⟨0, hn⟩ (Nat.zero_mod _) (show ¬(0 % 8 = 7) by decide)
  | n + 1, hn =>
    if h0 : (n + 1) % 8 = 0 then
      if h1 : (n + 1) % 8 = 7 then
        False.elim (by omega)
      else
        ptA V c ⟨n + 1, hn⟩ h0 h1
    else
      if h1 : (n + 1) % 8 = 7 then
        ptC V c ⟨n + 1, hn⟩ h0 h1 (outsAt1 c n (Nat.lt_of_succ_lt hn)).2
      else
        ptB V c ⟨n + 1, hn⟩ h0 h1 (outsAt1 c n (Nat.lt_of_succ_lt hn)).2

/-- `outsAt1` at a point of case A: that case's contents. -/
theorem outsAt1_A (c : Dev nD) (t : Fin cfg1.N) (h0 : t.val % 8 = 0) (h1 : ¬t.val % 8 = 7) :
    outsAt1 V c t.val t.isLt = ptA V c t h0 h1 := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = ptB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = ptC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The region's invariant, point by point -/

/-- Before position `n`: before the first point what the launch hands over (every scratch at anything); afterwards
    each scratch at what the point before left in it (`outsAt1`'s scratch components), the other region's scoped
    buffers and the generator register at some state. -/
def PhiS1 (c : Dev nD) : (n : ℕ) → n ≤ cfg1.N → sProp 𝕄
  | 0, _ => Pipeline.ΦA spec1 c
  | n + 1, hn => iprop(iprop(other1 (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(other1 (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

theorem PhiS1_pos (c : Dev nD) (n : ℕ) (h : n ≤ cfg1.N) (hz : n ≠ 0) :
    PhiS1 V c n h = iprop(iprop(other1 (F := F) c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    so that case's run applies. The invariant hands the body each scratch at what the point before left (at anything
    before the first point) and takes it back at this point's contents; where the final store is not taken the
    output's buffer goes back untouched (the window is idle and not written back there). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold ptA sout1_A_0 sout1_A_1 sout1_A_2; (try dsimp only)
    by_cases hz : t.val = 0
    · rw [PhiS1_castSucc V c t, PhiS1_zero V c _ _ hz, PhiA1_eq]
      iintro ⟨⟨⟨HR, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR HS0 HS1 HS2 Hg]
      · isplitr [Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HR, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HR HS0 HS1 HS2 Hg]
      · isplitr [Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold ptC out1_C_3 sout1_C_0 sout1_C_1 sout1_C_2; (try dsimp only)
      rw [PhiS1_castSucc V c t, PhiS1_pos V c _ _ hz]
      iintro ⟨⟨⟨HR, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HR HS0 HS1 HS2 Hg]
      · isplitr [Hg]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold ptB sout1_B_0 sout1_B_1 sout1_B_2; (try dsimp only)
      rw [PhiS1_castSucc V c t, PhiS1_pos V c _ _ hz]
      iintro ⟨⟨⟨HR, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR HS0 HS1 HS2 Hg]
      · isplitr [Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1, HS2⟩, Hg⟩
  isplitr [Hg]
  · isplitl [HR]; · iexact HR
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end

end Cert.Kernel.Hand

end
-- ==== Proof.KRun.lean ====
/-
  The run of the whole program: one line of host operations (the concatenation of the three weight matrices), then the
  projection region, then the attention region.  Between two items a core holds every unscoped buffer whole at a
  valuation: the launch contents, then the host line's results, then — after a region — the region's arrays at what its
  write-backs leave and every other buffer as the region found it.  The final state is read against the last
  valuation at every unscoped buffer: the argument arrays (no item writes them) and the result array alike.
-/
import proofs.«154512_j5798205849797_2_alg».proof.Proof.KR0
import proofs.«154512_j5798205849797_2_alg».proof.Proof.KR1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host line (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No host operation writes an argument (the one line writes the concatenation's own buffer). -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    exact StableHlo.devRef_ne_of_ne hb))

/-- An array neither region stages and the host line does not write ends as launched. -/
theorem W3_untouched (c : Dev nD) (b : Ref sig .tc) (h1 : ∀ w, Pipeline.arrRef spec1 w ≠ b) (h0 : ∀ w, Pipeline.arrRef spec0 w ≠ b)
    (hb : b ≠ main_v0) : W3 m ρ c (Proc.devRef .tc b) = m ((c : Thread nD τ).loc b) :=
  (W3_of_ne m ρ c b h1).trans ((W2_of_ne m ρ c b h0).trans ((W1_of_ne m ρ c b hb).trans rfl))

/-- The first argument is the projection region's input window 0: read back through the region unchanged. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_ne m ρ c main_arg0 (by decide)
    _ = m ((c : Thread nD τ).loc main_arg0) := rfl

/-! ## The proof data family and the thread state -/

abbrev adm : (p : Fin 2) → (pcfgs (F := F) p).Adm := fun p => (cfgs p).toPCfg_adm
/-- Every pipeline's proof data, each at its region's entry contents: a literal match. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W2`, left at `W3`; the
    generator register and the scoped rest enter the region's invariant before its first point and leave it after
    its last, the scratch contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (V2 m ρ) c)
    unfold Pipeline.ΦA
    iintro ⟨Hp, -, Hr⟩
    isplitl [Hr]; · iexact Hr
    iexact Hp
  hout c := by
    rw [Pipeline.ownSems0_none]
    refine Idealize.SL.BI.BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and the final memory holds every unscoped buffer at the last valuation `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m ρ c),
     (h c _ (mem_uc main_arg1 (by decide))).trans (W3_untouched m ρ c main_arg1 (by decide) (by decide) (by decide)),
     (h c _ (mem_uc main_arg2 (by decide))).trans (W3_untouched m ρ c main_arg2 (by decide) (by decide) (by decide)),
     (h c _ (mem_uc main_arg3 (by decide))).trans (W3_untouched m ρ c main_arg3 (by decide) (by decide) (by decide)),
     (h c _ (mem_uc main_arg4 (by decide))).trans (W3_untouched m ρ c main_arg4 (by decide) (by decide) (by decide))⟩)
    (run_all m ρ)

end Cert.Kernel.Hand

end
-- ==== Proof.IR0.lean ====
/- REGION 0 of the projection-and-attention program (the kernel program over the extended reals): the half of the frame
   certificate that belongs to the first kernel call, the projection proj = x[b] · [wq | wk | wv], at a PARAMETER V —
   the TensorCore's buffer contents when the region is entered. Each window's block at a point, what the body leaves
   in each output window's buffer, the body's triple, the pipeline's proof data and the body obligation. -/
import proofs.«154512_j5798205849797_2_alg».proof.Proof.Gen.KernelIdeal.Launch
import proofs.«154512_j5798205849797_2_alg».proof.Proof.Gen.KernelIdeal.Skeleton
import proofs.«154512_j5798205849797_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (one batch row of x, fetched at every point) holds its block at every point, for any proof data
    whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the concatenated weights, fetched at the first point only) holds its block at every point:
    where it is not fetched its block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole [1,4096,128] buffer as a rectangle at zero offsets (every load and store of windows 0, 2, 3, 4). -/
abbrev r0_0 : Rect S1x4096x128 := Rect.unit (s := S1x4096x128) ![0, 0, 0] S1x4096x128.size inb_S1x4096x128_S1x4096x128_0_0_0
/-- The whole [128,384] weight buffer as a rectangle at zero offsets (the load of window 1). -/
abbrev r0_1 : Rect S128x384 := Rect.unit (s := S128x384) ![0, 0] S128x384.size inb_S128x384_S128x384_0_0

theorem zeros3 : (![0, 0, 0] : Fin S1x4096x128.rank → ℕ) = fun _ => 0 := funext fun a => by fin_cases a <;> rfl
theorem zeros2 : (![0, 0] : Fin S128x384.rank → ℕ) = fun _ => 0 := funext fun a => by fin_cases a <;> rfl

/-! ## What the body leaves in each output window's buffer -/

/-- Window 2's staging buffer after the body (the q columns of the projection), from the input windows' blocks:
    its one store as a piece. -/
def out0_2 (x0 : Vec F S1x4096x128 .f32) (x1 : Vec F S128x384 .f32) : Vec F S1x4096x128 .f32 :=
  View.canon [⟨r0_0, k0_pay2 (View.ld x0 r0_0) (View.ld x1 r0_1)⟩]
/-- Window 3's staging buffer after the body (the k columns). -/
def out0_3 (x0 : Vec F S1x4096x128 .f32) (x1 : Vec F S128x384 .f32) : Vec F S1x4096x128 .f32 :=
  View.canon [⟨r0_0, k0_pay3 (View.ld x0 r0_0) (View.ld x1 r0_1)⟩]
/-- Window 4's staging buffer after the body (the v columns, in bf16). -/
def out0_4 (x0 : Vec F S1x4096x128 .f32) (x1 : Vec F S128x384 .f32) : Vec F S1x4096x128 .bf16 :=
  View.canon [⟨r0_0, k0_pay4 (View.ld x0 r0_0) (View.ld x1 r0_1)⟩]

/-- The one store of a whole buffer at zero offsets covers it. -/
theorem cover0 {e : EltTy} (p0 : Vec F S1x4096x128 e) (y : S1x4096x128.Idx) :
    ∃ pc ∈ ([⟨r0_0, p0⟩] : List (View.Piece (Elt F) S1x4096x128 e)), y ∈ pc.1.set :=
  ⟨_, List.mem_singleton_self _, View.mem_set_unit_zero (S := S1x4096x128) zeros3 inb_S1x4096x128_S1x4096x128_0_0_0 y⟩

/-- One store of the whole buffer at zero offsets leaves its payload, and the loads of whole buffers read them. -/
theorem out0_2_eq (x0 : Vec F S1x4096x128 .f32) (x1 : Vec F S128x384 .f32) : out0_2 x0 x1 = k0_pay2 x0 x1 := by
  unfold out0_2
  rw [View.canon_unit_zero (S := S1x4096x128) zeros3, View.ld_unit_zero (S := S1x4096x128) zeros3, View.ld_unit_zero (S := S128x384) zeros2]
theorem out0_3_eq (x0 : Vec F S1x4096x128 .f32) (x1 : Vec F S128x384 .f32) : out0_3 x0 x1 = k0_pay3 x0 x1 := by
  unfold out0_3
  rw [View.canon_unit_zero (S := S1x4096x128) zeros3, View.ld_unit_zero (S := S1x4096x128) zeros3, View.ld_unit_zero (S := S128x384) zeros2]
theorem out0_4_eq (x0 : Vec F S1x4096x128 .f32) (x1 : Vec F S128x384 .f32) : out0_4 x0 x1 = k0_pay4 x0 x1 := by
  unfold out0_4
  rw [View.canon_unit_zero (S := S1x4096x128) zeros3, View.ld_unit_zero (S := S1x4096x128) zeros3, View.ld_unit_zero (S := S128x384) zeros2]

/-! ## The body's triple -/

set_option maxHeartbeats 1000000 in
/-- The kernel body on whole staging memrefs, the inputs' at read contents and the outputs' at anything, runs to the
    continuation holding the inputs' as they were and each output's at out0_W of the inputs'. The body also loads each
    output buffer before storing into it; those loads read whatever is there and their values are not used. -/
theorem sound_kernel0 (c : Dev nD) (E : Set ℕ) (i : grid0.Coords)
    (arg1 : Memref sig .tc .vmem S1x4096x128 .f32) (harg1 : arg1.IsWhole) (arg2 : Memref sig .tc .vmem S128x384 .f32) (harg2 : arg2.IsWhole)
    (arg3 : Memref sig .tc .vmem S1x4096x128 .f32) (harg3 : arg3.IsWhole) (arg4 : Memref sig .tc .vmem S1x4096x128 .f32) (harg4 : arg4.IsWhole)
    (arg5 : Memref sig .tc .vmem S1x4096x128 .bf16) (harg5 : arg5.IsWhole)
    (x0 : Vec F S1x4096x128 .f32) (x1 : Vec F S128x384 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The pipeline's proof data -/

/-- The proof data of pipeline 0 on core c: the arrays as the region finds them; after the body at point t each
    input's buffer at its block and each output's at out0_W of the input blocks; the class's invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so sound_kernel0 applies; the invariant and the
    core's owed part pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.IR1a.lean ====
import proofs.«154512_j5798205849797_2_alg».proof.Proof.Gen.KernelIdeal.Launch
import proofs.«154512_j5798205849797_2_alg».proof.Proof.Gen.KernelIdeal.Skeleton
import proofs.«154512_j5798205849797_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The windows' blocks, at the contents `V` the region is entered with -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: unfetched, the
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branch conditions, decided over the grid -/

/-- The first conditional (the reset of the running maximum, sum and accumulator): taken at key tile 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional (the normalised result stored into the output block): taken at the last key tile. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the last conditional is not taken nothing is stored into the output block: the window is idle there, -/
theorem idleAt1_3 : ∀ t : Fin cfg1.N, ¬cond1_1 (grid1.coords t) → cfg1.idle 3 (grid1.coords t) = true := by decide +kernel
/-- and is not written back. -/
theorem noFlush1_3 : ∀ t : Fin cfg1.N, ¬cond1_1 (grid1.coords t) → (cfg1.win 3).flush t = false := by decide +kernel
/-- Where it is taken the window is live. -/
theorem liveAt1_3 : ∀ t : Fin cfg1.N, cond1_1 (grid1.coords t) → cfg1.idle 3 (grid1.coords t) = false := by decide +kernel

/-! ## The staging and scratch memrefs -/

abbrev VO1_3 : View sig .tc .vmem S4x256x128 .f32 := (Memref.whole cc1_stg3_0 : Memref sig .tc .vmem S4x256x128 .f32).view
abbrev ms1_0 (t : Fin cfg1.N) : Memref sig .tc .vmem S4x256x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x4096x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x256x128 .f32 := win1_3.stage (cfg1.slots t 3)
abbrev hs1_3 (t : Fin cfg1.N) : (ms1_3 t).IsWhole := hstage1_3 ((cfg1.slots t 3).cast nbuf1_3)
/-- The scratch operands: the running maximum, the running sum, the accumulator. -/
abbrev scM1_0 : Memref sig .tc .vmem S4x256x1 .f32 := Memref.whole cc1_scratch0
abbrev scM1_1 : Memref sig .tc .vmem S4x256x1 .f32 := Memref.whole cc1_scratch1
abbrev scM1_2 : Memref sig .tc .vmem S4x256x128 .f32 := Memref.whole cc1_scratch2
abbrev VS1_0 : View sig .tc .vmem S4x256x1 .f32 := scM1_0.view
abbrev VS1_1 : View sig .tc .vmem S4x256x1 .f32 := scM1_1.view
abbrev VS1_2 : View sig .tc .vmem S4x256x128 .f32 := scM1_2.view

set_option maxHeartbeats 4000000 in
/-- The body IN CASE A (key tile 0: the reset taken, the final store not): on whole memrefs — the inputs' at their
    contents, the output's at contents handed back untouched, the three scratch operands at anything (each is
    stored whole before it is read) — it runs to the continuation holding the inputs and the output as they were
    and each scratch with its pieces written; the pieces are the witness the run finds. -/
noncomputable def kernelRun1_A (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : cond1_0 i) (hc1 : ¬cond1_1 i)
    (x0 : Vec F S4x256x128 .f32) (x1 : Vec F S4x4096x128 .f32) (x2 : Vec F S4x4096x128 .bf16) :
    Σ' (L3 : List (View.Piece (Elt F) S4x256x128 .f32)) (LS0 : List (View.Piece (Elt F) S4x256x1 .f32)) (LS1 : List (View.Piece (Elt F) S4x256x1 .f32)), { LS2 : List (View.Piece (Elt F) S4x256x128 .f32) //
      ∀ (xi3 : Vec F S4x256x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.IR1b.lean ====
import proofs.«154512_j5798205849797_2_alg».proof.Proof.IR1a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body IN CASE B (a key tile that is neither the first nor the last: neither conditional taken): on whole
    memrefs — the inputs' at their contents, the output's at contents handed back untouched, the three scratch
    operands at what the point before left — it runs to the continuation holding the inputs and the output as they
    were and each scratch with its pieces written. -/
noncomputable def kernelRun1_B (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : ¬cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) :
    Σ' (L3 : List (View.Piece (Elt F) S4x256x128 .f32)) (LS0 : List (View.Piece (Elt F) S4x256x1 .f32)) (LS1 : List (View.Piece (Elt F) S4x256x1 .f32)), { LS2 : List (View.Piece (Elt F) S4x256x128 .f32) //
      ∀ (xi3 : Vec F S4x256x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.IR1c.lean ====
import proofs.«154512_j5798205849797_2_alg».proof.Proof.IR1b

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body IN CASE C (the last key tile: the reset not taken, the final store taken): on whole memrefs — the
    inputs' at their contents, the output's at anything, the three scratch operands at what the point before left —
    it runs to the continuation holding the inputs as they were and the output and each scratch with its pieces
    written. -/
noncomputable def kernelRun1_C (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) :
    Σ' (L3 : List (View.Piece (Elt F) S4x256x128 .f32)) (LS0 : List (View.Piece (Elt F) S4x256x1 .f32)) (LS1 : List (View.Piece (Elt F) S4x256x1 .f32)), { LS2 : List (View.Piece (Elt F) S4x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.IR1.lean ====
import proofs.«154512_j5798205849797_2_alg».proof.Proof.IR1c

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1 (the attention kernel): what each case leaves, the accumulation point by point, the proof data and
    the body obligation — all at the contents `V` the region is entered with -/

/-! ### Case A -/

/-- What case A leaves in the output's staging buffer: its pieces read back over junk (no piece: the case stores
    nothing there, and nothing consults this value — the window is idle and not written back at its points). -/
def out1_A_3 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : cond1_0 i) (hc1 : ¬cond1_1 i)
    (x0 : Vec F S4x256x128 .f32) (x1 : Vec F S4x4096x128 .f32) (x2 : Vec F S4x4096x128 .bf16) : Vec F S4x256x128 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

/-- Case A's pieces for scratch 0 (the running maximum) cover it. -/
theorem scover1_A_0 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : cond1_0 i) (hc1 : ¬cond1_1 i)
    (x0 : Vec F S4x256x128 .f32) (x1 : Vec F S4x4096x128 .f32) (x2 : Vec F S4x4096x128 .bf16) (y : S4x256x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S4x256x1.size (by sl_kernel_rfl) y

/-- What case A leaves in scratch 0: its pieces read back over junk. -/
def sout1_A_0 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : cond1_0 i) (hc1 : ¬cond1_1 i)
    (x0 : Vec F S4x256x128 .f32) (x1 : Vec F S4x4096x128 .f32) (x2 : Vec F S4x4096x128 .bf16) : Vec F S4x256x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- Case A's pieces for scratch 1 (the running sum) cover it. -/
theorem scover1_A_1 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : cond1_0 i) (hc1 : ¬cond1_1 i)
    (x0 : Vec F S4x256x128 .f32) (x1 : Vec F S4x4096x128 .f32) (x2 : Vec F S4x4096x128 .bf16) (y : S4x256x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S4x256x1.size (by sl_kernel_rfl) y

/-- What case A leaves in scratch 1: its pieces read back over junk. -/
def sout1_A_1 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : cond1_0 i) (hc1 : ¬cond1_1 i)
    (x0 : Vec F S4x256x128 .f32) (x1 : Vec F S4x4096x128 .f32) (x2 : Vec F S4x4096x128 .bf16) : Vec F S4x256x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- Case A's pieces for scratch 2 (the accumulator) cover it. -/
theorem scover1_A_2 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : cond1_0 i) (hc1 : ¬cond1_1 i)
    (x0 : Vec F S4x256x128 .f32) (x1 : Vec F S4x4096x128 .f32) (x2 : Vec F S4x4096x128 .bf16) (y : S4x256x128.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S4x256x128.size (by sl_kernel_rfl) y

/-- What case A leaves in scratch 2: its pieces read back over junk. -/
def sout1_A_2 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : cond1_0 i) (hc1 : ¬cond1_1 i)
    (x0 : Vec F S4x256x128 .f32) (x1 : Vec F S4x4096x128 .f32) (x2 : Vec F S4x4096x128 .bf16) : Vec F S4x256x128 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-! ### Case B -/

/-- What case B leaves in the output's staging buffer: its pieces read back over junk (no piece: the case stores
    nothing there, and nothing consults this value — the window is idle and not written back at its points). -/
def out1_B_3 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : ¬cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) : Vec F S4x256x128 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)

/-- Case B's pieces for scratch 0 (the running maximum) cover it. -/
theorem scover1_B_0 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : ¬cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) (y : S4x256x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S4x256x1.size (by sl_kernel_rfl) y

/-- What case B leaves in scratch 0: its pieces read back over junk. -/
def sout1_B_0 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : ¬cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) : Vec F S4x256x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

/-- Case B's pieces for scratch 1 (the running sum) cover it. -/
theorem scover1_B_1 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : ¬cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) (y : S4x256x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S4x256x1.size (by sl_kernel_rfl) y

/-- What case B leaves in scratch 1: its pieces read back over junk. -/
def sout1_B_1 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : ¬cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) : Vec F S4x256x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

/-- Case B's pieces for scratch 2 (the accumulator) cover it. -/
theorem scover1_B_2 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : ¬cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) (y : S4x256x128.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S4x256x128.size (by sl_kernel_rfl) y

/-- What case B leaves in scratch 2: its pieces read back over junk. -/
def sout1_B_2 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : ¬cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) : Vec F S4x256x128 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-! ### Case C -/

/-- Case C's pieces for the output block cover it (one store of the whole block). -/
theorem cover1_C_3 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) (y : S4x256x128.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S4x256x128.size (by sl_kernel_rfl) y

/-- What case C leaves in the output's staging buffer: its pieces read back over junk. -/
def out1_C_3 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) : Vec F S4x256x128 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- Case C's pieces for scratch 0 (the running maximum) cover it. -/
theorem scover1_C_0 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) (y : S4x256x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S4x256x1.size (by sl_kernel_rfl) y

/-- What case C leaves in scratch 0: its pieces read back over junk. -/
def sout1_C_0 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) : Vec F S4x256x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- Case C's pieces for scratch 1 (the running sum) cover it. -/
theorem scover1_C_1 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) (y : S4x256x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S4x256x1.size (by sl_kernel_rfl) y

/-- What case C leaves in scratch 1: its pieces read back over junk. -/
def sout1_C_1 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) : Vec F S4x256x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- Case C's pieces for scratch 2 (the accumulator) cover it. -/
theorem scover1_C_2 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) (y : S4x256x128.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S4x256x128.size (by sl_kernel_rfl) y

/-- What case C leaves in scratch 2: its pieces read back over junk. -/
def sout1_C_2 (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) : Vec F S4x256x128 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-- The scoped buffers of the core that belong to the other region's staging: each whole at some contents. The
    region's invariant carries them untouched. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- Two propositions that entail each other are equal. -/
theorem eq_of_entails {P Q : sProp 𝕄} (h1 : P ⊢ Q) (h2 : Q ⊢ P) : P = Q := BI.Entails.antisymm h1 h2

/-- The region's invariant as the launch hands it over: the other region's scoped buffers, the three scratch operands
    as memrefs owned at some contents, and the generator register at some state. -/
theorem PhiA1_eq (c : Dev nD) :
    (Pipeline.ΦA spec1 c : sProp 𝕄)
      = iprop(iprop(other1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA other1; rw [scopedRest1_eq]; simp only [scM1_0, scM1_1, scM1_2, owns_whole]
  refine eq_of_entails ?_ ?_
  · iintro ⟨⟨R0, R1, R2, R3, R4, R5, R6, R7, R8, S0, S1, S2⟩, Hg⟩
    isplitr [Hg]
    · isplitl [R0 R1 R2 R3 R4 R5 R6 R7 R8]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        iexact R8
      isplitl [S0]; · iexact S0
      isplitl [S1]; · iexact S1
      iexact S2
    iexact Hg
  · iintro ⟨⟨⟨R0, R1, R2, R3, R4, R5, R6, R7, R8⟩, S0, S1, S2⟩, Hg⟩
    isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [S0]; · iexact S0
      isplitl [S1]; · iexact S1
      iexact S2
    iexact Hg

section
variable (V : (c : Dev nD) → (b : Ref sig .tc) → Buf (Elt F) ((c : Thread nD τ).loc b))

/-! ## What the output's buffer and the scratch hold after each point -/

/-- The output's staging buffer and the three scratch buffers after a point of case A (key tile 0): the case's run at the point's memrefs and input blocks. -/
def ptA (c : Dev nD) (t : Fin cfg1.N) (h0 : t.val % 8 = 0) (h1 : ¬t.val % 8 = 7) : Vec F S4x256x128 .f32 × Vec F S4x256x1 .f32 × Vec F S4x256x1 .f32 × Vec F S4x256x128 .f32 :=
  (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))

/-- The output's staging buffer and the three scratch buffers after a point of case B: the case's run at the point's memrefs and input blocks, the scratch at what the point before left (`p`). -/
def ptB (c : Dev nD) (t : Fin cfg1.N) (h0 : ¬t.val % 8 = 0) (h1 : ¬t.val % 8 = 7) (p : Vec F S4x256x1 .f32 × Vec F S4x256x1 .f32 × Vec F S4x256x128 .f32) : Vec F S4x256x128 .f32 × Vec F S4x256x1 .f32 × Vec F S4x256x1 .f32 × Vec F S4x256x128 .f32 :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2)

/-- The output's staging buffer and the three scratch buffers after a point of case C (the last key tile): the case's run at the point's memrefs and input blocks, the scratch at what the point before left (`p`). -/
def ptC (c : Dev nD) (t : Fin cfg1.N) (h0 : ¬t.val % 8 = 0) (h1 : t.val % 8 = 7) (p : Vec F S4x256x1 .f32 × Vec F S4x256x1 .f32 × Vec F S4x256x128 .f32) : Vec F S4x256x128 .f32 × Vec F S4x256x1 .f32 × Vec F S4x256x1 .f32 × Vec F S4x256x128 .f32 :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2,
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2,
   sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2,
   sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2)

/-- THE ACCUMULATION. What the output's staging buffer and the three scratch buffers (running maximum, running sum,
    accumulator) hold after the body at position `n`: the case the closed forms select at `n`, run at the point's
    memrefs and input blocks, the scratch at what position `n - 1` left. Both conditions at once is no case. -/
def outsAt1 (c : Dev nD) : (n : ℕ) → n < cfg1.N → Vec F S4x256x128 .f32 × Vec F S4x256x1 .f32 × Vec F S4x256x1 .f32 × Vec F S4x256x128 .f32
  | 0, hn => ptA V c ⟨0, hn⟩ (Nat.zero_mod _) (show ¬(0 % 8 = 7) by decide)
  | n + 1, hn =>
    if h0 : (n + 1) % 8 = 0 then
      if h1 : (n + 1) % 8 = 7 then
        False.elim (by omega)
      else
        ptA V c ⟨n + 1, hn⟩ h0 h1
    else
      if h1 : (n + 1) % 8 = 7 then
        ptC V c ⟨n + 1, hn⟩ h0 h1 (outsAt1 c n (Nat.lt_of_succ_lt hn)).2
      else
        ptB V c ⟨n + 1, hn⟩ h0 h1 (outsAt1 c n (Nat.lt_of_succ_lt hn)).2

/-- `outsAt1` at a point of case A: that case's contents. -/
theorem outsAt1_A (c : Dev nD) (t : Fin cfg1.N) (h0 : t.val % 8 = 0) (h1 : ¬t.val % 8 = 7) :
    outsAt1 V c t.val t.isLt = ptA V c t h0 h1 := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = ptB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = ptC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The region's invariant, point by point -/

/-- Before position `n`: before the first point what the launch hands over (every scratch at anything); afterwards
    each scratch at what the point before left in it (`outsAt1`'s scratch components), the other region's scoped
    buffers and the generator register at some state. -/
def PhiS1 (c : Dev nD) : (n : ℕ) → n ≤ cfg1.N → sProp 𝕄
  | 0, _ => Pipeline.ΦA spec1 c
  | n + 1, hn => iprop(iprop(other1 (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(other1 (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

theorem PhiS1_pos (c : Dev nD) (n : ℕ) (h : n ≤ cfg1.N) (hz : n ≠ 0) :
    PhiS1 V c n h = iprop(iprop(other1 (F := F) c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    so that case's run applies. The invariant hands the body each scratch at what the point before left (at anything
    before the first point) and takes it back at this point's contents; where the final store is not taken the
    output's buffer goes back untouched (the window is idle and not written back there). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold ptA sout1_A_0 sout1_A_1 sout1_A_2; (try dsimp only)
    by_cases hz : t.val = 0
    · rw [PhiS1_castSucc V c t, PhiS1_zero V c _ _ hz, PhiA1_eq]
      iintro ⟨⟨⟨HR, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR HS0 HS1 HS2 Hg]
      · isplitr [Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HR, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HR HS0 HS1 HS2 Hg]
      · isplitr [Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold ptC out1_C_3 sout1_C_0 sout1_C_1 sout1_C_2; (try dsimp only)
      rw [PhiS1_castSucc V c t, PhiS1_pos V c _ _ hz]
      iintro ⟨⟨⟨HR, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HR HS0 HS1 HS2 Hg]
      · isplitr [Hg]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold ptB sout1_B_0 sout1_B_1 sout1_B_2; (try dsimp only)
      rw [PhiS1_castSucc V c t, PhiS1_pos V c _ _ hz]
      iintro ⟨⟨⟨HR, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR HS0 HS1 HS2 Hg]
      · isplitr [Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1, HS2⟩, Hg⟩
  isplitr [Hg]
  · isplitl [HR]; · iexact HR
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end

end Cert.KernelIdeal.Hand

end
-- ==== Proof.IRun.lean ====
/-
  The run of the whole program: one line of host operations (the concatenation of the three weight matrices), then the
  projection region, then the attention region.  Between two items a core holds every unscoped buffer whole at a
  valuation: the launch contents, then the host line's results, then — after a region — the region's arrays at what its
  write-backs leave and every other buffer as the region found it.  The final state is read against the last
  valuation at every unscoped buffer: the argument arrays (no item writes them) and the result array alike.
-/
import proofs.«154512_j5798205849797_2_alg».proof.Proof.IR0
import proofs.«154512_j5798205849797_2_alg».proof.Proof.IR1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host line (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No host operation writes an argument (the one line writes the concatenation's own buffer). -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    exact StableHlo.devRef_ne_of_ne hb))

/-- An array neither region stages and the host line does not write ends as launched. -/
theorem W3_untouched (c : Dev nD) (b : Ref sig .tc) (h1 : ∀ w, Pipeline.arrRef spec1 w ≠ b) (h0 : ∀ w, Pipeline.arrRef spec0 w ≠ b)
    (hb : b ≠ main_v0) : W3 m ρ c (Proc.devRef .tc b) = m ((c : Thread nD τ).loc b) :=
  (W3_of_ne m ρ c b h1).trans ((W2_of_ne m ρ c b h0).trans ((W1_of_ne m ρ c b hb).trans rfl))

/-- The first argument is the projection region's input window 0: read back through the region unchanged. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_ne m ρ c main_arg0 (by decide)
    _ = m ((c : Thread nD τ).loc main_arg0) := rfl

/-! ## The proof data family and the thread state -/

abbrev adm : (p : Fin 2) → (pcfgs (F := F) p).Adm := fun p => (cfgs p).toPCfg_adm
/-- Every pipeline's proof data, each at its region's entry contents: a literal match. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W2`, left at `W3`; the
    generator register and the scoped rest enter the region's invariant before its first point and leave it after
    its last, the scratch contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (V2 m ρ) c)
    unfold Pipeline.ΦA
    iintro ⟨Hp, -, Hr⟩
    isplitl [Hr]; · iexact Hr
    iexact Hp
  hout c := by
    rw [Pipeline.ownSems0_none]
    refine Idealize.SL.BI.BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and the final memory holds every unscoped buffer at the last valuation `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m ρ c),
     (h c _ (mem_uc main_arg1 (by decide))).trans (W3_untouched m ρ c main_arg1 (by decide) (by decide) (by decide)),
     (h c _ (mem_uc main_arg2 (by decide))).trans (W3_untouched m ρ c main_arg2 (by decide) (by decide) (by decide)),
     (h c _ (mem_uc main_arg3 (by decide))).trans (W3_untouched m ρ c main_arg3 (by decide) (by decide) (by decide)),
     (h c _ (mem_uc main_arg4 (by decide))).trans (W3_untouched m ρ c main_arg4 (by decide) (by decide) (by decide))⟩)
    (run_all m ρ)

end Cert.KernelIdeal.Hand

end
-- ==== Proof.LibHostNary3.lean ====
/-
  Reading a line of host operations that contains a three-operand operation (a `stablehlo.concatenate` of three
  arrays).
-/
import Idealize.ShloMosaic.Lib.StableHlo.Run

namespace HostNary3

open Idealize.ShloMosaic Idealize.ShloMosaic.StableHlo Idealize.ShloMosaic.TcCoe

variable {sig : RefSig} {τ : Topo} {Val : EltTy → Type}

/-- The result of a host operation over a LITERAL family of three references, with each operand's contents read at
    its own reference (rather than under a binder over the family's index), so that a rewriting pass can go on into
    the operands' own contents. The three-operand companion of the library's four-operand `nary4_result`. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end HostNary3

/-- `after_results` for a line whose n-ary operations have three operands: the fold unfolded, then each operation's
    result rewritten at its own buffer and passed over at any other, outermost first. -/
macro "host_results3" : tactic =>
  `(tactic| (simp only [Idealize.ShloMosaic.StableHlo.after_cons, Idealize.ShloMosaic.StableHlo.after_nil]
             repeat (first
               | rw [HostNary3.nary3_result]
               | rw [Idealize.ShloMosaic.StableHlo.nullary_result] | rw [Idealize.ShloMosaic.StableHlo.unary_result]
               | rw [Idealize.ShloMosaic.StableHlo.binary_result] | rw [Idealize.ShloMosaic.StableHlo.ternary_result]
               | rw [Idealize.ShloMosaic.StableHlo.reshape_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.reshape_result_ne]; rotate_left; decide)
               | (rw [Idealize.ShloMosaic.StableHlo.nary_result_ne]; rotate_left; decide))))
-- ==== Proof.LibRealLift.lean ====
/-
  Finite arrays.  An array of extended reals that is the coercion of an array of reals stays one under every operation
  the two programs apply to finite data: sums, differences, products, a quotient by a nonzero real, `tanh`, `exp`, a
  change of float format (the identity), a matrix product into a zero accumulator, the host's `dot_general`, a sum
  along one axis (the kernel's and the host's), and every change of layout (which only re-indexes).  Each lemma names
  the real array the result is the coercion of, so that all further algebra is done over ℝ.
-/
import Idealize.ShloMosaic.PureOps.Ideal
import Idealize.ShloMosaic.PureOps.Ideal.Laws
import Idealize.ShloMosaic.Lib.ValueIdx
import Idealize.ShloMosaic.Lib.Pipeline.Value

noncomputable section

namespace Cert.RealLift

open Idealize.ShloMosaic

/-- `A` is the coercion of the real array `a`, entry by entry. -/
def IsR {ι : Type} (A : ι → EReal) (a : ι → ℝ) : Prop := ∀ i, A i = ((a i : ℝ) : EReal)

/-- The coercion of a finite sum of reals is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of products of finite entries is the coercion of the real sum of products. -/
theorem sum_mul_coe {ι : Type} (s : Finset ι) (f g : ι → EReal) (f' g' : ι → ℝ) (hf : ∀ i, f i = ((f' i : ℝ) : EReal))
    (hg : ∀ i, g i = ((g' i : ℝ) : EReal)) : ∑ i ∈ s, f i * g i = ((∑ i ∈ s, f' i * g' i : ℝ) : EReal) := by
  rw [coe_sum]
  exact Finset.sum_congr rfl fun i _ => by rw [hf i, hg i, EReal.coe_mul]

theorem sum_coe {ι : Type} (s : Finset ι) (f : ι → EReal) (f' : ι → ℝ) (hf : ∀ i, f i = ((f' i : ℝ) : EReal)) :
    ∑ i ∈ s, f i = ((∑ i ∈ s, f' i : ℝ) : EReal) := by
  rw [coe_sum]
  exact Finset.sum_congr rfl fun i _ => hf i

variable {s t : Shape} {φ : FTy}

namespace IsR

theorem of_eq {ι : Type} {A : ι → EReal} {a a' : ι → ℝ} (h : IsR A a) (e : ∀ i, a i = a' i) : IsR A a' :=
  fun i => (h i).trans (congrArg _ (e i))

theorem addf {A B : FVec Ideal s φ} {a b : s.Idx → ℝ} (hA : IsR A a) (hB : IsR B b) :
    IsR (Idealize.ShloMosaic.addf A B) (fun i => a i + b i) := fun i => by
  show A i + B i = _
  rw [hA i, hB i, EReal.coe_add]

theorem subf {A B : FVec Ideal s φ} {a b : s.Idx → ℝ} (hA : IsR A a) (hB : IsR B b) :
    IsR (Idealize.ShloMosaic.subf A B) (fun i => a i - b i) := fun i => by
  show A i - B i = _
  rw [hA i, hB i, EReal.coe_sub]

theorem mulf {A B : FVec Ideal s φ} {a b : s.Idx → ℝ} (hA : IsR A a) (hB : IsR B b) :
    IsR (Idealize.ShloMosaic.mulf A B) (fun i => a i * b i) := fun i => by
  show A i * B i = _
  rw [hA i, hB i, EReal.coe_mul]

/-- A quotient by a nonzero real. -/
theorem div_coe (x y : ℝ) (hy : y ≠ 0) : Ideal.div ((x : ℝ) : EReal) ((y : ℝ) : EReal) = ((x / y : ℝ) : EReal) := by
  rw [Ideal.div_coe hy, ← EReal.coe_mul, mul_one_div]

theorem divf {A B : FVec Ideal s φ} {a b : s.Idx → ℝ} (hA : IsR A a) (hB : IsR B b) (hb : ∀ i, b i ≠ 0) :
    IsR (Idealize.ShloMosaic.divf A B) (fun i => a i / b i) := fun i => by
  show Ideal.div (A i) (B i) = _
  rw [hA i, hB i, div_coe _ _ (hb i)]

theorem hostDivf {A B : FVec Ideal s φ} {a b : s.Idx → ℝ} (hA : IsR A a) (hB : IsR B b) (hb : ∀ i, b i ≠ 0) :
    IsR (Host.divf A B) (fun i => a i / b i) := fun i => by
  show Ideal.div (A i) (B i) = _
  rw [hA i, hB i, div_coe _ _ (hb i)]

theorem tanh {A : FVec Ideal s φ} {a : s.Idx → ℝ} (hA : IsR A a) :
    IsR (Idealize.ShloMosaic.tanh A) (fun i => Real.tanh (a i)) := fun i => by
  show Ideal.tanh (A i) = _
  rw [hA i]; rfl

theorem exp {A : FVec Ideal s φ} {a : s.Idx → ℝ} (hA : IsR A a) :
    IsR (Idealize.ShloMosaic.exp A) (fun i => Real.exp (a i)) := fun i => by
  show Ideal.exp (A i) = _
  rw [hA i]; rfl

theorem hostTanh {A : FVec Ideal s φ} {a : s.Idx → ℝ} (hA : IsR A a) :
    IsR (Host.tanh A) (fun i => Real.tanh (a i)) := fun i => by
  show Ideal.tanh (A i) = _
  rw [hA i]; rfl

theorem hostExp {A : FVec Ideal s φ} {a : s.Idx → ℝ} (hA : IsR A a) :
    IsR (Host.exp A) (fun i => Real.exp (a i)) := fun i => by
  show Ideal.exp (A i) = _
  rw [hA i]; rfl

/-- A change of float format is the identity on the extended reals. -/
theorem truncf {A : FVec Ideal s φ} {a : s.Idx → ℝ} (hA : IsR A a) (ψ : FTy) (h : ψ.bits < φ.bits) :
    IsR (Idealize.ShloMosaic.truncf ψ A h : FVec Ideal s ψ) a := fun i => hA i

theorem extf {A : FVec Ideal s φ} {a : s.Idx → ℝ} (hA : IsR A a) (ψ : FTy) (h : φ.bits < ψ.bits) :
    IsR (Idealize.ShloMosaic.extf ψ A h : FVec Ideal s ψ) a := fun i => hA i

/-- Layout operations only re-index. -/
theorem shapeCast {A : s.Idx → EReal} {a : s.Idx → ℝ} (hA : IsR A a) (h : s.ShapeCasts t) :
    IsR (Idealize.ShloMosaic.shapeCast t A h) (Idealize.ShloMosaic.shapeCast t a h) := fun _ => hA _

theorem broadcastTo {A : s.Idx → EReal} {a : s.Idx → ℝ} (hA : IsR A a) (h : s.Broadcasts t) :
    IsR (Idealize.ShloMosaic.broadcastTo t A h) (Idealize.ShloMosaic.broadcastTo t a h) := fun _ => hA _

theorem broadcastInDim {A : s.Idx → EReal} {a : s.Idx → ℝ} (hA : IsR A a) (dims : Fin s.rank → Fin t.rank)
    (h : s.BroadcastsInDim t dims) :
    IsR (Idealize.ShloMosaic.broadcastInDim t dims h A) (Idealize.ShloMosaic.broadcastInDim t dims h a) := fun _ => hA _

/-- A splat of a real. -/
theorem broadcast {x : EReal} {r : ℝ} (h : x = ((r : ℝ) : EReal)) : IsR (Idealize.ShloMosaic.broadcast s x) (fun _ => r) :=
  fun _ => h

theorem constant {b : BitVec φ.bits} {r : ℝ} (h : Ideal.ofBits φ b = ((r : ℝ) : EReal)) :
    IsR (Idealize.ShloMosaic.constant (F := Ideal) s φ b) (fun _ => r) := fun _ => h

/-- A matrix product of finite operands into the zero accumulator: the real sum of products over the contraction. -/
theorem matmul0 {sl sr so : Shape} {φ₁ φ₂ : FTy} (D : DotDims sl sr so) (prec : Option ContractPrecision)
    {A : FVec Ideal sl φ₁} {B : FVec Ideal sr φ₂} {a : sl.Idx → ℝ} {b : sr.Idx → ℝ} (hA : IsR A a) (hB : IsR B b) :
    IsR (Idealize.ShloMosaic.matmul D prec A B (Idealize.ShloMosaic.constant so .f32 0x00000000#32))
      (fun j => ∑ k : D.contr.Idx, a (D.lhsIdx j k) * b (D.rhsIdx j k)) := fun j => by
  refine (Ideal.matmul_constant_zero_apply D prec A B j).trans ?_
  exact sum_mul_coe _ _ _ _ _ (fun k => hA _) (fun k => hB _)

/-- The host's `dot_general` of finite operands. -/
theorem dotGeneral {sl sr so : Shape} {φ₁ φ₂ : FTy} (D : DotDims sl sr so) (prec : Option ContractPrecision)
    {A : FVec Ideal sl φ₁} {B : FVec Ideal sr φ₂} {a : sl.Idx → ℝ} {b : sr.Idx → ℝ} (hA : IsR A a) (hB : IsR B b) :
    IsR (Host.dotGeneral D prec A B) (fun j => ∑ k : D.contr.Idx, a (D.lhsIdx j k) * b (D.rhsIdx j k)) := fun j => by
  refine (Ideal.dotGeneral_apply D prec .single A B j).trans ?_
  exact sum_mul_coe _ _ _ _ _ (fun k => hA _) (fun k => hB _)

/-- The kernel's sum along one axis of a finite array. -/
theorem multiReduction_add {ax : Fin s.rank} {A : FVec Ideal s φ} {a : s.Idx → ℝ} (hA : IsR A a) (acc : BitVec φ.bits)
    (h : s.Reduces [ax] t) (hφ : FKind.Formats φ) (hacc : acc = FKind.add.neutral φ hφ) :
    IsR (Idealize.ShloMosaic.multiReduction .add [ax] t A acc h hφ hacc) (fun j => ∑ k : Fin (s.size ax), a (h.lift j k)) :=
  fun j => by
    refine (Ideal.multiReduction_add_single A acc h hφ hacc j).trans ?_
    exact sum_coe _ _ _ (fun k => hA _)

end IsR

end Cert.RealLift

end
-- ==== Proof.IHost.lean ====
/-
  The one line of host operations: the three weight matrices laid side by side along the columns into one
  [128, 384] matrix.  After it the matrix's buffer holds that concatenation of the three argument buffers; read at
  (d, e') it is wq (d, e') for e' < 128, wk (d, e' - 128) for 128 ≤ e' < 256, and wv (d, e' - 256) beyond.
-/
import proofs.«154512_j5798205849797_2_alg».proof.Proof.Gen.KernelIdeal.Launch
import proofs.«154512_j5798205849797_2_alg».proof.Proof.LibHostNary3
import proofs.«154512_j5798205849797_2_alg».proof.Proof.LibRealLift
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.RealLift

variable {F : FTy → Type} [FloatOps F] [Named F]

/-- The three matrices side by side. -/
def wcat {α : Type} (a b c : S128x128.Idx → α) : S128x384.Idx → α :=
  concatenate S128x384 1 [⟨S128x128, a⟩, ⟨S128x128, b⟩, ⟨S128x128, c⟩] Facts₀.concatenates_S128x128_S128x128_S128x128_S128x384_d1

/-- After the host line the concatenation's buffer holds the three argument buffers side by side. -/
theorem after_hostOps0_v0 (W : Valuation τ sig (Elt F)) :
    StableHlo.after (hostOps0 (F := F)) W (Proc.devRef .tc main_v0)
      = wcat (W (Proc.devRef .tc main_arg2)) (W (Proc.devRef .tc main_arg3)) (W (Proc.devRef .tc main_arg4)) := by
  dsimp only [hostOps0]
  host_results3
  rfl

/-- The real matrix the concatenation is the coercion of. -/
def wcatR (a b c : S128x128.Idx → ℝ) : S128x384.Idx → ℝ := fun j =>
  if h : (j 1).val < 128 then a (ix2 (j 0) ⟨(j 1).val, h⟩)
  else if h2 : (j 1).val < 256 then b (ix2 (j 0) ⟨(j 1).val - 128, by omega⟩)
  else c (ix2 (j 0) ⟨(j 1).val - 256, by have hj : (j 1).val < 384 := (j 1).isLt; omega⟩)

theorem wcat_isR {A B C : S128x128.Idx → EReal} {a b c : S128x128.Idx → ℝ} (hA : IsR A a) (hB : IsR B b) (hC : IsR C c) :
    IsR (wcat A B C) (wcatR a b c) := by
  intro j
  have hj0 : (j 0).val < 128 := (j 0).isLt
  have hj1 : (j 1).val < 384 := (j 1).isLt
  unfold wcat wcatR
  by_cases h : (j 1).val < 128
  · rw [dif_pos h]
    refine (concatenate_apply_piece (1 : Fin 2) [⟨S128x128, A⟩, ⟨S128x128, B⟩, ⟨S128x128, C⟩] _ j 0 (by simp) S128x128 A rfl rfl 0 rfl (ix2 (j 0) ⟨(j 1).val, h⟩) ?_ ?_).trans (hA _)
    · intro b hb; match b with
      | ⟨0, _⟩ => rfl
      | ⟨1, _⟩ => exact absurd rfl hb
    · show 0 + (j 1).val = (j 1).val; omega
  · rw [dif_neg h]
    by_cases h2 : (j 1).val < 256
    · rw [dif_pos h2]
      refine (concatenate_apply_piece (1 : Fin 2) [⟨S128x128, A⟩, ⟨S128x128, B⟩, ⟨S128x128, C⟩] _ j 1 (by simp) S128x128 B rfl rfl 128 rfl (ix2 (j 0) ⟨(j 1).val - 128, by omega⟩) ?_ ?_).trans (hB _)
      · intro b hb; match b with
        | ⟨0, _⟩ => rfl
        | ⟨1, _⟩ => exact absurd rfl hb
      · show 128 + ((j 1).val - 128) = (j 1).val; omega
    · rw [dif_neg h2]
      refine (concatenate_apply_piece (1 : Fin 2) [⟨S128x128, A⟩, ⟨S128x128, B⟩, ⟨S128x128, C⟩] _ j 2 (by simp) S128x128 C rfl rfl 256 rfl (ix2 (j 0) ⟨(j 1).val - 256, by omega⟩) ?_ ?_).trans (hC _)
      · intro b hb; match b with
        | ⟨0, _⟩ => rfl
        | ⟨1, _⟩ => exact absurd rfl hb
      · show 256 + ((j 1).val - 256) = (j 1).val; omega

end Cert.KernelIdeal.Hand

end
-- ==== Proof.LibFiniteInputs.lean ====
/-
  Finite inputs.  A precondition of the form "every entry's absolute value is below +∞", taken over a whole array by an
  all-reduction, makes every entry of the array a real number: an all-reduction that is 1 has every compared entry 1;
  the word `0x7F800000` denotes `⊤`; and an extended real with `max x (-x) < ⊤` is neither infinity.
  Generic in the array's shape and in the axes reduced; the scalar shape is spelt literally so that any program's own
  abbreviation of it unifies.
-/
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx

/-- The scalar shape. -/
abbrev S0 : Shape := ⟨0, ![]⟩

instance : Subsingleton S0.Idx := ⟨fun a b => funext fun d => d.elim0⟩

/-- The word of +∞ denotes `⊤`. -/
theorem inf_f32 : Ideal.ofBits .f32 0x7F800000#32 = ⊤ := by simp [Ideal.ofBits, Ideal.ieee]

/-- An extended real whose absolute value compares below +∞ is a real. -/
theorem real_of_lt (x : EReal) (h : Ideal.cmp .olt (max x (-x)) (Ideal.ofBits .f32 0x7F800000#32) = 1#1) :
    ∃ r : ℝ, x = ((r : ℝ) : EReal) := by
  rw [inf_f32] at h
  have hlt : max x (-x) < ⊤ := by
    by_contra hn
    have : Ideal.cmp .olt (max x (-x)) ⊤ = 0#1 := by simp [Ideal.cmp, hn]
    rw [this] at h
    exact absurd h (by decide)
  induction x using EReal.rec with
  | bot => exact absurd hlt (by simp)
  | coe r => exact ⟨r, rfl⟩
  | top => exact absurd hlt (by simp)

/-- One array: the all-reduction of `|a| < +∞` is 1, so every entry of `a` is a real. -/
theorem all_real {s : Shape} {axes : List (Fin s.rank)} (a : FVec Ideal s .f32) (hb : S0.BroadcastsInDim s (![] : Fin 0 → Fin s.rank))
    (hr : s.ReducesTo axes S0) (hn : 0 < S0.numel)
    (e : Host.reduce IntOp.andi (cmpf .olt (Host.absf a) (broadcastInDim s ![] hb (constant (F := Ideal) S0 .f32 0x7F800000#32)))
      (constantI S0 1 1#1) hr hn ix0 = 1#1) (i : s.Idx) : ∃ r : ℝ, a i = ((r : ℝ) : EReal) :=
  real_of_lt (a i) (Host.reduce_andi_all _ _ hr hn ix0 e i)

end Cert.FiniteInputs

end
-- ==== Proof.IPre.lean ====
/-
  The precondition, decoded.  "Every float input is finite" is a conjunction of four all-reductions of the
  comparisons |a| < +∞, one per float argument; each makes every entry of its array a real number.
-/
import proofs.«154512_j5798205849797_2_alg».proof.Pre_finite_inputs
import proofs.«154512_j5798205849797_2_alg».proof.Proof.Gen.Pre_finite_inputs
import proofs.«154512_j5798205849797_2_alg».proof.Proof.LibFiniteInputs
import Idealize.ShloMosaic.Lib.Affine

noncomputable section

namespace Cert.PreReal

open Idealize.ShloMosaic Idealize.ShloMosaic.ValueIdx Cert.Pre_finite_inputs

attribute [local instance] Cert.Pre_finite_inputs.Gen.facts

/-- Under the precondition every entry of the four float arguments is a real number. -/
theorem reals_of_pre (x : FVec Ideal S4x4096x128 .f32) (mk : IVec S4x4096 32) (wq wk wv : FVec Ideal S128x128 .f32)
    (h : Cert.Pre_finite_inputs.fn (F := Ideal) x mk wq wk wv = fun _ => 1#1) :
    (∀ i, ∃ r : ℝ, x i = ((r : ℝ) : EReal)) ∧ (∀ i, ∃ r : ℝ, wq i = ((r : ℝ) : EReal))
      ∧ (∀ i, ∃ r : ℝ, wk i = ((r : ℝ) : EReal)) ∧ (∀ i, ∃ r : ℝ, wv i = ((r : ℝ) : EReal)) := by
  have h0 := congrFun h ix0
  dsimp only [Cert.Pre_finite_inputs.fn, Cert.Pre_finite_inputs.fn_part1] at h0
  have e1 : ∀ (a b : IVec S_ 1), andi a b ix0 = IntOp.andi (a ix0) (b ix0) := fun _ _ => rfl
  rw [e1, IntOp.andi_eq_one, e1, IntOp.andi_eq_one, e1, IntOp.andi_eq_one] at h0
  obtain ⟨⟨⟨hx, hq⟩, hk⟩, hv⟩ := h0
  exact ⟨fun i => Cert.FiniteInputs.all_real x _ _ _ hx i, fun i => Cert.FiniteInputs.all_real wq _ _ _ hq i,
    fun i => Cert.FiniteInputs.all_real wk _ _ _ hk i, fun i => Cert.FiniteInputs.all_real wv _ _ _ hv i⟩

end Cert.PreReal

end
-- ==== Proof.IChain.lean ====
/-
  From the launch memory to the arrays each region finds.  Under the precondition the four float arguments are real
  arrays (their entries' real parts).  The projection region finds x as launched and the three weight matrices side by
  side; the attention region finds what the projection region's write-backs left; the result array ends at what the
  attention region's write-backs leave.
-/
import proofs.«154512_j5798205849797_2_alg».proof.Proof.IRun
import proofs.«154512_j5798205849797_2_alg».proof.Proof.IHost
import proofs.«154512_j5798205849797_2_alg».proof.Proof.IPre
import proofs.«154512_j5798205849797_2_alg».proof.Proof.LibRealLift

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.RealLift

/-- An array of extended reals all of whose entries are reals is the coercion of its entries' real parts. -/
theorem isR_toReal {ι : Type} (A : ι → EReal) (h : ∀ i, ∃ r : ℝ, A i = ((r : ℝ) : EReal)) : IsR A (fun i => (A i).toReal) :=
  fun i => by
    obtain ⟨r, hr⟩ := h i
    show A i = (((A i).toReal : ℝ) : EReal)
    rw [hr, EReal.toReal_coe]

variable (m : (ℓ : Loc nD τ sig) → Buf (Elt Ideal) ℓ) (ρ : Dev nD → PrngReg)

/-- The launch contents of the four float arguments, as functions of an index. -/
abbrev xE (c : Dev nD) : S4x4096x128.Idx → EReal := m ((c : Thread nD τ).loc main_arg0)
abbrev wqE (c : Dev nD) : S128x128.Idx → EReal := m ((c : Thread nD τ).loc main_arg2)
abbrev wkE (c : Dev nD) : S128x128.Idx → EReal := m ((c : Thread nD τ).loc main_arg3)
abbrev wvE (c : Dev nD) : S128x128.Idx → EReal := m ((c : Thread nD τ).loc main_arg4)

/-- Their real parts. -/
def xR (c : Dev nD) : S4x4096x128.Idx → ℝ := fun i => (xE m c i).toReal
def wqR (c : Dev nD) : S128x128.Idx → ℝ := fun i => (wqE m c i).toReal
def wkR (c : Dev nD) : S128x128.Idx → ℝ := fun i => (wkE m c i).toReal
def wvR (c : Dev nD) : S128x128.Idx → ℝ := fun i => (wvE m c i).toReal

/-- What the projection region finds in its first window's array: x as launched. -/
theorem V1_arg0 (c : Dev nD) : V1 m ρ c main_arg0 = m ((c : Thread nD τ).loc main_arg0) :=
  (W1_of_ne m ρ c main_arg0 (by decide)).trans rfl

/-- What it finds in its second window's array: the three weight matrices side by side. -/
theorem V1_v0 (c : Dev nD) : (V1 m ρ c main_v0 : S128x384.Idx → EReal) = wcat (wqE m c) (wkE m c) (wvE m c) :=
  after_hostOps0_v0 (F := Ideal) (W0 m ρ c)

/-- What the attention region finds: the projection region's three results as its write-backs left them. -/
theorem V2_q (c : Dev nD) : V2 m ρ c main_v1_0 = (dat0 (V1 m ρ) c).arrAt 2 cfg0.N := W2_arr m ρ c 2
theorem V2_k (c : Dev nD) : V2 m ρ c main_v1_1 = (dat0 (V1 m ρ) c).arrAt 3 cfg0.N := W2_arr m ρ c 3
theorem V2_v (c : Dev nD) : V2 m ρ c main_v1_2 = (dat0 (V1 m ρ) c).arrAt 4 cfg0.N := W2_arr m ρ c 4

/-- The result array at the end: what the attention region's write-backs leave. -/
theorem W3_out (c : Dev nD) : W3 m ρ c (Proc.devRef .tc main_v2) = (dat1 (V2 m ρ) c).arrAt 3 cfg1.N := W3_arr m ρ c 3

end Cert.KernelIdeal.Hand

end
-- ==== Proof.IVal0.lean ====
/- REGION 0's values at the extended reals: the projection's three payloads (the q, k and v column blocks of
   x[b] · [wq | wk | wv]) at an index, for real inputs, as plain real sums over the contracted axis; then the three
   arrays the region leaves, for any entry contents whose x and weight arrays are real. -/
import proofs.«154512_j5798205849797_2_alg».proof.Proof.IR0
import proofs.«154512_j5798205849797_2_alg».proof.Proof.LibRealLift
import Idealize.ShloMosaic.Lib.ValueIdx
import Idealize.ShloMosaic.Lib.ValueLayout
import Idealize.ShloMosaic.Lib.Pipeline.Value

set_option maxRecDepth 16384

noncomputable section

namespace Cert.KernelIdeal.Val0

open Cert.KernelIdeal Cert.KernelIdeal.Gen Cert.RealLift
open Idealize.ShloMosaic Idealize.ShloMosaic.ValueIdx

/-- The dimension numbers of the projection's matrix product: [4096,128] · [128,384], contracting the 128 axis. -/
abbrev D0 : DotDims S4096x128 S128x384 S4096x384 := dot_S4096x128_S128x384_S4096x384_1_0_0_1_n_n

/-! ## The product's operand indices, coordinate by coordinate -/

theorem lhs_0 (j : S4096x384.Idx) (q : D0.contr.Idx) : (D0.lhsIdx j q 0).val = (j 0).val := by
  unfold DotDims.lhsIdx
  rw [dif_neg (show ¬(0 : Fin S4096x128.rank) ∈ D0.lhsBatch by decide), dif_pos (show (0 : Fin S4096x128.rank) ∈ D0.lhsNonContracting by decide)]
  rfl
theorem lhs_1 (j : S4096x384.Idx) (q : D0.contr.Idx) : (D0.lhsIdx j q 1).val = (q ⟨0, by decide⟩).val :=
  D0.lhsIdx_val_of_single rfl j q
theorem rhs_0 (j : S4096x384.Idx) (q : D0.contr.Idx) : (D0.rhsIdx j q 0).val = (q ⟨0, by decide⟩).val :=
  D0.rhsIdx_val_of_single rfl j q
theorem rhs_1 (j : S4096x384.Idx) (q : D0.contr.Idx) : (D0.rhsIdx j q 1).val = (j 1).val := by
  unfold DotDims.rhsIdx
  rw [dif_neg (show ¬(1 : Fin S128x384.rank) ∈ D0.rhsBatch by decide), dif_pos (show (1 : Fin S128x384.rank) ∈ D0.rhsNonContracting by decide)]
  rfl

/-! ## The specification: one row of x against one column of the concatenated weights -/

/-- Row r of the batch row held in the block (its leading axis has extent 1) against column c of the weights. -/
def proj (a0 : S1x4096x128.Idx → ℝ) (a1 : S128x384.Idx → ℝ) (r : Fin 4096) (c : Fin 384) : ℝ :=
  ∑ d : Fin 128, a0 (ix3 (0 : Fin 1) r d) * a1 (ix2 d c)

/-- Column c of the 128-column block that starts at column o of the 384. -/
def col (o : ℕ) (ho : o + 128 ≤ 384) (c : Fin 128) : Fin 384 := ⟨c.val + o, by have := c.isLt; omega⟩
theorem col_val (o : ℕ) (ho : o + 128 ≤ 384) (c : Fin 128) : (col o ho c).val = c.val + o := rfl

variable {x0 : Vec Ideal S1x4096x128 .f32} {x1 : Vec Ideal S128x384 .f32}
  {a0 : S1x4096x128.Idx → ℝ} {a1 : S128x384.Idx → ℝ}

/-- The whole product: entry (r, c) is row r of x against column c of the weights. The narrowing of the operands to
    bf16 is the identity on the extended reals, and the accumulator is the zero constant. -/
theorem pay1_real (h0 : IsR x0 a0) (h1 : IsR x1 a1) :
    IsR (k0_pay1 (F := Ideal) x0 x1) (fun j => proj a0 a1 (j 0) (j 1)) := by
  have h := IsR.matmul0 D0 none
    ((h0.shapeCast shapeCasts_S1x4096x128_S4096x128).truncf .bf16 bitsLt_bf16_f32)
    ((h1.shapeCast shapeCasts_S128x384_S128x384).truncf .bf16 bitsLt_bf16_f32)
  refine IsR.of_eq h fun j => ?_
  unfold proj
  rw [← Equiv.sum_comp (contrEquiv1 D0 128 rfl rfl).symm]
  refine Finset.sum_congr rfl fun d _ => ?_
  have hd := contrEquiv1_symm_val D0 128 rfl rfl d
  congr 1
  · refine (shapeCast_apply a0 shapeCasts_S1x4096x128_S4096x128 _ (ix3 (0 : Fin 1) (j 0) d) ?_).trans rfl
    rw [Shape.rowMajor_val_three, Shape.rowMajor_val_two, lhs_0, lhs_1, hd]
    show ((0 * 4096 + (j 0).val) * 128 + d.val) = (j 0).val * 128 + d.val
    omega
  · rw [shapeCast_self]
    exact congrArg a1 (funext fun a => Fin.ext (by
      match a with
      | ⟨0, _⟩ => exact (rhs_0 _ _).trans hd
      | ⟨1, _⟩ => exact rhs_1 _ _))

/-- A 128-column block of the product starting at column o, with the unit leading axis put back: entry (0, r, c) is
    row r of x against column o + c of the weights. -/
theorem slice_real {o : ℕ} (ho : o + 128 ≤ 384) (hs : S4096x384.Slices ![0, o] S4096x128) (h0 : IsR x0 a0) (h1 : IsR x1 a1) :
    IsR (shapeCast S1x4096x128 (extractStridedSlice S4096x128 ![0, o] (k0_pay1 (F := Ideal) x0 x1) hs) shapeCasts_S4096x128_S1x4096x128)
      (fun j => proj a0 a1 (j 1) (col o ho (j 2))) := fun j => by
  refine (shapeCast_addUnit_apply (d := ![4096, 128]) _ shapeCasts_S4096x128_S1x4096x128 j).trans ?_
  have e : (fun a : Fin 2 => j a.succ) = ix2 (j 1) (j 2) := funext fun a => by
    match a with
    | ⟨0, _⟩ => rfl
    | ⟨1, _⟩ => rfl
  refine (congrArg _ e).trans ?_
  refine (slice2_axis1_apply o _ hs (j 1) (j 2) (col o ho (j 2)) (Nat.add_comm _ _)).trans ?_
  exact pay1_real h0 h1 (ix2 (j 1) (col o ho (j 2)))

/-- The q block: columns 0 … 127 of the product. -/
theorem pay2_real (h0 : IsR x0 a0) (h1 : IsR x1 a1) :
    IsR (k0_pay2 (F := Ideal) x0 x1) (fun j => proj a0 a1 (j 1) (col 0 (by omega) (j 2))) :=
  fun j => slice_real (by omega) slices_S4096x384_o0_0_S4096x128 h0 h1 j
/-- The k block: columns 128 … 255. -/
theorem pay3_real (h0 : IsR x0 a0) (h1 : IsR x1 a1) :
    IsR (k0_pay3 (F := Ideal) x0 x1) (fun j => proj a0 a1 (j 1) (col 128 (by omega) (j 2))) :=
  fun j => slice_real (by omega) slices_S4096x384_o0_128_S4096x128 h0 h1 j
/-- The v block: columns 256 … 383; its narrowing to bf16 is the identity on the extended reals. -/
theorem pay4_real (h0 : IsR x0 a0) (h1 : IsR x1 a1) :
    IsR (k0_pay4 (F := Ideal) x0 x1) (fun j => proj a0 a1 (j 1) (col 256 (by omega) (j 2))) :=
  fun j => slice_real (by omega) slices_S4096x384_o0_256_S4096x128 h0 h1 j

/-! # The arrays region 0 leaves -/

/-- Columns o … o + 127 of the projection of the whole x: entry (b, r, c) is row r of batch b against column c + o
    of the weights. -/
def arrG (o : ℕ) (ho : o + 128 ≤ 384) (xr : S4x4096x128.Idx → ℝ) (wr : S128x384.Idx → ℝ) : S4x4096x128.Idx → ℝ :=
  fun i => ∑ d : Fin 128, xr (ix3 (i 0) (i 1) d) * wr (ix2 d (col o ho (i 2)))

/-- A payload on the block of batch b of x and on the weights is block b of the specification. -/
theorem blk_real2 (x0 : Vec Ideal S1x4096x128 .f32) (x1 : Vec Ideal S128x384 .f32) (xr : S4x4096x128.Idx → ℝ) (wr : S128x384.Idx → ℝ)
    (b : Fin 4) (h0 : ∀ y : S1x4096x128.Idx, x0 y = ((xr (ix3 b (y 1) (y 2)) : ℝ) : EReal)) (h1 : IsR x1 wr) (j : S1x4096x128.Idx) :
    k0_pay2 (F := Ideal) x0 x1 j = ((arrG 0 (by omega) xr wr (ix3 b (j 1) (j 2)) : ℝ) : EReal) :=
  pay2_real (a0 := fun y => xr (ix3 b (y 1) (y 2))) h0 h1 j
theorem blk_real3 (x0 : Vec Ideal S1x4096x128 .f32) (x1 : Vec Ideal S128x384 .f32) (xr : S4x4096x128.Idx → ℝ) (wr : S128x384.Idx → ℝ)
    (b : Fin 4) (h0 : ∀ y : S1x4096x128.Idx, x0 y = ((xr (ix3 b (y 1) (y 2)) : ℝ) : EReal)) (h1 : IsR x1 wr) (j : S1x4096x128.Idx) :
    k0_pay3 (F := Ideal) x0 x1 j = ((arrG 128 (by omega) xr wr (ix3 b (j 1) (j 2)) : ℝ) : EReal) :=
  pay3_real (a0 := fun y => xr (ix3 b (y 1) (y 2))) h0 h1 j
theorem blk_real4 (x0 : Vec Ideal S1x4096x128 .f32) (x1 : Vec Ideal S128x384 .f32) (xr : S4x4096x128.Idx → ℝ) (wr : S128x384.Idx → ℝ)
    (b : Fin 4) (h0 : ∀ y : S1x4096x128.Idx, x0 y = ((xr (ix3 b (y 1) (y 2)) : ℝ) : EReal)) (h1 : IsR x1 wr) (j : S1x4096x128.Idx) :
    k0_pay4 (F := Ideal) x0 x1 j = ((arrG 256 (by omega) xr wr (ix3 b (j 1) (j 2)) : ℝ) : EReal) :=
  pay4_real (a0 := fun y => xr (ix3 b (y 1) (y 2))) h0 h1 j

/-- The windows' index maps, decided over the grid's four points: the x window and each output window sit on batch row t,
    the weight window on the whole array. -/
theorem idx_facts2 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 ∧ t.val < 4 :=
  (by decide +kernel : ∀ t : Fin grid0.N, _)
theorem idx_facts3 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_3.index t (0 : Fin 3) = t.val ∧ win0_3.index t (1 : Fin 3) = 0 ∧ win0_3.index t (2 : Fin 3) = 0 ∧ t.val < 4 :=
  (by decide +kernel : ∀ t : Fin grid0.N, _)
theorem idx_facts4 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_4.index t (0 : Fin 3) = t.val ∧ win0_4.index t (1 : Fin 3) = 0 ∧ win0_4.index t (2 : Fin 3) = 0 ∧ t.val < 4 :=
  (by decide +kernel : ∀ t : Fin grid0.N, _)

section Arrays
open Cert.KernelIdeal.Hand
open Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

/-! ## Output window 2: columns 0 … 127 of the projection, batch row by batch row -/

/-- What point t writes back is block t of the specification: its payload at the blocks of x and of the weights. -/
theorem flushed2_eq (c : Dev nD) (xr : S4x4096x128.Idx → ℝ) (wr : S128x384.Idx → ℝ)
    (hx : IsR (V c main_arg0) xr) (hw : IsR (V c main_v0) wr) (t : Fin cfg0.N) :
    (dat0 (F := Ideal) V c).flushed 2 t = ((cfg0.win 2).blk t).view.read (Elt Ideal) (fun i => ((arrG 0 (by omega) xr wr i : ℝ) : EReal)) := by
  show (cfg0.win 2).cut (grid0.coords t) ((dat0 (F := Ideal) V c).after 2 t) = _
  rw [after0_2, out0_2_eq]
  obtain ⟨e00, e01, e02, e10, e11, eo0, eo1, eo2, hlt⟩ := idx_facts2 t
  funext j
  have hb : t.val < 4 := hlt
  refine (blk_real2 (iblk0 V c 0 t) (iblk0 V c 1 t) xr wr ⟨t.val, hb⟩ ?_ ?_ j).trans ?_
  · intro y
    show V c main_arg0 (((cfg0.win 0).blk t).view.emb y) = _
    have e : ((cfg0.win 0).blk t).view.emb y = ix3 (⟨t.val, hb⟩ : Fin 4) (y 1) (y 2) := by
      funext a; apply Fin.ext
      match a with
      | ⟨0, _⟩ => show win0_0.index t (0 : Fin 3) * 1 + 1 * (y 0).val = t.val; have hy : (y 0).val < 1 := (y 0).isLt; omega
      | ⟨1, _⟩ => show win0_0.index t (1 : Fin 3) * 4096 + 1 * (y 1).val = (y 1).val; omega
      | ⟨2, _⟩ => show win0_0.index t (2 : Fin 3) * 128 + 1 * (y 2).val = (y 2).val; omega
    rw [e]; exact hx _
  · intro y
    show V c main_v0 (((cfg0.win 1).blk t).view.emb y) = _
    have e : ((cfg0.win 1).blk t).view.emb y = y := by
      funext a; apply Fin.ext
      match a with
      | ⟨0, _⟩ => show win0_1.index t (0 : Fin 2) * 128 + 1 * (y 0).val = (y 0).val; omega
      | ⟨1, _⟩ => show win0_1.index t (1 : Fin 2) * 384 + 1 * (y 1).val = (y 1).val; omega
    rw [e]; exact hw _
  · show _ = ((arrG 0 (by omega) xr wr (((cfg0.win 2).blk t).view.emb j) : ℝ) : EReal)
    have e : ((cfg0.win 2).blk t).view.emb j = ix3 (⟨t.val, hb⟩ : Fin 4) (j 1) (j 2) := by
      funext a; apply Fin.ext
      match a with
      | ⟨0, _⟩ => show win0_2.index t (0 : Fin 3) * 1 + 1 * (j 0).val = t.val; have hy : (j 0).val < 1 := (j 0).isLt; omega
      | ⟨1, _⟩ => show win0_2.index t (1 : Fin 3) * 4096 + 1 * (j 1).val = (j 1).val; omega
      | ⟨2, _⟩ => show win0_2.index t (2 : Fin 3) * 128 + 1 * (j 2).val = (j 2).val; omega
    exact congrArg (fun i => ((arrG 0 (by omega) xr wr i : ℝ) : EReal)) e.symm

/-- An index of the array is in point t's block iff each coordinate is in the block's range on its axis. -/
theorem mem_blk2 (t : Fin cfg0.N) (i : S4x4096x128.Idx) :
    i ∈ ((cfg0.win 2).blk t).view.set ↔ ∀ a : Fin 3, win0_2.index t a * S1x4096x128.size a ≤ (i a).val ∧ (i a).val < win0_2.index t a * S1x4096x128.size a + S1x4096x128.size a := by
  show i ∈ ((View.whole main_v1_0).slice (win0_2.rect t)).set ↔ _
  rw [View.set_slice_whole, Rect.mem_set_unit]
  exact Iff.rfl

/-- Every index of the array is in the block of the point that is its batch coordinate, and every point writes back. -/
theorem cover2 (i : S4x4096x128.Idx) : ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 128 := (i 2).isLt
  have hN : (i 0).val < cfg0.N := by show (i 0).val < grid0.N; rw [N_0]; exact hi0
  refine ⟨⟨(i 0).val, hN⟩, flush0_2 _, ?_⟩
  rw [mem_blk2]
  obtain ⟨e00, e01, e02, e10, e11, eo0, eo1, eo2, hlt⟩ := idx_facts2 ⟨(i 0).val, hN⟩
  have eo0' : win0_2.index ⟨(i 0).val, hN⟩ (0 : Fin 3) = (i 0).val := eo0
  intro a
  match a with
  | ⟨0, _⟩ => show win0_2.index ⟨(i 0).val, hN⟩ (0 : Fin 3) * 1 ≤ (i 0).val ∧ (i 0).val < win0_2.index ⟨(i 0).val, hN⟩ (0 : Fin 3) * 1 + 1; omega
  | ⟨1, _⟩ => show win0_2.index ⟨(i 0).val, hN⟩ (1 : Fin 3) * 4096 ≤ (i 1).val ∧ (i 1).val < win0_2.index ⟨(i 0).val, hN⟩ (1 : Fin 3) * 4096 + 4096; omega
  | ⟨2, _⟩ => show win0_2.index ⟨(i 0).val, hN⟩ (2 : Fin 3) * 128 ≤ (i 2).val ∧ (i 2).val < win0_2.index ⟨(i 0).val, hN⟩ (2 : Fin 3) * 128 + 128; omega

/-- The array after the region's write-backs: columns 0 … 127 of x[b] · [wq | wk | wv], every entry a real. -/
theorem arr0_2_isR (c : Dev nD) (xr : S4x4096x128.Idx → ℝ) (wr : S128x384.Idx → ℝ)
    (hx : IsR (V c main_arg0) xr) (hw : IsR (V c main_v0) wr) :
    IsR ((dat0 (F := Ideal) V c).arrAt 2 cfg0.N) (fun i => ∑ d : Fin 128, xr (ix3 (i 0) (i 1) d) * wr (ix2 d (col 0 (by omega) (i 2)))) := by
  have h := (dat0 (F := Ideal) V c).arrAt_eq_of_cover 2 (fun i => ((arrG 0 (by omega) xr wr i : ℝ) : EReal))
    (fun t _ => flushed2_eq V c xr wr hx hw t) cover2
  intro i
  rw [h]
  rfl

/-! ## Output window 3: columns 128 … 255 of the projection, batch row by batch row -/

/-- What point t writes back is block t of the specification: its payload at the blocks of x and of the weights. -/
theorem flushed3_eq (c : Dev nD) (xr : S4x4096x128.Idx → ℝ) (wr : S128x384.Idx → ℝ)
    (hx : IsR (V c main_arg0) xr) (hw : IsR (V c main_v0) wr) (t : Fin cfg0.N) :
    (dat0 (F := Ideal) V c).flushed 3 t = ((cfg0.win 3).blk t).view.read (Elt Ideal) (fun i => ((arrG 128 (by omega) xr wr i : ℝ) : EReal)) := by
  show (cfg0.win 3).cut (grid0.coords t) ((dat0 (F := Ideal) V c).after 3 t) = _
  rw [after0_3, out0_3_eq]
  obtain ⟨e00, e01, e02, e10, e11, eo0, eo1, eo2, hlt⟩ := idx_facts3 t
  funext j
  have hb : t.val < 4 := hlt
  refine (blk_real3 (iblk0 V c 0 t) (iblk0 V c 1 t) xr wr ⟨t.val, hb⟩ ?_ ?_ j).trans ?_
  · intro y
    show V c main_arg0 (((cfg0.win 0).blk t).view.emb y) = _
    have e : ((cfg0.win 0).blk t).view.emb y = ix3 (⟨t.val, hb⟩ : Fin 4) (y 1) (y 2) := by
      funext a; apply Fin.ext
      match a with
      | ⟨0, _⟩ => show win0_0.index t (0 : Fin 3) * 1 + 1 * (y 0).val = t.val; have hy : (y 0).val < 1 := (y 0).isLt; omega
      | ⟨1, _⟩ => show win0_0.index t (1 : Fin 3) * 4096 + 1 * (y 1).val = (y 1).val; omega
      | ⟨2, _⟩ => show win0_0.index t (2 : Fin 3) * 128 + 1 * (y 2).val = (y 2).val; omega
    rw [e]; exact hx _
  · intro y
    show V c main_v0 (((cfg0.win 1).blk t).view.emb y) = _
    have e : ((cfg0.win 1).blk t).view.emb y = y := by
      funext a; apply Fin.ext
      match a with
      | ⟨0, _⟩ => show win0_1.index t (0 : Fin 2) * 128 + 1 * (y 0).val = (y 0).val; omega
      | ⟨1, _⟩ => show win0_1.index t (1 : Fin 2) * 384 + 1 * (y 1).val = (y 1).val; omega
    rw [e]; exact hw _
  · show _ = ((arrG 128 (by omega) xr wr (((cfg0.win 3).blk t).view.emb j) : ℝ) : EReal)
    have e : ((cfg0.win 3).blk t).view.emb j = ix3 (⟨t.val, hb⟩ : Fin 4) (j 1) (j 2) := by
      funext a; apply Fin.ext
      match a with
      | ⟨0, _⟩ => show win0_3.index t (0 : Fin 3) * 1 + 1 * (j 0).val = t.val; have hy : (j 0).val < 1 := (j 0).isLt; omega
      | ⟨1, _⟩ => show win0_3.index t (1 : Fin 3) * 4096 + 1 * (j 1).val = (j 1).val; omega
      | ⟨2, _⟩ => show win0_3.index t (2 : Fin 3) * 128 + 1 * (j 2).val = (j 2).val; omega
    exact congrArg (fun i => ((arrG 128 (by omega) xr wr i : ℝ) : EReal)) e.symm

/-- An index of the array is in point t's block iff each coordinate is in the block's range on its axis. -/
theorem mem_blk3 (t : Fin cfg0.N) (i : S4x4096x128.Idx) :
    i ∈ ((cfg0.win 3).blk t).view.set ↔ ∀ a : Fin 3, win0_3.index t a * S1x4096x128.size a ≤ (i a).val ∧ (i a).val < win0_3.index t a * S1x4096x128.size a + S1x4096x128.size a := by
  show i ∈ ((View.whole main_v1_1).slice (win0_3.rect t)).set ↔ _
  rw [View.set_slice_whole, Rect.mem_set_unit]
  exact Iff.rfl

/-- Every index of the array is in the block of the point that is its batch coordinate, and every point writes back. -/
theorem cover3 (i : S4x4096x128.Idx) : ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 128 := (i 2).isLt
  have hN : (i 0).val < cfg0.N := by show (i 0).val < grid0.N; rw [N_0]; exact hi0
  refine ⟨⟨(i 0).val, hN⟩, flush0_3 _, ?_⟩
  rw [mem_blk3]
  obtain ⟨e00, e01, e02, e10, e11, eo0, eo1, eo2, hlt⟩ := idx_facts3 ⟨(i 0).val, hN⟩
  have eo0' : win0_3.index ⟨(i 0).val, hN⟩ (0 : Fin 3) = (i 0).val := eo0
  intro a
  match a with
  | ⟨0, _⟩ => show win0_3.index ⟨(i 0).val, hN⟩ (0 : Fin 3) * 1 ≤ (i 0).val ∧ (i 0).val < win0_3.index ⟨(i 0).val, hN⟩ (0 : Fin 3) * 1 + 1; omega
  | ⟨1, _⟩ => show win0_3.index ⟨(i 0).val, hN⟩ (1 : Fin 3) * 4096 ≤ (i 1).val ∧ (i 1).val < win0_3.index ⟨(i 0).val, hN⟩ (1 : Fin 3) * 4096 + 4096; omega
  | ⟨2, _⟩ => show win0_3.index ⟨(i 0).val, hN⟩ (2 : Fin 3) * 128 ≤ (i 2).val ∧ (i 2).val < win0_3.index ⟨(i 0).val, hN⟩ (2 : Fin 3) * 128 + 128; omega

/-- The array after the region's write-backs: columns 128 … 255 of x[b] · [wq | wk | wv], every entry a real. -/
theorem arr0_3_isR (c : Dev nD) (xr : S4x4096x128.Idx → ℝ) (wr : S128x384.Idx → ℝ)
    (hx : IsR (V c main_arg0) xr) (hw : IsR (V c main_v0) wr) :
    IsR ((dat0 (F := Ideal) V c).arrAt 3 cfg0.N) (fun i => ∑ d : Fin 128, xr (ix3 (i 0) (i 1) d) * wr (ix2 d (col 128 (by omega) (i 2)))) := by
  have h := (dat0 (F := Ideal) V c).arrAt_eq_of_cover 3 (fun i => ((arrG 128 (by omega) xr wr i : ℝ) : EReal))
    (fun t _ => flushed3_eq V c xr wr hx hw t) cover3
  intro i
  rw [h]
  rfl

/-! ## Output window 4: columns 256 … 383 of the projection, batch row by batch row -/

/-- What point t writes back is block t of the specification: its payload at the blocks of x and of the weights. -/
theorem flushed4_eq (c : Dev nD) (xr : S4x4096x128.Idx → ℝ) (wr : S128x384.Idx → ℝ)
    (hx : IsR (V c main_arg0) xr) (hw : IsR (V c main_v0) wr) (t : Fin cfg0.N) :
    (dat0 (F := Ideal) V c).flushed 4 t = ((cfg0.win 4).blk t).view.read (Elt Ideal) (fun i => ((arrG 256 (by omega) xr wr i : ℝ) : EReal)) := by
  show (cfg0.win 4).cut (grid0.coords t) ((dat0 (F := Ideal) V c).after 4 t) = _
  rw [after0_4, out0_4_eq]
  obtain ⟨e00, e01, e02, e10, e11, eo0, eo1, eo2, hlt⟩ := idx_facts4 t
  funext j
  have hb : t.val < 4 := hlt
  refine (blk_real4 (iblk0 V c 0 t) (iblk0 V c 1 t) xr wr ⟨t.val, hb⟩ ?_ ?_ j).trans ?_
  · intro y
    show V c main_arg0 (((cfg0.win 0).blk t).view.emb y) = _
    have e : ((cfg0.win 0).blk t).view.emb y = ix3 (⟨t.val, hb⟩ : Fin 4) (y 1) (y 2) := by
      funext a; apply Fin.ext
      match a with
      | ⟨0, _⟩ => show win0_0.index t (0 : Fin 3) * 1 + 1 * (y 0).val = t.val; have hy : (y 0).val < 1 := (y 0).isLt; omega
      | ⟨1, _⟩ => show win0_0.index t (1 : Fin 3) * 4096 + 1 * (y 1).val = (y 1).val; omega
      | ⟨2, _⟩ => show win0_0.index t (2 : Fin 3) * 128 + 1 * (y 2).val = (y 2).val; omega
    rw [e]; exact hx _
  · intro y
    show V c main_v0 (((cfg0.win 1).blk t).view.emb y) = _
    have e : ((cfg0.win 1).blk t).view.emb y = y := by
      funext a; apply Fin.ext
      match a with
      | ⟨0, _⟩ => show win0_1.index t (0 : Fin 2) * 128 + 1 * (y 0).val = (y 0).val; omega
      | ⟨1, _⟩ => show win0_1.index t (1 : Fin 2) * 384 + 1 * (y 1).val = (y 1).val; omega
    rw [e]; exact hw _
  · show _ = ((arrG 256 (by omega) xr wr (((cfg0.win 4).blk t).view.emb j) : ℝ) : EReal)
    have e : ((cfg0.win 4).blk t).view.emb j = ix3 (⟨t.val, hb⟩ : Fin 4) (j 1) (j 2) := by
      funext a; apply Fin.ext
      match a with
      | ⟨0, _⟩ => show win0_4.index t (0 : Fin 3) * 1 + 1 * (j 0).val = t.val; have hy : (j 0).val < 1 := (j 0).isLt; omega
      | ⟨1, _⟩ => show win0_4.index t (1 : Fin 3) * 4096 + 1 * (j 1).val = (j 1).val; omega
      | ⟨2, _⟩ => show win0_4.index t (2 : Fin 3) * 128 + 1 * (j 2).val = (j 2).val; omega
    exact congrArg (fun i => ((arrG 256 (by omega) xr wr i : ℝ) : EReal)) e.symm

/-- An index of the array is in point t's block iff each coordinate is in the block's range on its axis. -/
theorem mem_blk4 (t : Fin cfg0.N) (i : S4x4096x128.Idx) :
    i ∈ ((cfg0.win 4).blk t).view.set ↔ ∀ a : Fin 3, win0_4.index t a * S1x4096x128.size a ≤ (i a).val ∧ (i a).val < win0_4.index t a * S1x4096x128.size a + S1x4096x128.size a := by
  show i ∈ ((View.whole main_v1_2).slice (win0_4.rect t)).set ↔ _
  rw [View.set_slice_whole, Rect.mem_set_unit]
  exact Iff.rfl

/-- Every index of the array is in the block of the point that is its batch coordinate, and every point writes back. -/
theorem cover4 (i : S4x4096x128.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 128 := (i 2).isLt
  have hN : (i 0).val < cfg0.N := by show (i 0).val < grid0.N; rw [N_0]; exact hi0
  refine ⟨⟨(i 0).val, hN⟩, flush0_4 _, ?_⟩
  rw [mem_blk4]
  obtain ⟨e00, e01, e02, e10, e11, eo0, eo1, eo2, hlt⟩ := idx_facts4 ⟨(i 0).val, hN⟩
  have eo0' : win0_4.index ⟨(i 0).val, hN⟩ (0 : Fin 3) = (i 0).val := eo0
  intro a
  match a with
  | ⟨0, _⟩ => show win0_4.index ⟨(i 0).val, hN⟩ (0 : Fin 3) * 1 ≤ (i 0).val ∧ (i 0).val < win0_4.index ⟨(i 0).val, hN⟩ (0 : Fin 3) * 1 + 1; omega
  | ⟨1, _⟩ => show win0_4.index ⟨(i 0).val, hN⟩ (1 : Fin 3) * 4096 ≤ (i 1).val ∧ (i 1).val < win0_4.index ⟨(i 0).val, hN⟩ (1 : Fin 3) * 4096 + 4096; omega
  | ⟨2, _⟩ => show win0_4.index ⟨(i 0).val, hN⟩ (2 : Fin 3) * 128 ≤ (i 2).val ∧ (i 2).val < win0_4.index ⟨(i 0).val, hN⟩ (2 : Fin 3) * 128 + 128; omega

/-- The array after the region's write-backs: columns 256 … 383 of x[b] · [wq | wk | wv], every entry a real. -/
theorem arr0_4_isR (c : Dev nD) (xr : S4x4096x128.Idx → ℝ) (wr : S128x384.Idx → ℝ)
    (hx : IsR (V c main_arg0) xr) (hw : IsR (V c main_v0) wr) :
    IsR ((dat0 (F := Ideal) V c).arrAt 4 cfg0.N) (fun i => ∑ d : Fin 128, xr (ix3 (i 0) (i 1) d) * wr (ix2 d (col 256 (by omega) (i 2)))) := by
  have h := (dat0 (F := Ideal) V c).arrAt_eq_of_cover 4 (fun i => ((arrG 256 (by omega) xr wr i : ℝ) : EReal))
    (fun t _ => flushed4_eq V c xr wr hx hw t) cover4
  intro i
  rw [h]
  rfl

end Arrays

end Cert.KernelIdeal.Val0

end
-- ==== Proof.IGeom1.lean ====
/-
  Where the blocks of the attention region sit in their arrays.  The region runs on a 16 x 8 grid: point t works on
  query tile t / 8 (256 rows) and key tile t % 8 (512 rows).  The query window's block at point t is rows
  256 (t / 8) … 256 (t / 8) + 255 of the query array; the key and value windows hold their whole arrays, out of which
  the body loads rows 512 (t % 8) … 512 (t % 8) + 511; the output window's block at point t is rows
  256 (t / 8) … 256 (t / 8) + 255 of the output array, written back at the points with t % 8 = 7, and these
  blocks cover the output array.  Read at an index, a block's entry is the array's entry at
  (block index) x (block size) + (the coordinate inside the block) on every axis.
-/
import proofs.«154512_j5798205849797_2_alg».proof.Proof.IR1a
import proofs.«154512_j5798205849797_2_alg».proof.Proof.LibRealLift
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.RealLift

/-! ## The index maps, decided over the grid -/

/-- The block indices of the four windows and the offsets of the body's two tile loads, at every point. -/
theorem idx_facts1 : ∀ t : Fin cfg1.N,
    (win1_0.index t (0 : Fin 3) = 0 ∧ win1_0.index t (1 : Fin 3) = t.val / 8 ∧ win1_0.index t (2 : Fin 3) = 0)
    ∧ (win1_1.index t (0 : Fin 3) = 0 ∧ win1_1.index t (1 : Fin 3) = 0 ∧ win1_1.index t (2 : Fin 3) = 0)
    ∧ (win1_2.index t (0 : Fin 3) = 0 ∧ win1_2.index t (1 : Fin 3) = 0 ∧ win1_2.index t (2 : Fin 3) = 0)
    ∧ (win1_3.index t (0 : Fin 3) = 0 ∧ win1_3.index t (1 : Fin 3) = t.val / 8 ∧ win1_3.index t (2 : Fin 3) = 0)
    ∧ (k1_off1 (grid1.coords t) (0 : Fin 3) = 0 ∧ k1_off1 (grid1.coords t) (1 : Fin 3) = 512 * (t.val % 8)
        ∧ k1_off1 (grid1.coords t) (2 : Fin 3) = 0) :=
  (by decide +kernel : ∀ t : Fin grid1.N, _)

theorem lt_N1 (t : Fin cfg1.N) : t.val < 128 := by
  have h : t.val < grid1.N := t.isLt
  rw [N_1] at h
  exact h

/-- The array row under row r of the query (and output) block at point t. -/
def qrow (t : Fin cfg1.N) (r : Fin 256) : Fin 4096 :=
  ⟨256 * (t.val / 8) + r.val, by have := lt_N1 t; have := r.isLt; omega⟩

/-- The array row under row r of the key (and value) tile the body loads at point t. -/
def krow (t : Fin cfg1.N) (r : Fin 512) : Fin 4096 :=
  ⟨512 * (t.val % 8) + r.val, by have := r.isLt; omega⟩

@[simp] theorem qrow_val (t : Fin cfg1.N) (r : Fin 256) : (qrow t r).val = 256 * (t.val / 8) + r.val := rfl
@[simp] theorem krow_val (t : Fin cfg1.N) (r : Fin 512) : (krow t r).val = 512 * (t.val % 8) + r.val := rfl

section
variable (V : (c : Dev nD) → (b : Ref sig .tc) → Buf (Elt Ideal) ((c : Thread nD τ).loc b))

/-- The rectangle of the body's two tile loads at point t: 512 rows from row 512 (t % 8). -/
abbrev tileRect (t : Fin cfg1.N) : Rect S4x4096x128 :=
  Rect.unit (s := S4x4096x128) (k1_off1 (grid1.coords t)) S4x512x128.size (k1_off1_inb (grid1.coords t))

/-- The key tile the body loads at point t. -/
abbrev ktileAt (c : Dev nD) (t : Fin cfg1.N) : S4x512x128.Idx → EReal := View.ld (iblk1 V c 1 t) (tileRect t)

/-- The value tile the body loads at point t. -/
abbrev vtileAt (c : Dev nD) (t : Fin cfg1.N) : S4x512x128.Idx → EReal := View.ld (iblk1 V c 2 t) (tileRect t)

variable {V} {c : Dev nD} {Qa Ka Va : S4x4096x128.Idx → ℝ}

/-- The query block at point t is rows 256 (t / 8) … of the query array. -/
theorem qblk_isR (hQ : IsR (V c main_v1_0) Qa) (t : Fin cfg1.N) :
    IsR (iblk1 V c 0 t) (fun j => Qa (ix3 (j 0) (qrow t (j 1)) (j 2))) := by
  intro j
  show V c main_v1_0 (((cfg1.win 0).blk t).view.emb j) = _
  rw [hQ]
  refine congrArg (fun i => ((Qa i : ℝ) : EReal)) (funext fun a => Fin.ext ?_)
  obtain ⟨⟨e0, e1, e2⟩, -⟩ := idx_facts1 t
  match a with
  | ⟨0, _⟩ => show win1_0.index t (0 : Fin 3) * 4 + 1 * (j 0).val = (j 0).val; omega
  | ⟨1, _⟩ => show win1_0.index t (1 : Fin 3) * 256 + 1 * (j 1).val = 256 * (t.val / 8) + (j 1).val; omega
  | ⟨2, _⟩ => show win1_0.index t (2 : Fin 3) * 128 + 1 * (j 2).val = (j 2).val; omega

/-- The key tile at point t is rows 512 (t % 8) … of the key array. -/
theorem ktile_isR (hK : IsR (V c main_v1_1) Ka) (t : Fin cfg1.N) :
    IsR (ktileAt V c t) (fun j => Ka (ix3 (j 0) (krow t (j 1)) (j 2))) := by
  intro j
  show V c main_v1_1 (((cfg1.win 1).blk t).view.emb ((tileRect t).emb j)) = _
  rw [hK]
  refine congrArg (fun i => ((Ka i : ℝ) : EReal)) (funext fun a => Fin.ext ?_)
  obtain ⟨-, ⟨e0, e1, e2⟩, -, -, ⟨o0, o1, o2⟩⟩ := idx_facts1 t
  match a with
  | ⟨0, _⟩ =>
    show win1_1.index t (0 : Fin 3) * 4 + 1 * (k1_off1 (grid1.coords t) (0 : Fin 3) + 1 * (j 0).val) = (j 0).val; omega
  | ⟨1, _⟩ =>
    show win1_1.index t (1 : Fin 3) * 4096 + 1 * (k1_off1 (grid1.coords t) (1 : Fin 3) + 1 * (j 1).val) = 512 * (t.val % 8) + (j 1).val; omega
  | ⟨2, _⟩ =>
    show win1_1.index t (2 : Fin 3) * 128 + 1 * (k1_off1 (grid1.coords t) (2 : Fin 3) + 1 * (j 2).val) = (j 2).val; omega

/-- The value tile at point t is rows 512 (t % 8) … of the value array. -/
theorem vtile_isR (hV : IsR (V c main_v1_2) Va) (t : Fin cfg1.N) :
    IsR (vtileAt V c t) (fun j => Va (ix3 (j 0) (krow t (j 1)) (j 2))) := by
  intro j
  show V c main_v1_2 (((cfg1.win 2).blk t).view.emb ((tileRect t).emb j)) = _
  rw [hV]
  refine congrArg (fun i => ((Va i : ℝ) : EReal)) (funext fun a => Fin.ext ?_)
  obtain ⟨-, -, ⟨e0, e1, e2⟩, -, ⟨o0, o1, o2⟩⟩ := idx_facts1 t
  match a with
  | ⟨0, _⟩ =>
    show win1_2.index t (0 : Fin 3) * 4 + 1 * (k1_off1 (grid1.coords t) (0 : Fin 3) + 1 * (j 0).val) = (j 0).val; omega
  | ⟨1, _⟩ =>
    show win1_2.index t (1 : Fin 3) * 4096 + 1 * (k1_off1 (grid1.coords t) (1 : Fin 3) + 1 * (j 1).val) = 512 * (t.val % 8) + (j 1).val; omega
  | ⟨2, _⟩ =>
    show win1_2.index t (2 : Fin 3) * 128 + 1 * (k1_off1 (grid1.coords t) (2 : Fin 3) + 1 * (j 2).val) = (j 2).val; omega

end

/-! ## The output window -/

/-- The output block at point t, read off an array G, is rows 256 (t / 8) … of G. -/
theorem blk1_3_read (G : S4x4096x128.Idx → EReal) (t : Fin cfg1.N) :
    ((cfg1.win 3).blk t).view.read (Elt Ideal) G = fun j => G (ix3 (j 0) (qrow t (j 1)) (j 2)) := by
  funext j
  show G (((cfg1.win 3).blk t).view.emb j) = _
  refine congrArg G (funext fun a => Fin.ext ?_)
  obtain ⟨-, -, -, ⟨e0, e1, e2⟩, -⟩ := idx_facts1 t
  match a with
  | ⟨0, _⟩ => show win1_3.index t (0 : Fin 3) * 4 + 1 * (j 0).val = (j 0).val; omega
  | ⟨1, _⟩ => show win1_3.index t (1 : Fin 3) * 256 + 1 * (j 1).val = 256 * (t.val / 8) + (j 1).val; omega
  | ⟨2, _⟩ => show win1_3.index t (2 : Fin 3) * 128 + 1 * (j 2).val = (j 2).val; omega

/-- An index of the output array is in point t's block iff each coordinate is in the block's range on its axis. -/
theorem mem_blk1_3 (t : Fin cfg1.N) (i : S4x4096x128.Idx) :
    i ∈ ((cfg1.win 3).blk t).view.set ↔ ∀ a : Fin 3, win1_3.index t a * S4x256x128.size a ≤ (i a).val
      ∧ (i a).val < win1_3.index t a * S4x256x128.size a + S4x256x128.size a := by
  show i ∈ ((View.whole main_v2).slice (win1_3.rect t)).set ↔ _
  rw [View.set_slice_whole, Rect.mem_set_unit]
  exact Iff.rfl

/-- Every index of the output array is in the block of a point that writes back: the last key tile's point of its
    query tile. -/
theorem cover1_3 (i : S4x4096x128.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 128 := (i 2).isLt
  have hN : grid1.N = 128 := N_1
  have ht : 8 * ((i 1).val / 256) + 7 < grid1.N := by rw [hN]; omega
  refine ⟨⟨8 * ((i 1).val / 256) + 7, ht⟩, (flush1_3 _).2 (by show (8 * ((i 1).val / 256) + 7) % 8 = 7; omega), ?_⟩
  rw [mem_blk1_3]
  obtain ⟨-, -, -, ⟨e0, e1, e2⟩, -⟩ := idx_facts1 ⟨8 * ((i 1).val / 256) + 7, ht⟩
  have e1' : win1_3.index ⟨8 * ((i 1).val / 256) + 7, ht⟩ (1 : Fin 3) = (8 * ((i 1).val / 256) + 7) / 8 := e1
  intro a
  match a with
  | ⟨0, _⟩ =>
    show win1_3.index ⟨8 * ((i 1).val / 256) + 7, ht⟩ (0 : Fin 3) * 4 ≤ (i 0).val
      ∧ (i 0).val < win1_3.index ⟨8 * ((i 1).val / 256) + 7, ht⟩ (0 : Fin 3) * 4 + 4
    omega
  | ⟨1, _⟩ =>
    show win1_3.index ⟨8 * ((i 1).val / 256) + 7, ht⟩ (1 : Fin 3) * 256 ≤ (i 1).val
      ∧ (i 1).val < win1_3.index ⟨8 * ((i 1).val / 256) + 7, ht⟩ (1 : Fin 3) * 256 + 256
    omega
  | ⟨2, _⟩ =>
    show win1_3.index ⟨8 * ((i 1).val / 256) + 7, ht⟩ (2 : Fin 3) * 128 ≤ (i 2).val
      ∧ (i 2).val < win1_3.index ⟨8 * ((i 1).val / 256) + 7, ht⟩ (2 : Fin 3) * 128 + 128
    omega

end Cert.KernelIdeal.Hand

end
-- ==== Proof.IPay1Defs.lean ====
/-
  One step of the streaming softmax at one grid point, over the reals.

  With a query tile q (4 × 256 × 128), a key tile k and a value tile v (4 × 512 × 128 each), the scaled scores are
      s b r k = (∑ d, q b r d · k b k d) · c,        c = 1048576 / 11863283,
  and from a running state (m, l, acc) — row maxima, row sums (4 × 256 × 1 each) and the unnormalised output
  (4 × 256 × 128) — one step gives
      m' = max m (max_k s),   l' = e^(m − m') · l + ∑_k e^(s − m'),   acc' = e^(m − m') · acc + ∑_k e^(s − m') · v.
  The first step starts from (−∞, 0, 0), where the old state's terms vanish.
-/
import Idealize.ShloMosaic.Lib.ValueIdx

noncomputable section

namespace Cert.KernelIdeal.Pay1

open Idealize.ShloMosaic Idealize.ShloMosaic.ValueIdx

/-- The scaled score of query row `r` against key row `k` in batch `b`. -/
def sc (qbr : (⟨3, ![4, 256, 128]⟩ : Shape).Idx → ℝ) (ktr : (⟨3, ![4, 512, 128]⟩ : Shape).Idx → ℝ)
    (b : Fin 4) (r : Fin 256) (k : Fin 512) : ℝ :=
  (∑ d : Fin 128, qbr (ix3 b r d) * ktr (ix3 b k d)) * (1048576 / 11863283)

/-- The largest score of a query row over the tile's 512 keys. -/
def rowmax (qbr : (⟨3, ![4, 256, 128]⟩ : Shape).Idx → ℝ) (ktr : (⟨3, ![4, 512, 128]⟩ : Shape).Idx → ℝ)
    (b : Fin 4) (r : Fin 256) : ℝ :=
  Finset.univ.sup' Finset.univ_nonempty (fun k : Fin 512 => sc qbr ktr b r k)

/-- The new running maximum of a row. -/
def mNew (mr : (⟨3, ![4, 256, 1]⟩ : Shape).Idx → ℝ) (qbr : (⟨3, ![4, 256, 128]⟩ : Shape).Idx → ℝ)
    (ktr : (⟨3, ![4, 512, 128]⟩ : Shape).Idx → ℝ) (b : Fin 4) (r : Fin 256) : ℝ :=
  max (mr (ix3 b r 0)) (rowmax qbr ktr b r)

/-- The new running sum of a row. -/
def lNew (mr lr : (⟨3, ![4, 256, 1]⟩ : Shape).Idx → ℝ) (qbr : (⟨3, ![4, 256, 128]⟩ : Shape).Idx → ℝ)
    (ktr : (⟨3, ![4, 512, 128]⟩ : Shape).Idx → ℝ) (b : Fin 4) (r : Fin 256) : ℝ :=
  Real.exp (mr (ix3 b r 0) - mNew mr qbr ktr b r) * lr (ix3 b r 0)
    + ∑ k : Fin 512, Real.exp (sc qbr ktr b r k - mNew mr qbr ktr b r)

/-- The new unnormalised output entry. -/
def accNew (mr : (⟨3, ![4, 256, 1]⟩ : Shape).Idx → ℝ) (accr : (⟨3, ![4, 256, 128]⟩ : Shape).Idx → ℝ)
    (vtr : (⟨3, ![4, 512, 128]⟩ : Shape).Idx → ℝ) (qbr : (⟨3, ![4, 256, 128]⟩ : Shape).Idx → ℝ)
    (ktr : (⟨3, ![4, 512, 128]⟩ : Shape).Idx → ℝ) (b : Fin 4) (r : Fin 256) (e : Fin 128) : ℝ :=
  Real.exp (mr (ix3 b r 0) - mNew mr qbr ktr b r) * accr (ix3 b r e)
    + ∑ k : Fin 512, Real.exp (sc qbr ktr b r k - mNew mr qbr ktr b r) * vtr (ix3 b k e)

/-- The first step's row sum: the state before it is (−∞, 0, 0). -/
def l0 (qbr : (⟨3, ![4, 256, 128]⟩ : Shape).Idx → ℝ) (ktr : (⟨3, ![4, 512, 128]⟩ : Shape).Idx → ℝ)
    (b : Fin 4) (r : Fin 256) : ℝ :=
  ∑ k : Fin 512, Real.exp (sc qbr ktr b r k - rowmax qbr ktr b r)

/-- The first step's unnormalised output entry. -/
def acc0 (vtr : (⟨3, ![4, 512, 128]⟩ : Shape).Idx → ℝ) (qbr : (⟨3, ![4, 256, 128]⟩ : Shape).Idx → ℝ)
    (ktr : (⟨3, ![4, 512, 128]⟩ : Shape).Idx → ℝ) (b : Fin 4) (r : Fin 256) (e : Fin 128) : ℝ :=
  ∑ k : Fin 512, Real.exp (sc qbr ktr b r k - rowmax qbr ktr b r) * vtr (ix3 b k e)

end Cert.KernelIdeal.Pay1

end
-- ==== Proof.IPay1.lean ====
/-
  The attention body's arithmetic at one grid point, read entry by entry over the reals.

  At one grid point the body holds a query tile q (4 × 256 × 128), a key tile k (4 × 512 × 128), a value tile v
  (4 × 512 × 128) and the running state of the streaming softmax: the row maxima m, the row sums l (both 4 × 256 × 1)
  and the unnormalised output acc (4 × 256 × 128).  With every entry of q, k, v a real, the scores are
      s b r k = (∑ d, q b r d · k b k d) · c,        c = 1048576 / 11863283,
  and one step of the recurrence is
      m' = max m (max_k s),   l' = e^(m − m') · l + ∑_k e^(s − m'),   acc' = e^(m − m') · acc + ∑_k e^(s − m') · v.
  From a real state the new state is real and given by these formulas over ℝ.  From the initial state (m = −∞, l = 0,
  acc = 0) the same formulas hold with the old state's terms gone: max(−∞, x) = x, e^(−∞ − x) = e^(−∞) = 0, 0 · 0 = 0.
  The last step divides acc by l, entry by entry along each row.
-/
import proofs.«154512_j5798205849797_2_alg».proof.Proof.Gen.KernelIdeal.Skeleton
import proofs.«154512_j5798205849797_2_alg».proof.Proof.LibRealLift
import proofs.«154512_j5798205849797_2_alg».proof.Proof.IPay1Defs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay1

open Idealize.ShloMosaic Idealize.ShloMosaic.ValueIdx Cert.KernelIdeal Cert.RealLift

/-! ## The two contractions' operand indices -/

/-- The score contraction: queries `[4, 256, 128]` against keys `[4, 512, 128]` over the feature axis, batched over
    the first axis, into `[4, 256, 512]`. -/
abbrev dotQK : DotDims S4x256x128 S4x512x128 S4x256x512 := dot_S4x256x128_S4x512x128_S4x256x512_2_2_1_1_0_0
/-- The output contraction: weights `[4, 256, 512]` against values `[4, 512, 128]` over the key axis, batched over
    the first axis, into `[4, 256, 128]`. -/
abbrev dotPV : DotDims S4x256x512 S4x512x128 S4x256x128 := dot_S4x256x512_S4x512x128_S4x256x128_2_1_1_2_0_0

theorem dotQK_l0 (i : S4x256x512.Idx) (q : dotQK.contr.Idx) : (dotQK.lhsIdx i q 0).val = (i 0).val := by
  unfold DotDims.lhsIdx
  rw [dif_pos (show (0 : Fin S4x256x128.rank) ∈ dotQK.lhsBatch by decide)]
  rfl
theorem dotQK_l1 (i : S4x256x512.Idx) (q : dotQK.contr.Idx) : (dotQK.lhsIdx i q 1).val = (i 1).val := by
  unfold DotDims.lhsIdx
  rw [dif_neg (show ¬(1 : Fin S4x256x128.rank) ∈ dotQK.lhsBatch by decide), dif_pos (show (1 : Fin S4x256x128.rank) ∈ dotQK.lhsNonContracting by decide)]
  rfl
theorem dotQK_l2 (i : S4x256x512.Idx) (q : dotQK.contr.Idx) : (dotQK.lhsIdx i q 2).val = (q ⟨0, by decide⟩).val :=
  dotQK.lhsIdx_val_of_single (cl := 2) rfl i q
theorem dotQK_r0 (i : S4x256x512.Idx) (q : dotQK.contr.Idx) : (dotQK.rhsIdx i q 0).val = (i 0).val := by
  unfold DotDims.rhsIdx
  rw [dif_pos (show (0 : Fin S4x512x128.rank) ∈ dotQK.rhsBatch by decide)]
  rfl
theorem dotQK_r1 (i : S4x256x512.Idx) (q : dotQK.contr.Idx) : (dotQK.rhsIdx i q 1).val = (i 2).val := by
  unfold DotDims.rhsIdx
  rw [dif_neg (show ¬(1 : Fin S4x512x128.rank) ∈ dotQK.rhsBatch by decide), dif_pos (show (1 : Fin S4x512x128.rank) ∈ dotQK.rhsNonContracting by decide)]
  rfl
theorem dotQK_r2 (i : S4x256x512.Idx) (q : dotQK.contr.Idx) : (dotQK.rhsIdx i q 2).val = (q ⟨0, by decide⟩).val :=
  dotQK.rhsIdx_val_of_single (cr := 2) rfl i q

/-- At output entry `(b, r, k)` and feature `d` the score contraction reads the queries at `(b, r, d)` … -/
theorem qk_lhs (b : Fin 4) (r : Fin 256) (k : Fin 512) (d : Fin 128) :
    dotQK.lhsIdx (ix3 b r k) ((contrEquiv1 dotQK 128 rfl rfl).symm d) = ix3 b r d :=
  funext fun a => Fin.ext (by
    match a with
    | ⟨0, _⟩ => exact dotQK_l0 _ _
    | ⟨1, _⟩ => exact dotQK_l1 _ _
    | ⟨2, _⟩ => exact (dotQK_l2 _ _).trans (contrEquiv1_symm_val dotQK 128 rfl rfl d))
/-- … and the keys at `(b, k, d)`. -/
theorem qk_rhs (b : Fin 4) (r : Fin 256) (k : Fin 512) (d : Fin 128) :
    dotQK.rhsIdx (ix3 b r k) ((contrEquiv1 dotQK 128 rfl rfl).symm d) = ix3 b k d :=
  funext fun a => Fin.ext (by
    match a with
    | ⟨0, _⟩ => exact dotQK_r0 _ _
    | ⟨1, _⟩ => exact dotQK_r1 _ _
    | ⟨2, _⟩ => exact (dotQK_r2 _ _).trans (contrEquiv1_symm_val dotQK 128 rfl rfl d))

theorem dotPV_l0 (i : S4x256x128.Idx) (q : dotPV.contr.Idx) : (dotPV.lhsIdx i q 0).val = (i 0).val := by
  unfold DotDims.lhsIdx
  rw [dif_pos (show (0 : Fin S4x256x512.rank) ∈ dotPV.lhsBatch by decide)]
  rfl
theorem dotPV_l1 (i : S4x256x128.Idx) (q : dotPV.contr.Idx) : (dotPV.lhsIdx i q 1).val = (i 1).val := by
  unfold DotDims.lhsIdx
  rw [dif_neg (show ¬(1 : Fin S4x256x512.rank) ∈ dotPV.lhsBatch by decide), dif_pos (show (1 : Fin S4x256x512.rank) ∈ dotPV.lhsNonContracting by decide)]
  rfl
theorem dotPV_l2 (i : S4x256x128.Idx) (q : dotPV.contr.Idx) : (dotPV.lhsIdx i q 2).val = (q ⟨0, by decide⟩).val :=
  dotPV.lhsIdx_val_of_single (cl := 2) rfl i q
theorem dotPV_r0 (i : S4x256x128.Idx) (q : dotPV.contr.Idx) : (dotPV.rhsIdx i q 0).val = (i 0).val := by
  unfold DotDims.rhsIdx
  rw [dif_pos (show (0 : Fin S4x512x128.rank) ∈ dotPV.rhsBatch by decide)]
  rfl
theorem dotPV_r1 (i : S4x256x128.Idx) (q : dotPV.contr.Idx) : (dotPV.rhsIdx i q 1).val = (q ⟨0, by decide⟩).val :=
  dotPV.rhsIdx_val_of_single (cr := 1) rfl i q
theorem dotPV_r2 (i : S4x256x128.Idx) (q : dotPV.contr.Idx) : (dotPV.rhsIdx i q 2).val = (i 2).val := by
  unfold DotDims.rhsIdx
  rw [dif_neg (show ¬(2 : Fin S4x512x128.rank) ∈ dotPV.rhsBatch by decide), dif_pos (show (2 : Fin S4x512x128.rank) ∈ dotPV.rhsNonContracting by decide)]
  rfl

/-- At output entry `(b, r, e)` and key `k` the output contraction reads the weights at `(b, r, k)` … -/
theorem pv_lhs (b : Fin 4) (r : Fin 256) (e : Fin 128) (k : Fin 512) :
    dotPV.lhsIdx (ix3 b r e) ((contrEquiv1 dotPV 512 rfl rfl).symm k) = ix3 b r k :=
  funext fun a => Fin.ext (by
    match a with
    | ⟨0, _⟩ => exact dotPV_l0 _ _
    | ⟨1, _⟩ => exact dotPV_l1 _ _
    | ⟨2, _⟩ => exact (dotPV_l2 _ _).trans (contrEquiv1_symm_val dotPV 512 rfl rfl k))
/-- … and the values at `(b, k, e)`. -/
theorem pv_rhs (b : Fin 4) (r : Fin 256) (e : Fin 128) (k : Fin 512) :
    dotPV.rhsIdx (ix3 b r e) ((contrEquiv1 dotPV 512 rfl rfl).symm k) = ix3 b k e :=
  funext fun a => Fin.ext (by
    match a with
    | ⟨0, _⟩ => exact dotPV_r0 _ _
    | ⟨1, _⟩ => exact (dotPV_r1 _ _).trans (contrEquiv1_symm_val dotPV 512 rfl rfl k)
    | ⟨2, _⟩ => exact dotPV_r2 _ _)

/-- The scale the scores are multiplied by is the rational the certificate's table names. -/
theorem inv_sqrt_dk :
    Named.named (F := Ideal) κ "inv_sqrt_dk" (φ := .f32) 0x3DB504F3#32 = ((1048576 / 11863283 : ℝ) : EReal) :=
  IdealRules.named_const.ideal_named_scalar _ _ _ _ rfl

/-! ## Lifting lemmas: a maximum, a row maximum, and the column layouts -/

/-- The coercion of reals into the extended reals keeps maxima. -/
theorem coe_max (x y : ℝ) : ((max x y : ℝ) : EReal) = max (x : EReal) (y : EReal) :=
  EReal.coe_strictMono.monotone.map_max

/-- The largest of finitely many reals, folded from `−∞` on the extended reals, is the coercion of their maximum. -/
theorem fold_max_bot_coe {ι : Type} (s : Finset ι) (hs : s.Nonempty) (f : ι → EReal) (f' : ι → ℝ)
    (hf : ∀ i, f i = ((f' i : ℝ) : EReal)) : s.fold max ⊥ f = ((s.sup' hs f' : ℝ) : EReal) := by
  induction hs using Finset.Nonempty.cons_induction with
  | singleton a => rw [Finset.fold_singleton, Finset.sup'_singleton, hf a, max_bot_right]
  | cons a s ha hs ih => rw [Finset.fold_cons, Finset.sup'_cons hs, coe_max, ih, hf a]

/-- The word `0xFF800000` denotes `−∞`. -/
theorem ofBits_neg_inf : Ideal.ofBits .f32 0xFF800000#32 = ⊥ := by simp [Ideal.ofBits, Ideal.ieee]

/-- The entrywise maximum of two real arrays. -/
theorem isR_maximumf {s : Shape} {φ : FTy} {A B : FVec Ideal s φ} {a b : s.Idx → ℝ} (hA : IsR A a) (hB : IsR B b) :
    IsR (maximumf A B) (fun i => max (a i) (b i)) := fun i => by
  show max (A i) (B i) = _
  rw [hA i, hB i, coe_max]

/-- The maximum of a real array along one (nonempty) axis, started from `−∞`: the real maximum over that axis. -/
theorem isR_reduceMax {s t : Shape} {ax : Fin s.rank} {A : FVec Ideal s .f32} {a : s.Idx → ℝ} (hA : IsR A a)
    (h : s.Reduces [ax] t) (hφ : FKind.Formats .f32)
    (hacc : (0xFF800000#32 : BitVec 32) = FKind.maximumf.neutral .f32 hφ)
    (hne : (Finset.univ : Finset (Fin (s.size ax))).Nonempty) :
    IsR (multiReduction .maximumf [ax] t A 0xFF800000#32 h hφ hacc)
      (fun j => Finset.univ.sup' hne (fun k : Fin (s.size ax) => a (h.lift j k))) := fun j => by
  refine (Ideal.multiReduction_maximumf_single A _ h hφ hacc j).trans ?_
  rw [Ideal.ofBits_def, ofBits_neg_inf]
  exact fold_max_bot_coe _ hne _ _ (fun k => hA _)

/-- A `[a, b]` array cast to `[a, b, 1]` reads, at `(i, j, u)`, the operand at `(i, j)`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand's one entry of row `(i, j)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => exact (if_pos rfl).symm

/-- The entry of a `[4, 256, 512]` array over row `(b, r)` with `k` put back on the reduced axis. -/
theorem lift_rows (h : S4x256x512.Reduces [2] S4x256) (b : Fin 4) (r : Fin 256) (k : Fin 512) :
    h.lift (ix2 b r) k = ix3 b r k :=
  funext fun a => Fin.ext (by match a with | ⟨0, _⟩ => rfl | ⟨1, _⟩ => rfl | ⟨2, _⟩ => rfl)

/-! ## The payloads -/

section
variable {kt : Vec Ideal S4x512x128 .f32} {qb : Vec Ideal S4x256x128 .f32} {vt : Vec Ideal S4x512x128 .bf16}
  {ktr : S4x512x128.Idx → ℝ} {qbr : S4x256x128.Idx → ℝ} {vtr : S4x512x128.Idx → ℝ}

/-- The scores. -/
theorem scores_isR (hk : IsR kt ktr) (hq : IsR qb qbr) :
    IsR (Gen.k1_pay9 (F := Ideal) kt qb) (fun j => sc qbr ktr (j 0) (j 1) (j 2)) := by
  unfold Gen.k1_pay9
  refine IsR.of_eq (IsR.mulf (IsR.matmul0 _ _ (IsR.shapeCast hq _) (IsR.shapeCast hk _)) (IsR.broadcast inv_sqrt_dk)) fun j => ?_
  obtain ⟨b, r, k, rfl⟩ : ∃ (b : Fin 4) (r : Fin 256) (k : Fin 512), j = ix3 b r k := ⟨j 0, j 1, j 2, eq_ix3 j⟩
  show (∑ q : dotQK.contr.Idx, _) * _ = sc qbr ktr b r k
  rw [shapeCast_self, shapeCast_self, ← Equiv.sum_comp (contrEquiv1 dotQK 128 rfl rfl).symm]
  unfold sc
  refine congrArg (· * _) (Finset.sum_congr rfl fun d _ => ?_)
  rw [qk_lhs, qk_rhs]

/-- The value tile passes through a cast to its own shape. -/
theorem pay8_isR (hv : IsR vt vtr) : IsR (Gen.k1_pay8 (F := Ideal) vt) vtr := by
  unfold Gen.k1_pay8
  rw [shapeCast_self]
  exact hv

/-- The row maxima of the scores, as a column. -/
theorem rowmax_isR (hk : IsR kt ktr) (hq : IsR qb qbr) (h : S4x256x512.Reduces [2] S4x256) (hφ : FKind.Formats .f32)
    (hacc : (0xFF800000#32 : BitVec 32) = FKind.maximumf.neutral .f32 hφ) (h' : S4x256.ShapeCasts S4x256x1) :
    IsR (shapeCast S4x256x1 (multiReduction .maximumf [2] S4x256 (Gen.k1_pay9 (F := Ideal) kt qb) 0xFF800000#32 h hφ hacc) h')
      (fun j => rowmax qbr ktr (j 0) (j 1)) := by
  refine IsR.of_eq (IsR.shapeCast (isR_reduceMax (scores_isR hk hq) h hφ hacc ⟨(0 : Fin 512), Finset.mem_univ _⟩) h') fun j => ?_
  obtain ⟨b, r, u, rfl⟩ : ∃ (b : Fin 4) (r : Fin 256) (u : Fin 1), j = ix3 b r u := ⟨j 0, j 1, j 2, eq_ix3 j⟩
  show shapeCast S4x256x1 _ h' (ix3 b r u) = rowmax qbr ktr b r
  rw [shapeCast_ab_ab1_apply]
  unfold rowmax
  exact Finset.sup'_congr _ rfl fun k _ =>
    congrArg (fun i : S4x256x512.Idx => sc qbr ktr (i 0) (i 1) (i 2)) (lift_rows h b r k)

/-- The new row maxima, from a real state. -/
theorem pay10_isR (hk : IsR kt ktr) (hq : IsR qb qbr) {m : Vec Ideal S4x256x1 .f32} {mr : S4x256x1.Idx → ℝ} (hm : IsR m mr) :
    IsR (Gen.k1_pay10 (F := Ideal) kt qb m) (fun j => mNew mr qbr ktr (j 0) (j 1)) := by
  unfold Gen.k1_pay10
  refine IsR.of_eq (isR_maximumf hm (rowmax_isR hk hq _ _ _ _)) fun j => ?_
  obtain ⟨b, r, u, rfl⟩ : ∃ (b : Fin 4) (r : Fin 256) (u : Fin 1), j = ix3 b r u := ⟨j 0, j 1, j 2, eq_ix3 j⟩
  obtain rfl : u = 0 := Subsingleton.elim _ _
  rfl

/-- The new row maxima from the initial state: `max(−∞, x) = x`. -/
theorem pay10_isR_init (hk : IsR kt ktr) (hq : IsR qb qbr) {m : Vec Ideal S4x256x1 .f32} (hm : ∀ i, m i = ⊥) :
    IsR (Gen.k1_pay10 (F := Ideal) kt qb m) (fun j => rowmax qbr ktr (j 0) (j 1)) := by
  unfold Gen.k1_pay10
  intro j
  have h := rowmax_isR hk hq Gen.reduces_S4x256x512_S4x256 (.inl rfl) rfl Gen.shapeCasts_S4x256_S4x256x1 j
  show max (m j) _ = _
  rw [hm j, max_bot_left]
  exact h

/-- The factor the old state is scaled by, from a real state. -/
theorem pay11_isR (hk : IsR kt ktr) (hq : IsR qb qbr) {m : Vec Ideal S4x256x1 .f32} {mr : S4x256x1.Idx → ℝ} (hm : IsR m mr) :
    IsR (Gen.k1_pay11 (F := Ideal) kt qb m m) (fun j => Real.exp (mr j - mNew mr qbr ktr (j 0) (j 1))) := by
  unfold Gen.k1_pay11
  exact IsR.exp (IsR.subf hm (pay10_isR hk hq hm))

/-- The factor the old state is scaled by, from the initial state: `e^(−∞ − x) = e^(−∞) = 0`. -/
theorem pay11_isR_init (hk : IsR kt ktr) (hq : IsR qb qbr) {m : Vec Ideal S4x256x1 .f32} (hm : ∀ i, m i = ⊥) :
    IsR (Gen.k1_pay11 (F := Ideal) kt qb m m) (fun _ => 0) := by
  unfold Gen.k1_pay11
  intro j
  show Ideal.exp (m j - Gen.k1_pay10 (F := Ideal) kt qb m j) = ((0 : ℝ) : EReal)
  rw [hm j, pay10_isR_init hk hq hm j, sub_eq_add_neg, EReal.bot_add, Ideal.exp_bot, EReal.coe_zero]

/-- The unnormalised weights `e^(s − m')`, for whatever real `m'` the new row maxima are. -/
theorem pay12_isR_of (hk : IsR kt ktr) (hq : IsR qb qbr) {m : Vec Ideal S4x256x1 .f32} {m'r : Fin 4 → Fin 256 → ℝ}
    (h10 : IsR (Gen.k1_pay10 (F := Ideal) kt qb m) (fun j => m'r (j 0) (j 1))) :
    IsR (Gen.k1_pay12 (F := Ideal) kt qb m) (fun j => Real.exp (sc qbr ktr (j 0) (j 1) (j 2) - m'r (j 0) (j 1))) := by
  unfold Gen.k1_pay12
  refine IsR.of_eq (IsR.exp (IsR.subf (scores_isR hk hq) (IsR.broadcastTo h10 _))) fun j => ?_
  obtain ⟨b, r, k, rfl⟩ : ∃ (b : Fin 4) (r : Fin 256) (k : Fin 512), j = ix3 b r k := ⟨j 0, j 1, j 2, eq_ix3 j⟩
  show Real.exp (sc qbr ktr b r k - broadcastTo S4x256x512 _ _ (ix3 b r k)) = Real.exp (sc qbr ktr b r k - m'r b r)
  rw [broadcastTo_ab1_abc_apply]

/-- The new row sums, for whatever reals the scaling factor and the weights are. -/
theorem pay13_isR_of {m l : Vec Ideal S4x256x1 .f32} {ar lr : S4x256x1.Idx → ℝ} {pr : S4x256x512.Idx → ℝ}
    (h11 : IsR (Gen.k1_pay11 (F := Ideal) kt qb m m) ar) (h12 : IsR (Gen.k1_pay12 (F := Ideal) kt qb m) pr) (hl : IsR l lr) :
    IsR (Gen.k1_pay1 (Gen.k1_pay13 (F := Ideal) kt qb m m l))
      (fun j => ar j * lr j + ∑ k : Fin 512, pr (ix3 (j 0) (j 1) k)) := by
  unfold Gen.k1_pay1 Gen.k1_pay13
  rw [shapeCast_self]
  refine IsR.of_eq (IsR.addf (IsR.mulf h11 hl) (IsR.shapeCast (IsR.multiReduction_add h12 _ _ _ _) _)) fun j => ?_
  obtain ⟨b, r, u, rfl⟩ : ∃ (b : Fin 4) (r : Fin 256) (u : Fin 1), j = ix3 b r u := ⟨j 0, j 1, j 2, eq_ix3 j⟩
  show ar (ix3 b r u) * lr (ix3 b r u) + shapeCast S4x256x1 _ _ (ix3 b r u) = _
  rw [shapeCast_ab_ab1_apply]
  refine congrArg (_ + ·) (Finset.sum_congr rfl fun k _ => ?_)
  exact congrArg pr (lift_rows _ b r k)

/-- The new unnormalised output, for whatever reals the value tile, the scaling factor, the weights and the old output
    are. -/
theorem pay2_isR {v10 : FVec Ideal S4x512x128 .bf16} {a : FVec Ideal S4x256x1 .f32} {p : FVec Ideal S4x256x512 .f32}
    {acc : Vec Ideal S4x256x128 .f32} {v10r : S4x512x128.Idx → ℝ} {ar : S4x256x1.Idx → ℝ} {pr : S4x256x512.Idx → ℝ}
    {accr : S4x256x128.Idx → ℝ} (hv : IsR v10 v10r) (ha : IsR a ar) (hp : IsR p pr) (hacc : IsR acc accr) :
    IsR (Gen.k1_pay2 (F := Ideal) v10 a p acc)
      (fun j => ar (ix3 (j 0) (j 1) 0) * accr j + ∑ k : Fin 512, pr (ix3 (j 0) (j 1) k) * v10r (ix3 (j 0) k (j 2))) := by
  unfold Gen.k1_pay2
  refine IsR.of_eq (IsR.shapeCast (IsR.addf (IsR.mulf (IsR.broadcastTo ha _) hacc)
    (IsR.matmul0 _ _ (IsR.truncf hp _ _) hv)) _) fun j => ?_
  obtain ⟨b, r, e, rfl⟩ : ∃ (b : Fin 4) (r : Fin 256) (e : Fin 128), j = ix3 b r e := ⟨j 0, j 1, j 2, eq_ix3 j⟩
  show shapeCast S4x256x128 _ _ (ix3 b r e)
    = ar (ix3 b r 0) * accr (ix3 b r e) + ∑ k : Fin 512, pr (ix3 b r k) * v10r (ix3 b k e)
  rw [shapeCast_self]
  show broadcastTo S4x256x128 ar _ (ix3 b r e) * accr (ix3 b r e)
      + ∑ q : dotPV.contr.Idx, pr (dotPV.lhsIdx (ix3 b r e) q) * v10r (dotPV.rhsIdx (ix3 b r e) q) = _
  rw [broadcastTo_ab1_abc_apply, ← Equiv.sum_comp (contrEquiv1 dotPV 512 rfl rfl).symm]
  refine congrArg (_ + ·) (Finset.sum_congr rfl fun k _ => ?_)
  rw [pv_lhs, pv_rhs]

/-! ## One step of the recurrence, from a real state -/

/-- The new row maxima. -/
theorem mNew_isR (hk : IsR kt ktr) (hq : IsR qb qbr) {m : Vec Ideal S4x256x1 .f32} {mr : S4x256x1.Idx → ℝ} (hm : IsR m mr) :
    IsR (Gen.k1_pay3 (Gen.k1_pay10 (F := Ideal) kt qb m)) (fun j => mNew mr qbr ktr (j 0) (j 1)) := by
  unfold Gen.k1_pay3
  exact IsR.of_eq (IsR.shapeCast (pay10_isR hk hq hm) _) fun j => congrFun (shapeCast_self _ _) j

/-- The new row sums. -/
theorem lNew_isR (hk : IsR kt ktr) (hq : IsR qb qbr) {m l : Vec Ideal S4x256x1 .f32} {mr lr : S4x256x1.Idx → ℝ}
    (hm : IsR m mr) (hl : IsR l lr) :
    IsR (Gen.k1_pay1 (Gen.k1_pay13 (F := Ideal) kt qb m m l)) (fun j => lNew mr lr qbr ktr (j 0) (j 1)) := by
  refine IsR.of_eq (pay13_isR_of (pay11_isR hk hq hm)
    (pay12_isR_of (m'r := mNew mr qbr ktr) hk hq (pay10_isR hk hq hm)) hl) fun j => ?_
  obtain ⟨b, r, u, rfl⟩ : ∃ (b : Fin 4) (r : Fin 256) (u : Fin 1), j = ix3 b r u := ⟨j 0, j 1, j 2, eq_ix3 j⟩
  obtain rfl : u = 0 := Subsingleton.elim _ _
  rfl

/-- The new unnormalised output. -/
theorem accNew_isR (hk : IsR kt ktr) (hq : IsR qb qbr) (hv : IsR vt vtr) {m : Vec Ideal S4x256x1 .f32}
    {acc : Vec Ideal S4x256x128 .f32} {mr : S4x256x1.Idx → ℝ} {accr : S4x256x128.Idx → ℝ} (hm : IsR m mr) (hacc : IsR acc accr) :
    IsR (Gen.k1_pay2 (F := Ideal) (Gen.k1_pay8 vt) (Gen.k1_pay11 kt qb m m) (Gen.k1_pay12 kt qb m) acc)
      (fun j => accNew mr accr vtr qbr ktr (j 0) (j 1) (j 2)) := by
  refine IsR.of_eq (pay2_isR (pay8_isR hv) (pay11_isR hk hq hm)
    (pay12_isR_of (m'r := mNew mr qbr ktr) hk hq (pay10_isR hk hq hm)) hacc) fun j => ?_
  obtain ⟨b, r, e, rfl⟩ : ∃ (b : Fin 4) (r : Fin 256) (e : Fin 128), j = ix3 b r e := ⟨j 0, j 1, j 2, eq_ix3 j⟩
  rfl

/-! ## The first step: the state before it is (−∞, 0, 0) -/

/-- The initial row maxima are `−∞` … -/
theorem pay5_apply (i : S4x256x1.Idx) : Gen.k1_pay5 (F := Ideal) i = ⊥ := by
  unfold Gen.k1_pay5
  refine (congrFun (shapeCast_self _ _) i).trans ?_
  exact ofBits_neg_inf
/-- … the initial row sums zero … -/
theorem pay6_apply (i : S4x256x1.Idx) : Gen.k1_pay6 (F := Ideal) i = 0 := by
  unfold Gen.k1_pay6
  refine (congrFun (shapeCast_self _ _) i).trans ?_
  exact Ideal.ofBits_zero_f32
/-- … and the initial output zero. -/
theorem pay7_apply (i : S4x256x128.Idx) : Gen.k1_pay7 (F := Ideal) i = 0 := by
  unfold Gen.k1_pay7
  refine (congrFun (shapeCast_self _ _) i).trans ?_
  exact Ideal.ofBits_zero_f32

/-- The first step's row maxima. -/
theorem m0_isR (hk : IsR kt ktr) (hq : IsR qb qbr) {m : Vec Ideal S4x256x1 .f32} (hm : ∀ i, m i = ⊥) :
    IsR (Gen.k1_pay3 (Gen.k1_pay10 (F := Ideal) kt qb m)) (fun j => rowmax qbr ktr (j 0) (j 1)) := by
  unfold Gen.k1_pay3
  exact IsR.of_eq (IsR.shapeCast (pay10_isR_init hk hq hm) _) fun j => congrFun (shapeCast_self _ _) j

/-- The first step's row sums: `0 · 0 + ∑_k e^(s − m')`. -/
theorem l0_isR (hk : IsR kt ktr) (hq : IsR qb qbr) {m l : Vec Ideal S4x256x1 .f32} (hm : ∀ i, m i = ⊥) (hl : ∀ i, l i = 0) :
    IsR (Gen.k1_pay1 (Gen.k1_pay13 (F := Ideal) kt qb m m l)) (fun j => l0 qbr ktr (j 0) (j 1)) := by
  refine IsR.of_eq (pay13_isR_of (pay11_isR_init hk hq hm)
    (pay12_isR_of (m'r := rowmax qbr ktr) hk hq (pay10_isR_init hk hq hm))
    (lr := fun _ => 0) (fun i => (hl i).trans EReal.coe_zero.symm)) fun j => ?_
  obtain ⟨b, r, u, rfl⟩ : ∃ (b : Fin 4) (r : Fin 256) (u : Fin 1), j = ix3 b r u := ⟨j 0, j 1, j 2, eq_ix3 j⟩
  show (0 : ℝ) * 0 + ∑ k : Fin 512, Real.exp (sc qbr ktr b r k - rowmax qbr ktr b r) = l0 qbr ktr b r
  rw [zero_mul, zero_add]
  rfl

/-- The first step's unnormalised output: `0 · 0 + ∑_k e^(s − m') · v`. -/
theorem acc0_isR (hk : IsR kt ktr) (hq : IsR qb qbr) (hv : IsR vt vtr) {m : Vec Ideal S4x256x1 .f32}
    {acc : Vec Ideal S4x256x128 .f32} (hm : ∀ i, m i = ⊥) (hacc : ∀ i, acc i = 0) :
    IsR (Gen.k1_pay2 (F := Ideal) (Gen.k1_pay8 vt) (Gen.k1_pay11 kt qb m m) (Gen.k1_pay12 kt qb m) acc)
      (fun j => acc0 vtr qbr ktr (j 0) (j 1) (j 2)) := by
  refine IsR.of_eq (pay2_isR (pay8_isR hv) (pay11_isR_init hk hq hm)
    (pay12_isR_of (m'r := rowmax qbr ktr) hk hq (pay10_isR_init hk hq hm))
    (accr := fun _ => 0) (fun i => (hacc i).trans EReal.coe_zero.symm)) fun j => ?_
  obtain ⟨b, r, e, rfl⟩ : ∃ (b : Fin 4) (r : Fin 256) (e : Fin 128), j = ix3 b r e := ⟨j 0, j 1, j 2, eq_ix3 j⟩
  show (0 : ℝ) * 0 + ∑ k : Fin 512, Real.exp (sc qbr ktr b r k - rowmax qbr ktr b r) * vtr (ix3 b k e)
    = acc0 vtr qbr ktr b r e
  rw [zero_mul, zero_add]
  rfl

end

/-! ## The last step: the division -/

/-- The output: each row of the unnormalised output divided by the row's sum. -/
theorem out_isR {acc : Vec Ideal S4x256x128 .f32} {l : Vec Ideal S4x256x1 .f32} {accr : S4x256x128.Idx → ℝ}
    {lr : S4x256x1.Idx → ℝ} (hacc : IsR acc accr) (hl : IsR l lr) (hne : ∀ i, lr i ≠ 0) :
    IsR (Gen.k1_pay4 (F := Ideal) acc l) (fun j => accr j / lr (ix3 (j 0) (j 1) 0)) := by
  unfold Gen.k1_pay4
  have hb : ∀ j : S4x256x128.Idx,
      broadcastTo S4x256x128 lr Gen.broadcasts_S4x256x1_S4x256x128 j = lr (ix3 (j 0) (j 1) 0) := fun j => by
    obtain ⟨b, r, e, rfl⟩ : ∃ (b : Fin 4) (r : Fin 256) (e : Fin 128), j = ix3 b r e := ⟨j 0, j 1, j 2, eq_ix3 j⟩
    exact broadcastTo_ab1_abc_apply lr _ b r e
  refine IsR.of_eq (IsR.divf hacc (IsR.broadcastTo hl _) fun j h => hne _ ((hb j).symm.trans h)) fun j => ?_
  exact congrArg (accr j / ·) (hb j)

end Cert.KernelIdeal.Pay1

end
-- ==== Proof.LibOnlineSoftmax.lean ====
/-
# Online (tiled, running-maximum) softmax equals the one-pass softmax

General real-analysis lemmas, independent of any program.

Keys come in n tiles of T keys.  Scores s : Fin n → Fin T → ℝ and one column of values
v : Fin n → Fin T → ℝ.  The running state after some tiles is a triple (m, l, acc):

* first tile:  m₁ = max_k s 0 k,  l₁ = ∑ k, exp (s 0 k - m₁),  acc₁ = ∑ k, exp (s 0 k - m₁) * v 0 k;
* step, tile j:  m' = max m (max_k s j k),  a = exp (m - m'),
  l' = a * l + ∑ k, exp (s j k - m'),  acc' = a * acc + ∑ k, exp (s j k - m') * v j k.

The invariant: after j ≥ 1 tiles, m is the maximum of the scores of the first j tiles, and
l, acc are the sums over the first j tiles of exp (s - m) and exp (s - m) * v.
The corollary: after all n tiles acc / l is the softmax-weighted mean of the values,
∑ j k, (exp (s j k - M) / L) * v j k  with  L = ∑ j k, exp (s j k - M),  for EVERY shift M
(the weighted mean does not depend on the shift), in particular for M the maximum of all scores.
The same is stated over one flat key index through any bijection Fin n × Fin T ≃ ι.

Also: the maximum of finitely many reals, seen in the extended reals, is the fold of max from ⊥,
and the three extended-real identities that start the recurrence from the state (⊥, 0, 0).
-/
import Mathlib.Analysis.SpecialFunctions.Exp
import Mathlib.Algebra.BigOperators.Fin
import Mathlib.Data.EReal.Operations
import Mathlib.Logic.Equiv.Fin.Basic
import Mathlib.Order.Fin.Basic

namespace OnlineSoftmax

open Finset

/-! ## The maximum of a tile, and the two transition functions -/

/-- The maximum of the T scores of one tile (T ≠ 0). -/
noncomputable def tileMax {T : ℕ} [NeZero T] (f : Fin T → ℝ) : ℝ :=
  Finset.univ.sup' Finset.univ_nonempty f

/-- The state (m, l, acc) after the first tile. -/
noncomputable def first {T : ℕ} [NeZero T] (s v : Fin T → ℝ) : ℝ × ℝ × ℝ :=
  (tileMax s, ∑ k, Real.exp (s k - tileMax s), ∑ k, Real.exp (s k - tileMax s) * v k)

/-- One step of the recurrence: absorb the tile (s, v) into the state (m, l, acc). -/
noncomputable def step {T : ℕ} [NeZero T] (st : ℝ × ℝ × ℝ) (s v : Fin T → ℝ) : ℝ × ℝ × ℝ :=
  (max st.1 (tileMax s),
   Real.exp (st.1 - max st.1 (tileMax s)) * st.2.1 + ∑ k, Real.exp (s k - max st.1 (tileMax s)),
   Real.exp (st.1 - max st.1 (tileMax s)) * st.2.2
     + ∑ k, Real.exp (s k - max st.1 (tileMax s)) * v k)

/-- The maximum of the scores of the tiles 0, …, j-1 (for j = 0 the value is that of j = 1). -/
noncomputable def pmax {T : ℕ} [NeZero T] (s : ℕ → Fin T → ℝ) : ℕ → ℝ
  | 0 => tileMax (s 0)
  | j + 1 => max (pmax s j) (tileMax (s j))

variable {n T : ℕ} [NeZero T]

/-! ## The running maximum -/

theorem pmax_succ (s : ℕ → Fin T → ℝ) (j : ℕ) :
    pmax s (j + 1) = max (pmax s j) (tileMax (s j)) := rfl

theorem pmax_one (s : ℕ → Fin T → ℝ) : pmax s 1 = tileMax (s 0) := by
  show max (tileMax (s 0)) (tileMax (s 0)) = tileMax (s 0)
  exact max_self _

/-- Every key of a tile is below the maximum of the tile. -/
theorem le_tileMax (f : Fin T → ℝ) (k : Fin T) : f k ≤ tileMax f :=
  Finset.le_sup' f (Finset.mem_univ k)

/-- pmax s j is above the maximum of each of the first j tiles. -/
theorem tileMax_le_pmax (s : ℕ → Fin T → ℝ) {j j' : ℕ} (h : j' < j) :
    tileMax (s j') ≤ pmax s j := by
  induction j with
  | zero => omega
  | succ j ih =>
    rw [pmax_succ]
    rcases Nat.lt_succ_iff_lt_or_eq.mp h with h' | rfl
    · exact le_max_of_le_left (ih h')
    · exact le_max_right _ _

/-- pmax s j is an upper bound of the first j tiles. -/
theorem le_pmax (s : ℕ → Fin T → ℝ) {j j' : ℕ} (h : j' < j) (k : Fin T) : s j' k ≤ pmax s j :=
  (le_tileMax (s j') k).trans (tileMax_le_pmax s h)

/-- pmax s j is the least upper bound of the maxima of the first j tiles (j ≥ 1). -/
theorem pmax_le (s : ℕ → Fin T → ℝ) {j : ℕ} (hj : 1 ≤ j) (B : ℝ)
    (h : ∀ j' < j, tileMax (s j') ≤ B) : pmax s j ≤ B := by
  induction j, hj using Nat.le_induction with
  | base => rw [pmax_one]; exact h 0 (by omega)
  | succ j hj ih =>
    rw [pmax_succ]
    exact max_le (ih fun j' hj' => h j' (by omega)) (h j (by omega))

/-! ## The invariant, tiles indexed by ℕ -/

/-- **The invariant.**  Any sequence of states that starts with the first-tile state and follows the
step equations has, after j tiles, the running maximum pmax s j and the partial sums shifted by
that maximum. -/
theorem invariant (s v : ℕ → Fin T → ℝ) (st : ℕ → ℝ × ℝ × ℝ)
    (h1 : st 1 = first (s 0) (v 0))
    (hstep : ∀ j, 1 ≤ j → j < n → st (j + 1) = step (st j) (s j) (v j))
    (j : ℕ) (hj1 : 1 ≤ j) (hjn : j ≤ n) :
    (st j).1 = pmax s j ∧
    (st j).2.1 = ∑ j' ∈ range j, ∑ k, Real.exp (s j' k - pmax s j) ∧
    (st j).2.2 = ∑ j' ∈ range j, ∑ k, Real.exp (s j' k - pmax s j) * v j' k := by
  induction j, hj1 using Nat.le_induction with
  | base =>
    rw [h1, pmax_one]
    refine ⟨rfl, ?_, ?_⟩
    · rw [Finset.sum_range_one]; rfl
    · rw [Finset.sum_range_one]; rfl
  | succ j hj ih =>
    obtain ⟨hm, hl, ha⟩ := ih (by omega)
    rw [hstep j hj (by omega), pmax_succ]
    refine ⟨?_, ?_, ?_⟩
    · show max (st j).1 (tileMax (s j)) = _
      rw [hm]
    · show Real.exp ((st j).1 - max (st j).1 (tileMax (s j))) * (st j).2.1
        + ∑ k, Real.exp (s j k - max (st j).1 (tileMax (s j))) = _
      rw [hm, hl, Finset.sum_range_succ, Finset.mul_sum]
      congr 1
      refine Finset.sum_congr rfl fun j' _ => ?_
      rw [Finset.mul_sum]
      refine Finset.sum_congr rfl fun k _ => ?_
      rw [← Real.exp_add]
      congr 1
      ring
    · show Real.exp ((st j).1 - max (st j).1 (tileMax (s j))) * (st j).2.2
        + ∑ k, Real.exp (s j k - max (st j).1 (tileMax (s j))) * v j k = _
      rw [hm, ha, Finset.sum_range_succ, Finset.mul_sum]
      congr 1
      refine Finset.sum_congr rfl fun j' _ => ?_
      rw [Finset.mul_sum]
      refine Finset.sum_congr rfl fun k _ => ?_
      rw [← mul_assoc, ← Real.exp_add]
      congr 2
      ring

/-! ## Shift invariance of the softmax-weighted mean -/

/-- The softmax-weighted mean does not depend on the shift. -/
theorem weighted_shift {ι : Type*} (t : Finset ι) (f g : ι → ℝ) (M M' : ℝ) :
    (∑ i ∈ t, Real.exp (f i - M) * g i) / (∑ i ∈ t, Real.exp (f i - M)) =
    (∑ i ∈ t, Real.exp (f i - M') * g i) / (∑ i ∈ t, Real.exp (f i - M')) := by
  have h : ∀ i, Real.exp (f i - M) = Real.exp (M' - M) * Real.exp (f i - M') := fun i => by
    rw [← Real.exp_add]
    congr 1
    ring
  simp only [h, mul_assoc, ← Finset.mul_sum]
  exact mul_div_mul_left _ _ (Real.exp_pos _).ne'

/-- Normalised weights: ∑ (e_i / L) * g_i = (∑ e_i * g_i) / L. -/
theorem sum_div_mul {ι : Type*} (t : Finset ι) (e g : ι → ℝ) (L : ℝ) :
    ∑ i ∈ t, (e i / L) * g i = (∑ i ∈ t, e i * g i) / L := by
  simp only [div_eq_mul_inv, Finset.sum_mul]
  exact Finset.sum_congr rfl fun i _ => by ring

/-- The normaliser is positive on a nonempty index set. -/
theorem normaliser_pos {ι : Type*} (t : Finset ι) (ht : t.Nonempty) (f : ι → ℝ) (M : ℝ) :
    0 < ∑ i ∈ t, Real.exp (f i - M) :=
  Finset.sum_pos (fun _ _ => Real.exp_pos _) ht

/-! ## The corollary, tiles indexed by Fin n -/

/-- A family of n tiles continued to all of ℕ by zero tiles. -/
noncomputable def extend (s : Fin n → Fin T → ℝ) (j : ℕ) : Fin T → ℝ :=
  if h : j < n then s ⟨j, h⟩ else fun _ => 0

theorem extend_of_lt (s : Fin n → Fin T → ℝ) {j : ℕ} (hj : j < n) : extend s j = s ⟨j, hj⟩ :=
  dif_pos hj

theorem extend_val (s : Fin n → Fin T → ℝ) (j : Fin n) : extend s (j : ℕ) = s j :=
  extend_of_lt s j.2

theorem extend_zero [NeZero n] (s : Fin n → Fin T → ℝ) : extend s 0 = s 0 := by
  rw [extend_of_lt s (NeZero.pos n)]
  congr 1

/-- The invariant after all n tiles, tiles indexed by Fin n. -/
theorem invariant_fin [NeZero n] (s v : Fin n → Fin T → ℝ) (st : ℕ → ℝ × ℝ × ℝ)
    (h1 : st 1 = first (s 0) (v 0))
    (hstep : ∀ j (hj : j < n), 1 ≤ j → st (j + 1) = step (st j) (s ⟨j, hj⟩) (v ⟨j, hj⟩)) :
    (st n).1 = pmax (extend s) n ∧
    (st n).2.1 = ∑ j, ∑ k, Real.exp (s j k - pmax (extend s) n) ∧
    (st n).2.2 = ∑ j, ∑ k, Real.exp (s j k - pmax (extend s) n) * v j k := by
  have h1' : st 1 = first (extend s 0) (extend v 0) := by rw [h1, extend_zero, extend_zero]
  have hs' : ∀ j, 1 ≤ j → j < n → st (j + 1) = step (st j) (extend s j) (extend v j) :=
    fun j h1j hjn => by rw [hstep j hjn h1j, extend_of_lt s hjn, extend_of_lt v hjn]
  obtain ⟨hm, hl, ha⟩ := invariant (n := n) (extend s) (extend v) st h1' hs' n NeZero.one_le le_rfl
  refine ⟨hm, ?_, ?_⟩
  · rw [hl, ← Fin.sum_univ_eq_sum_range
      (fun j' => ∑ k, Real.exp (extend s j' k - pmax (extend s) n)) n]
    simp only [extend_val]
  · rw [ha, ← Fin.sum_univ_eq_sum_range
      (fun j' => ∑ k, Real.exp (extend s j' k - pmax (extend s) n) * extend v j' k) n]
    simp only [extend_val]

/-- **Online softmax = softmax**, two-level index, any shift M.
st is any sequence with st 1 the first-tile state and st (j+1) the step of st j by tile j. -/
theorem online_eq_softmax [NeZero n] (s v : Fin n → Fin T → ℝ) (st : ℕ → ℝ × ℝ × ℝ)
    (h1 : st 1 = first (s 0) (v 0))
    (hstep : ∀ j (hj : j < n), 1 ≤ j → st (j + 1) = step (st j) (s ⟨j, hj⟩) (v ⟨j, hj⟩))
    (M : ℝ) :
    (st n).2.2 / (st n).2.1 =
      ∑ j, ∑ k, (Real.exp (s j k - M) / (∑ j', ∑ k', Real.exp (s j' k' - M))) * v j k := by
  obtain ⟨-, hl, ha⟩ := invariant_fin s v st h1 hstep
  calc (st n).2.2 / (st n).2.1
      = (∑ x : Fin n × Fin T, Real.exp (s x.1 x.2 - pmax (extend s) n) * v x.1 x.2) /
          (∑ x : Fin n × Fin T, Real.exp (s x.1 x.2 - pmax (extend s) n)) := by
        rw [ha, hl]; simp only [Fintype.sum_prod_type]
    _ = (∑ x : Fin n × Fin T, Real.exp (s x.1 x.2 - M) * v x.1 x.2) /
          (∑ x : Fin n × Fin T, Real.exp (s x.1 x.2 - M)) :=
        weighted_shift Finset.univ (fun x : Fin n × Fin T => s x.1 x.2)
          (fun x : Fin n × Fin T => v x.1 x.2) _ M
    _ = ∑ x : Fin n × Fin T,
          (Real.exp (s x.1 x.2 - M) / (∑ x : Fin n × Fin T, Real.exp (s x.1 x.2 - M))) * v x.1 x.2 :=
        (sum_div_mul Finset.univ (fun x : Fin n × Fin T => Real.exp (s x.1 x.2 - M))
          (fun x : Fin n × Fin T => v x.1 x.2) _).symm
    _ = _ := by simp only [Fintype.sum_prod_type]

/-- The normaliser of online_eq_softmax is positive. -/
theorem normaliser2_pos [NeZero n] (s : Fin n → Fin T → ℝ) (M : ℝ) :
    0 < ∑ j, ∑ k, Real.exp (s j k - M) :=
  Finset.sum_pos (fun _ _ => Finset.sum_pos (fun _ _ => Real.exp_pos _) Finset.univ_nonempty)
    Finset.univ_nonempty

/-- The final running maximum is the maximum over all tiles and keys. -/
theorem final_max [NeZero n] (s v : Fin n → Fin T → ℝ) (st : ℕ → ℝ × ℝ × ℝ)
    (h1 : st 1 = first (s 0) (v 0))
    (hstep : ∀ j (hj : j < n), 1 ≤ j → st (j + 1) = step (st j) (s ⟨j, hj⟩) (v ⟨j, hj⟩)) :
    (st n).1 = Finset.univ.sup' Finset.univ_nonempty fun j => tileMax (s j) := by
  rw [(invariant_fin s v st h1 hstep).1]
  apply le_antisymm
  · refine pmax_le _ NeZero.one_le _ fun j' hj' => ?_
    rw [extend_of_lt s hj']
    exact Finset.le_sup' (fun j => tileMax (s j)) (Finset.mem_univ _)
  · refine Finset.sup'_le _ _ fun j _ => ?_
    rw [← extend_val s j]
    exact tileMax_le_pmax _ j.2

/-! ## The corollary over one flat key index -/

/-- **Online softmax = softmax**, flat index: the keys are indexed by ι, cut in n tiles of T
through a bijection e : Fin n × Fin T ≃ ι; tile j holds the keys e (j, ·). -/
theorem online_eq_softmax_flat [NeZero n] {ι : Type*} [Fintype ι] (e : Fin n × Fin T ≃ ι)
    (sf vf : ι → ℝ) (st : ℕ → ℝ × ℝ × ℝ)
    (h1 : st 1 = first (fun k => sf (e (0, k))) (fun k => vf (e (0, k))))
    (hstep : ∀ j (hj : j < n), 1 ≤ j →
      st (j + 1) = step (st j) (fun k => sf (e (⟨j, hj⟩, k))) (fun k => vf (e (⟨j, hj⟩, k))))
    (M : ℝ) :
    (st n).2.2 / (st n).2.1 =
      ∑ κ, (Real.exp (sf κ - M) / (∑ κ', Real.exp (sf κ' - M))) * vf κ := by
  have key : ∀ g : ι → ℝ, ∑ j, ∑ k, g (e (j, k)) = ∑ κ, g κ := fun g =>
    (Fintype.sum_prod_type fun x => g (e x)).symm.trans (Equiv.sum_comp e g)
  rw [online_eq_softmax (fun j k => sf (e (j, k))) (fun j k => vf (e (j, k))) st h1 hstep M,
    key fun κ => Real.exp (sf κ - M)]
  exact key fun κ => Real.exp (sf κ - M) / (∑ κ', Real.exp (sf κ' - M)) * vf κ

/-- The instance of the flat statement for ι = Fin (n * T) with key κ in tile κ / T at place
κ % T (finProdFinEquiv (j, k) = k + T * j). -/
theorem online_eq_softmax_fin [NeZero n]
    (sf vf : Fin (n * T) → ℝ) (st : ℕ → ℝ × ℝ × ℝ)
    (h1 : st 1 = first (fun k => sf (finProdFinEquiv (0, k))) (fun k => vf (finProdFinEquiv (0, k))))
    (hstep : ∀ j (hj : j < n), 1 ≤ j →
      st (j + 1) = step (st j) (fun k => sf (finProdFinEquiv (⟨j, hj⟩, k)))
        (fun k => vf (finProdFinEquiv (⟨j, hj⟩, k))))
    (M : ℝ) :
    (st n).2.2 / (st n).2.1 =
      ∑ κ, (Real.exp (sf κ - M) / (∑ κ', Real.exp (sf κ' - M))) * vf κ :=
  online_eq_softmax_flat finProdFinEquiv sf vf st h1 hstep M

/-! ## Extended reals: the maximum as a fold of max from ⊥, and the initial state -/

/-- The inclusion of the reals in the extended reals commutes with nonempty finite maxima. -/
theorem coe_sup' {ι : Type*} (t : Finset ι) (ht : t.Nonempty) (f : ι → ℝ) :
    ((t.sup' ht f : ℝ) : EReal) = t.sup fun i => ((f i : ℝ) : EReal) := by
  rw [Finset.apply_sup'_eq_sup'_comp ht (fun x : ℝ => (x : EReal))
    (fun x y => EReal.coe_strictMono.monotone.map_max), Finset.sup'_eq_sup]
  rfl

/-- The maximum of finitely many reals, in the extended reals, is the fold of max from ⊥. -/
theorem fold_max_coe (f : Fin T → ℝ) :
    (Finset.univ.fold max (⊥ : EReal) fun k => ((f k : ℝ) : EReal)) = ((tileMax f : ℝ) : EReal) :=
  (coe_sup' Finset.univ Finset.univ_nonempty f).symm

/-- The same over any nonempty finite index type (all keys at once). -/
theorem fold_max_coe_univ {ι : Type*} [Fintype ι] [Nonempty ι] (f : ι → ℝ) :
    (Finset.univ.fold max (⊥ : EReal) fun i => ((f i : ℝ) : EReal)) =
      ((Finset.univ.sup' Finset.univ_nonempty f : ℝ) : EReal) :=
  (coe_sup' Finset.univ Finset.univ_nonempty f).symm

/-- The fold of max from ⊥ of extended reals that are all real. -/
theorem fold_max_of_coe {ι : Type*} [Fintype ι] [Nonempty ι] (g : ι → EReal) (f : ι → ℝ)
    (h : ∀ i, g i = ((f i : ℝ) : EReal)) :
    Finset.univ.fold max (⊥ : EReal) g = ((Finset.univ.sup' Finset.univ_nonempty f : ℝ) : EReal) := by
  rw [show g = fun i => ((f i : ℝ) : EReal) from funext h]
  exact fold_max_coe_univ f

/-- A left fold of max along a list is the maximum over the members of the list. -/
theorem foldl_max_eq_sup {ι : Type*} [DecidableEq ι] (l : List ι) (g : ι → EReal) (a : EReal) :
    l.foldl (fun a i => max a (g i)) a = max a (l.toFinset.sup g) := by
  induction l generalizing a with
  | nil => simp
  | cons x tl ih =>
    rw [List.foldl_cons, ih, List.toFinset_cons, Finset.sup_insert, max_assoc]

/-- The same for a left fold along any nonempty list. -/
theorem foldl_max_coe {ι : Type*} [DecidableEq ι] (l : List ι) (hl : l ≠ []) (f : ι → ℝ) :
    l.foldl (fun a i => max a ((f i : ℝ) : EReal)) ⊥ =
      (((l.toFinset.sup' (by simpa using hl) f : ℝ)) : EReal) := by
  rw [foldl_max_eq_sup l (fun i => ((f i : ℝ) : EReal)) ⊥, coe_sup']
  exact bot_sup_eq _

/-- Along the list of all places of a tile. -/
theorem foldl_max_coe_finRange (f : Fin T → ℝ) :
    (List.finRange T).foldl (fun a i => max a ((f i : ℝ) : EReal)) ⊥ = ((tileMax f : ℝ) : EReal) := by
  rw [foldl_max_eq_sup (List.finRange T) (fun i => ((f i : ℝ) : EReal)) ⊥, List.toFinset_finRange]
  exact (bot_sup_eq _).trans (coe_sup' Finset.univ Finset.univ_nonempty f).symm

theorem bot_max_coe (x : ℝ) : max (⊥ : EReal) (x : EReal) = x := bot_sup_eq _

theorem bot_sub_coe (x : ℝ) : (⊥ : EReal) - (x : EReal) = ⊥ := EReal.bot_sub _

theorem zero_mul_zero_add (y : EReal) : (0 : EReal) * 0 + y = y := by simp

end OnlineSoftmax
-- ==== Proof.SpecReal.lean ====
/-
  The attention formula over real arrays.  For an input x of shape 4 x 4096 x 128 and three weight matrices of shape
  128 x 128: the projections Q = x wq, K = x wk, V = x wv, the scaled scores S = Q Kᵀ / c with c = 11863283 / 1048576
  (the single-precision value nearest the square root of 128), the row maximum M of S over the keys, and the result
  Out = softmax(S) V, with the softmax written with the row maximum subtracted:
    Out[b,q,e] = ∑ k, (exp (S[b,q,k] - M[b,q]) / ∑ k', exp (S[b,q,k'] - M[b,q])) * V[b,k,e].
-/
import Idealize.ShloMosaic.Lib.ValueIdx

noncomputable section

open scoped BigOperators

namespace Cert.SpecReal

open Idealize.ShloMosaic Idealize.ShloMosaic.ValueIdx

/-- A real array of shape 4 x 4096 x 128. -/
abbrev X : Type := (⟨3, ![4, 4096, 128]⟩ : Shape).Idx → ℝ
/-- A real matrix of shape 128 x 128. -/
abbrev W : Type := (⟨2, ![128, 128]⟩ : Shape).Idx → ℝ

/-- The projection of x by a weight matrix: (x w)[b,s,e] = ∑ d, x[b,s,d] * w[d,e]. -/
def proj (xr : X) (wr : W) (b : Fin 4) (s : Fin 4096) (e : Fin 128) : ℝ :=
  ∑ d : Fin 128, xr (ix3 b s d) * wr (ix2 d e)

/-- The queries, keys and values are the three projections. -/
abbrev Qr (xr : X) (wqr : W) : Fin 4 → Fin 4096 → Fin 128 → ℝ := proj xr wqr
abbrev Kr (xr : X) (wkr : W) : Fin 4 → Fin 4096 → Fin 128 → ℝ := proj xr wkr
abbrev Vr (xr : X) (wvr : W) : Fin 4 → Fin 4096 → Fin 128 → ℝ := proj xr wvr

/-- The scaled score of query row q against key row k. -/
def Sr (xr : X) (wqr wkr : W) (b : Fin 4) (q k : Fin 4096) : ℝ :=
  (∑ d : Fin 128, Qr xr wqr b q d * Kr xr wkr b k d) / (11863283 / 1048576)

/-- The largest score of a query row. -/
def Mr (xr : X) (wqr wkr : W) (b : Fin 4) (q : Fin 4096) : ℝ :=
  Finset.univ.sup' Finset.univ_nonempty (fun k : Fin 4096 => Sr xr wqr wkr b q k)

/-- The normaliser of a query row: the sum of the exponentials of the scores less their maximum. -/
def Lr (xr : X) (wqr wkr : W) (b : Fin 4) (q : Fin 4096) : ℝ :=
  ∑ k : Fin 4096, Real.exp (Sr xr wqr wkr b q k - Mr xr wqr wkr b q)

/-- The attention output. -/
def Outr (xr : X) (wqr wkr wvr : W) (b : Fin 4) (q : Fin 4096) (e : Fin 128) : ℝ :=
  ∑ k : Fin 4096, (Real.exp (Sr xr wqr wkr b q k - Mr xr wqr wkr b q) / Lr xr wqr wkr b q) * Vr xr wvr b k e

/-- Every score is at most its row's maximum. -/
theorem Sr_le_Mr (xr : X) (wqr wkr : W) (b : Fin 4) (q k : Fin 4096) : Sr xr wqr wkr b q k ≤ Mr xr wqr wkr b q :=
  Finset.le_sup' (fun k : Fin 4096 => Sr xr wqr wkr b q k) (Finset.mem_univ k)

/-- The normaliser is positive. -/
theorem Lr_pos (xr : X) (wqr wkr : W) (b : Fin 4) (q : Fin 4096) : 0 < Lr xr wqr wkr b q :=
  Finset.sum_pos (fun _ _ => Real.exp_pos _) Finset.univ_nonempty

end Cert.SpecReal

end
-- ==== Proof.IBridge.lean ====
/-
  The streaming softmax over the eight key tiles of one query tile, and the attention formula.

  Three real arrays Qa, Ka, Va of shape 4 x 4096 x 128 (queries, keys, values).  Query tile qi (of 16) holds the
  query rows 256 qi, ..., 256 qi + 255; key tile kv (of 8) holds the key rows 512 kv, ..., 512 kv + 511.  For one
  query tile the state after key tile kv is three arrays: the row maxima mR, the row sums lR (4 x 256 x 1 each) and
  the unnormalised output accR (4 x 256 x 128).  The state after tile 0 is the first step's (row maximum of the
  tile's scores, sum of the exponentials of the scores less that maximum, the same sum weighted by the values), and
  the state after tile kv + 1 is one step of the recurrence from the state after tile kv.

  Every row sum is positive.  After the last tile the quotient accR / lR at (b, r, e) is the softmax-weighted mean
  over all 4096 keys,  ∑ κ, (exp (s κ - M) / ∑ κ', exp (s κ' - M)) * Va[b, κ, e],  for every shift M, where
  s κ = (∑ d, Qa[b, 256 qi + r, d] * Ka[b, κ, d]) * (1048576 / 11863283).  With Qa, Ka, Va the three projections of
  an input this is the attention output at row 256 qi + r: multiplying by 1048576 / 11863283 is dividing by
  11863283 / 1048576.
-/
import proofs.«154512_j5798205849797_2_alg».proof.Proof.LibOnlineSoftmax
import proofs.«154512_j5798205849797_2_alg».proof.Proof.SpecReal
import proofs.«154512_j5798205849797_2_alg».proof.Proof.IPay1Defs

noncomputable section

namespace Cert.Bridge

open Idealize.ShloMosaic Idealize.ShloMosaic.ValueIdx Cert.SpecReal Cert.KernelIdeal.Pay1

/-- A real array of shape 4 x 4096 x 128. -/
abbrev A3 : Type := (⟨3, ![4, 4096, 128]⟩ : Shape).Idx → ℝ

/-- Row r of query tile qi, among the 4096 rows. -/
abbrev qrow (qi : Fin 16) (r : Fin 256) : Fin 4096 := ⟨256 * qi.val + r.val, by omega⟩
/-- Row k of key tile kv, among the 4096 rows. -/
abbrev krow (kv : Fin 8) (k : Fin 512) : Fin 4096 := ⟨512 * kv.val + k.val, by omega⟩

/-- Query tile qi of an array. -/
def qtile (Qa : A3) (qi : Fin 16) : (⟨3, ![4, 256, 128]⟩ : Shape).Idx → ℝ :=
  fun j => Qa (ix3 (j 0) (qrow qi (j 1)) (j 2))
/-- Key tile kv of an array. -/
def ktile (Ka : A3) (kv : Fin 8) : (⟨3, ![4, 512, 128]⟩ : Shape).Idx → ℝ :=
  fun j => Ka (ix3 (j 0) (krow kv (j 1)) (j 2))
/-- Value tile kv of an array. -/
def vtile (Va : A3) (kv : Fin 8) : (⟨3, ![4, 512, 128]⟩ : Shape).Idx → ℝ :=
  fun j => Va (ix3 (j 0) (krow kv (j 1)) (j 2))

/-- The key tile a natural number names (its remainder by 8). -/
def tileIx (kv : ℕ) : Fin 8 := ⟨kv % 8, Nat.mod_lt kv (by decide)⟩

theorem tileIx_of_lt {kv : ℕ} (h : kv < 8) : tileIx kv = ⟨kv, h⟩ := Fin.ext (Nat.mod_eq_of_lt h)

/-- The row maxima after key tile kv of query tile qi. -/
def mR (Qa Ka : A3) (qi : Fin 16) : ℕ → (⟨3, ![4, 256, 1]⟩ : Shape).Idx → ℝ
  | 0 => fun j => rowmax (qtile Qa qi) (ktile Ka 0) (j 0) (j 1)
  | kv + 1 => fun j => mNew (mR Qa Ka qi kv) (qtile Qa qi) (ktile Ka (tileIx (kv + 1))) (j 0) (j 1)

/-- The row sums after key tile kv of query tile qi. -/
def lR (Qa Ka : A3) (qi : Fin 16) : ℕ → (⟨3, ![4, 256, 1]⟩ : Shape).Idx → ℝ
  | 0 => fun j => l0 (qtile Qa qi) (ktile Ka 0) (j 0) (j 1)
  | kv + 1 => fun j =>
      lNew (mR Qa Ka qi kv) (lR Qa Ka qi kv) (qtile Qa qi) (ktile Ka (tileIx (kv + 1))) (j 0) (j 1)

/-- The unnormalised output after key tile kv of query tile qi. -/
def accR (Qa Ka Va : A3) (qi : Fin 16) : ℕ → (⟨3, ![4, 256, 128]⟩ : Shape).Idx → ℝ
  | 0 => fun j => acc0 (vtile Va 0) (qtile Qa qi) (ktile Ka 0) (j 0) (j 1) (j 2)
  | kv + 1 => fun j =>
      accNew (mR Qa Ka qi kv) (accR Qa Ka Va qi kv) (vtile Va (tileIx (kv + 1))) (qtile Qa qi)
        (ktile Ka (tileIx (kv + 1))) (j 0) (j 1) (j 2)

/-! ## The unfolding equations -/

theorem mR_zero (Qa Ka : A3) (qi : Fin 16) :
    mR Qa Ka qi 0 = fun j => rowmax (qtile Qa qi) (ktile Ka 0) (j 0) (j 1) := rfl

theorem mR_succ (Qa Ka : A3) (qi : Fin 16) (kv : ℕ) (h : kv + 1 < 8) :
    mR Qa Ka qi (kv + 1) =
      fun j => mNew (mR Qa Ka qi kv) (qtile Qa qi) (ktile Ka ⟨kv + 1, h⟩) (j 0) (j 1) := by
  rw [← tileIx_of_lt h]
  rfl

theorem lR_zero (Qa Ka : A3) (qi : Fin 16) :
    lR Qa Ka qi 0 = fun j => l0 (qtile Qa qi) (ktile Ka 0) (j 0) (j 1) := rfl

theorem lR_succ (Qa Ka : A3) (qi : Fin 16) (kv : ℕ) (h : kv + 1 < 8) :
    lR Qa Ka qi (kv + 1) =
      fun j => lNew (mR Qa Ka qi kv) (lR Qa Ka qi kv) (qtile Qa qi) (ktile Ka ⟨kv + 1, h⟩) (j 0) (j 1) := by
  rw [← tileIx_of_lt h]
  rfl

theorem accR_zero (Qa Ka Va : A3) (qi : Fin 16) :
    accR Qa Ka Va qi 0 = fun j => acc0 (vtile Va 0) (qtile Qa qi) (ktile Ka 0) (j 0) (j 1) (j 2) := rfl

theorem accR_succ (Qa Ka Va : A3) (qi : Fin 16) (kv : ℕ) (h : kv + 1 < 8) :
    accR Qa Ka Va qi (kv + 1) =
      fun j => accNew (mR Qa Ka qi kv) (accR Qa Ka Va qi kv) (vtile Va ⟨kv + 1, h⟩) (qtile Qa qi)
        (ktile Ka ⟨kv + 1, h⟩) (j 0) (j 1) (j 2) := by
  rw [← tileIx_of_lt h]
  rfl

/-! ## Positivity of the row sums -/

/-- Every row sum is positive. -/
theorem lR_pos (Qa Ka : A3) (qi : Fin 16) (kv : ℕ) (j : (⟨3, ![4, 256, 1]⟩ : Shape).Idx) :
    0 < lR Qa Ka qi kv j := by
  induction kv generalizing j with
  | zero =>
    show 0 < l0 (qtile Qa qi) (ktile Ka 0) (j 0) (j 1)
    unfold l0
    exact Finset.sum_pos (fun _ _ => Real.exp_pos _) Finset.univ_nonempty
  | succ kv ih =>
    show 0 < lNew (mR Qa Ka qi kv) (lR Qa Ka qi kv) (qtile Qa qi) (ktile Ka (tileIx (kv + 1))) (j 0) (j 1)
    unfold lNew
    exact add_pos (mul_pos (Real.exp_pos _) (ih _))
      (Finset.sum_pos (fun _ _ => Real.exp_pos _) Finset.univ_nonempty)

/-! ## The quotient after the last tile -/

/-- The scaled score of query row q against key row κ in batch b, over whole arrays. -/
def score (Qa Ka : A3) (b : Fin 4) (q κ : Fin 4096) : ℝ :=
  (∑ d : Fin 128, Qa (ix3 b q d) * Ka (ix3 b κ d)) * (1048576 / 11863283)

/-- Key tile and place in the tile against the key row. -/
def keyEquiv : Fin 8 × Fin 512 ≃ Fin 4096 where
  toFun p := krow p.1 p.2
  invFun κ := (⟨κ.val / 512, by omega⟩, ⟨κ.val % 512, by omega⟩)
  left_inv p := by
    obtain ⟨j, k⟩ := p
    refine Prod.ext (Fin.ext ?_) (Fin.ext ?_)
    · show (512 * j.val + k.val) / 512 = j.val
      omega
    · show (512 * j.val + k.val) % 512 = k.val
      omega
  right_inv κ := by
    refine Fin.ext ?_
    show 512 * (κ.val / 512) + κ.val % 512 = κ.val
    omega

/-- After the last key tile the quotient is the softmax-weighted mean over all keys, for every shift M. -/
theorem accR_div_lR (Qa Ka Va : A3) (qi : Fin 16) (b : Fin 4) (r : Fin 256) (e : Fin 128) (M : ℝ) :
    accR Qa Ka Va qi 7 (ix3 b r e) / lR Qa Ka qi 7 (ix3 b r 0) =
      ∑ κ : Fin 4096, (Real.exp (score Qa Ka b (qrow qi r) κ - M) /
        (∑ κ' : Fin 4096, Real.exp (score Qa Ka b (qrow qi r) κ' - M))) * Va (ix3 b κ e) := by
  have h1 : (mR Qa Ka qi 0 (ix3 b r 0), lR Qa Ka qi 0 (ix3 b r 0), accR Qa Ka Va qi 0 (ix3 b r e)) =
      OnlineSoftmax.first (fun k : Fin 512 => score Qa Ka b (qrow qi r) (keyEquiv (0, k)))
        (fun k : Fin 512 => Va (ix3 b (keyEquiv (0, k)) e)) := rfl
  have hstep : ∀ j (hj : j < 8), 1 ≤ j →
      (mR Qa Ka qi (j + 1 - 1) (ix3 b r 0), lR Qa Ka qi (j + 1 - 1) (ix3 b r 0),
        accR Qa Ka Va qi (j + 1 - 1) (ix3 b r e)) =
      OnlineSoftmax.step
        (mR Qa Ka qi (j - 1) (ix3 b r 0), lR Qa Ka qi (j - 1) (ix3 b r 0), accR Qa Ka Va qi (j - 1) (ix3 b r e))
        (fun k : Fin 512 => score Qa Ka b (qrow qi r) (keyEquiv (⟨j, hj⟩, k)))
        (fun k : Fin 512 => Va (ix3 b (keyEquiv (⟨j, hj⟩, k)) e)) := by
    intro j hj h1j
    obtain ⟨j', rfl⟩ : ∃ j', j = j' + 1 := ⟨j - 1, by omega⟩
    show (mR Qa Ka qi (j' + 1) (ix3 b r 0), lR Qa Ka qi (j' + 1) (ix3 b r 0),
        accR Qa Ka Va qi (j' + 1) (ix3 b r e)) = _
    rw [mR_succ Qa Ka qi j' hj, lR_succ Qa Ka qi j' hj, accR_succ Qa Ka Va qi j' hj]
    rfl
  exact OnlineSoftmax.online_eq_softmax_flat (n := 8) (T := 512) keyEquiv
    (fun κ => score Qa Ka b (qrow qi r) κ) (fun κ => Va (ix3 b κ e))
    (fun j => (mR Qa Ka qi (j - 1) (ix3 b r 0), lR Qa Ka qi (j - 1) (ix3 b r 0),
      accR Qa Ka Va qi (j - 1) (ix3 b r e))) h1 hstep M

/-! ## The bridge to the attention formula -/

/-- Multiplying by 1048576 / 11863283 is dividing by 11863283 / 1048576. -/
theorem score_eq_Sr (xr : X) (wqr wkr : W) (b : Fin 4) (q κ : Fin 4096) :
    score (fun i => Qr xr wqr (i 0) (i 1) (i 2)) (fun i => Kr xr wkr (i 0) (i 1) (i 2)) b q κ =
      Sr xr wqr wkr b q κ := by
  show (∑ d : Fin 128, Qr xr wqr b q d * Kr xr wkr b κ d) * (1048576 / 11863283) =
    (∑ d : Fin 128, Qr xr wqr b q d * Kr xr wkr b κ d) / (11863283 / 1048576)
  rw [div_div_eq_mul_div, mul_div_assoc]

/-- **The bridge.**  With the three projections for arrays, the quotient after the last key tile is the attention
output. -/
theorem bridge (xr : X) (wqr wkr wvr : W) (qi : Fin 16) (b : Fin 4) (r : Fin 256) (e : Fin 128) :
    accR (fun i => Qr xr wqr (i 0) (i 1) (i 2)) (fun i => Kr xr wkr (i 0) (i 1) (i 2))
        (fun i => Vr xr wvr (i 0) (i 1) (i 2)) qi 7 (ix3 b r e) /
      lR (fun i => Qr xr wqr (i 0) (i 1) (i 2)) (fun i => Kr xr wkr (i 0) (i 1) (i 2)) qi 7 (ix3 b r 0) =
    Outr xr wqr wkr wvr b (qrow qi r) e := by
  rw [accR_div_lR _ _ _ qi b r e (Mr xr wqr wkr b (qrow qi r))]
  simp only [score_eq_Sr]
  rfl

end Cert.Bridge

end
-- ==== Proof.IFin1.lean ====
/-
  The output array after the attention region.  The output window's blocks written back (at the last key tile of
  each query tile) cover the output array, and a block read off an array G is rows 256 (t / 8) … of G; so if at
  every point that writes back the body leaves the block of G in the output's buffer, the array ends holding G.
-/
import proofs.«154512_j5798205849797_2_alg».proof.Proof.IGeom1
import proofs.«154512_j5798205849797_2_alg».proof.Proof.IR1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Whatever the pipeline's proof data: if what the body leaves in the output's buffer at every point that writes
    back is the block of G there, the output array ends holding G. -/
theorem arr1_3_of_after {c : Dev nD} (dat : Dat τ (Elt Ideal) Unit ℕ (UR sig nD τ) ℕ cfg1 c) (G : S4x4096x128.Idx → EReal)
    (hout : ∀ t : Fin cfg1.N, t.val % 8 = 7 → dat.after 3 t = fun j => G (ix3 (j 0) (qrow t (j 1)) (j 2))) :
    dat.arrAt 3 cfg1.N = G := by
  refine Dat.arrAt_eq_of_cover (dat := dat) 3 G (fun t hf => ?_) cover1_3
  show (cfg1.win 3).cut (grid1.coords t) (dat.after 3 t) = _
  rw [hout t ((flush1_3 t).1 hf), blk1_3_read G t]

/-- The same for the region's own proof data: the output's buffer after point t is the accumulation's first
    component there. -/
theorem arr1_3_of_out (V : (c : Dev nD) → (b : Ref sig .tc) → Buf (Elt Ideal) ((c : Thread nD τ).loc b)) (c : Dev nD)
    (G : S4x4096x128.Idx → EReal)
    (hout : ∀ t : Fin cfg1.N, t.val % 8 = 7 →
      (outsAt1 V c t.val t.isLt).1 = fun j => G (ix3 (j 0) (qrow t (j 1)) (j 2))) :
    (dat1 (F := Ideal) V c).arrAt 3 cfg1.N = G :=
  arr1_3_of_after (dat1 (F := Ideal) V c) G (fun t h => (after1_3 V c t).trans (hout t h))

end Cert.KernelIdeal.Hand

end
-- ==== Proof.IR1v.lean ====
import proofs.«154512_j5798205849797_2_alg».proof.Proof.IR1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1: what the scratch buffers and the output block hold after each point, as values

  Each case's found pieces read back: the running maximum, the running sum and the accumulator after a point are one
  step of the streaming softmax over the point's key and value tiles, from the reset values at key tile 0 and from
  what the point before left elsewhere; at the last key tile the output block is the accumulator divided by the sum. -/

theorem hz3 : (![0, 0, 0] : Fin 3 → Nat) = fun _ => 0 := funext fun a => by fin_cases a <;> rfl

/-! ## The pieces of each case -/

theorem sout1_B_0_eq (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : ¬cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) :
    sout1_B_0 c i arg2 harg2 arg3 harg3 arg4 harg4 arg5 harg5 arg6 harg6 arg7 harg7 arg8 harg8 hc0 hc1 x0 x1 x2 xs0 xs1 xs2 = k1_pay3 (k1_pay10 (View.ld x1 (Rect.unit (s := S4x4096x128) (k1_off1 i) S4x512x128.size (k1_off1_inb i))) x0 xs0) := by
  unfold sout1_B_0
  rw [View.read_writes_eq_canon _ _ _ (scover1_B_0 c i arg2 harg2 arg3 harg3 arg4 harg4 arg5 harg5 arg6 harg6 arg7 harg7 arg8 harg8 hc0 hc1 x0 x1 x2 xs0 xs1 xs2)]
  unfold kernelRun1_B
  dsimp only
  rw [View.canon_unit_zero hz3]
  simp only [View.readAt_eq_ld, harg2.read_unread, harg3.read_unread, harg4.read_unread, harg6.read_unread, harg7.read_unread, harg8.read_unread, View.ld_unit_zero (S := S4x256x128) hz3, View.ld_unit_zero (S := S4x256x1) hz3]

theorem sout1_B_1_eq (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : ¬cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) :
    sout1_B_1 c i arg2 harg2 arg3 harg3 arg4 harg4 arg5 harg5 arg6 harg6 arg7 harg7 arg8 harg8 hc0 hc1 x0 x1 x2 xs0 xs1 xs2 = k1_pay1 (k1_pay13 (View.ld x1 (Rect.unit (s := S4x4096x128) (k1_off1 i) S4x512x128.size (k1_off1_inb i))) x0 xs0 xs0 xs1) := by
  unfold sout1_B_1
  rw [View.read_writes_eq_canon _ _ _ (scover1_B_1 c i arg2 harg2 arg3 harg3 arg4 harg4 arg5 harg5 arg6 harg6 arg7 harg7 arg8 harg8 hc0 hc1 x0 x1 x2 xs0 xs1 xs2)]
  unfold kernelRun1_B
  dsimp only
  rw [View.canon_unit_zero hz3]
  simp only [View.readAt_eq_ld, harg2.read_unread, harg3.read_unread, harg4.read_unread, harg6.read_unread, harg7.read_unread, harg8.read_unread, View.ld_unit_zero (S := S4x256x128) hz3, View.ld_unit_zero (S := S4x256x1) hz3]

theorem sout1_B_2_eq (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : ¬cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) :
    sout1_B_2 c i arg2 harg2 arg3 harg3 arg4 harg4 arg5 harg5 arg6 harg6 arg7 harg7 arg8 harg8 hc0 hc1 x0 x1 x2 xs0 xs1 xs2 = k1_pay2 (k1_pay8 (View.ld x2 (Rect.unit (s := S4x4096x128) (k1_off1 i) S4x512x128.size (k1_off1_inb i)))) (k1_pay11 (View.ld x1 (Rect.unit (s := S4x4096x128) (k1_off1 i) S4x512x128.size (k1_off1_inb i))) x0 xs0 xs0) (k1_pay12 (View.ld x1 (Rect.unit (s := S4x4096x128) (k1_off1 i) S4x512x128.size (k1_off1_inb i))) x0 xs0) xs2 := by
  unfold sout1_B_2
  rw [View.read_writes_eq_canon _ _ _ (scover1_B_2 c i arg2 harg2 arg3 harg3 arg4 harg4 arg5 harg5 arg6 harg6 arg7 harg7 arg8 harg8 hc0 hc1 x0 x1 x2 xs0 xs1 xs2)]
  unfold kernelRun1_B
  dsimp only
  rw [View.canon_unit_zero hz3]
  simp only [View.readAt_eq_ld, harg2.read_unread, harg3.read_unread, harg4.read_unread, harg6.read_unread, harg7.read_unread, harg8.read_unread, View.ld_unit_zero (S := S4x256x128) hz3, View.ld_unit_zero (S := S4x256x1) hz3]

theorem sout1_C_0_eq (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) :
    sout1_C_0 c i arg2 harg2 arg3 harg3 arg4 harg4 arg5 harg5 arg6 harg6 arg7 harg7 arg8 harg8 hc0 hc1 x0 x1 x2 xs0 xs1 xs2 = k1_pay3 (k1_pay10 (View.ld x1 (Rect.unit (s := S4x4096x128) (k1_off1 i) S4x512x128.size (k1_off1_inb i))) x0 xs0) := by
  unfold sout1_C_0
  rw [View.read_writes_eq_canon _ _ _ (scover1_C_0 c i arg2 harg2 arg3 harg3 arg4 harg4 arg5 harg5 arg6 harg6 arg7 harg7 arg8 harg8 hc0 hc1 x0 x1 x2 xs0 xs1 xs2)]
  unfold kernelRun1_C
  dsimp only
  rw [View.canon_unit_zero hz3]
  simp only [View.readAt_eq_ld, harg2.read_unread, harg3.read_unread, harg4.read_unread, harg6.read_unread, harg7.read_unread, harg8.read_unread, View.ld_unit_zero (S := S4x256x128) hz3, View.ld_unit_zero (S := S4x256x1) hz3]

theorem sout1_C_1_eq (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) :
    sout1_C_1 c i arg2 harg2 arg3 harg3 arg4 harg4 arg5 harg5 arg6 harg6 arg7 harg7 arg8 harg8 hc0 hc1 x0 x1 x2 xs0 xs1 xs2 = k1_pay1 (k1_pay13 (View.ld x1 (Rect.unit (s := S4x4096x128) (k1_off1 i) S4x512x128.size (k1_off1_inb i))) x0 xs0 xs0 xs1) := by
  unfold sout1_C_1
  rw [View.read_writes_eq_canon _ _ _ (scover1_C_1 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero hz3]
  simp only [View.readAt_eq_ld, harg2.read_unread, harg3.read_unread, harg4.read_unread, harg6.read_unread, harg7.read_unread, harg8.read_unread, View.ld_unit_zero (S := S4x256x128) hz3, View.ld_unit_zero (S := S4x256x1) hz3]

theorem sout1_C_2_eq (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) :
    sout1_C_2 c i arg2 harg2 arg3 harg3 arg4 harg4 arg5 harg5 arg6 harg6 arg7 harg7 arg8 harg8 hc0 hc1 x0 x1 x2 xs0 xs1 xs2 = k1_pay2 (k1_pay8 (View.ld x2 (Rect.unit (s := S4x4096x128) (k1_off1 i) S4x512x128.size (k1_off1_inb i)))) (k1_pay11 (View.ld x1 (Rect.unit (s := S4x4096x128) (k1_off1 i) S4x512x128.size (k1_off1_inb i))) x0 xs0 xs0) (k1_pay12 (View.ld x1 (Rect.unit (s := S4x4096x128) (k1_off1 i) S4x512x128.size (k1_off1_inb i))) x0 xs0) xs2 := by
  unfold sout1_C_2
  rw [View.read_writes_eq_canon _ _ _ (scover1_C_2 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero hz3]
  simp only [View.readAt_eq_ld, harg2.read_unread, harg3.read_unread, harg4.read_unread, harg6.read_unread, harg7.read_unread, harg8.read_unread, View.ld_unit_zero (S := S4x256x128) hz3, View.ld_unit_zero (S := S4x256x1) hz3]

theorem sout1_A_0_eq (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : cond1_0 i) (hc1 : ¬cond1_1 i)
    (x0 : Vec F S4x256x128 .f32) (x1 : Vec F S4x4096x128 .f32) (x2 : Vec F S4x4096x128 .bf16) :
    sout1_A_0 c i arg2 harg2 arg3 harg3 arg4 harg4 arg5 harg5 arg6 harg6 arg7 harg7 arg8 harg8 hc0 hc1 x0 x1 x2 = k1_pay3 (k1_pay10 (View.ld x1 (Rect.unit (s := S4x4096x128) (k1_off1 i) S4x512x128.size (k1_off1_inb i))) x0 (k1_pay5 (F := F))) := by
  unfold sout1_A_0
  rw [View.read_writes_eq_canon _ _ _ (scover1_A_0 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S4x256x1) hz3]
  simp only [View.readCov_unit_zero (S := S4x256x1) _ hz3, View.readCov_unit_zero (S := S4x256x128) _ hz3, View.readAt_eq_ld, harg2.read_unread, harg3.read_unread, harg4.read_unread, View.ld_unit_zero (S := S4x256x128) hz3]

theorem sout1_A_1_eq (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : cond1_0 i) (hc1 : ¬cond1_1 i)
    (x0 : Vec F S4x256x128 .f32) (x1 : Vec F S4x4096x128 .f32) (x2 : Vec F S4x4096x128 .bf16) :
    sout1_A_1 c i arg2 harg2 arg3 harg3 arg4 harg4 arg5 harg5 arg6 harg6 arg7 harg7 arg8 harg8 hc0 hc1 x0 x1 x2 = k1_pay1 (k1_pay13 (View.ld x1 (Rect.unit (s := S4x4096x128) (k1_off1 i) S4x512x128.size (k1_off1_inb i))) x0 (k1_pay5 (F := F)) (k1_pay5 (F := F)) (k1_pay6 (F := F))) := by
  unfold sout1_A_1
  rw [View.read_writes_eq_canon _ _ _ (scover1_A_1 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S4x256x1) hz3]
  simp only [View.readCov_unit_zero (S := S4x256x1) _ hz3, View.readCov_unit_zero (S := S4x256x128) _ hz3, View.readAt_eq_ld, harg2.read_unread, harg3.read_unread, harg4.read_unread, View.ld_unit_zero (S := S4x256x128) hz3]

theorem sout1_A_2_eq (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : cond1_0 i) (hc1 : ¬cond1_1 i)
    (x0 : Vec F S4x256x128 .f32) (x1 : Vec F S4x4096x128 .f32) (x2 : Vec F S4x4096x128 .bf16) :
    sout1_A_2 c i arg2 harg2 arg3 harg3 arg4 harg4 arg5 harg5 arg6 harg6 arg7 harg7 arg8 harg8 hc0 hc1 x0 x1 x2 = k1_pay2 (k1_pay8 (View.ld x2 (Rect.unit (s := S4x4096x128) (k1_off1 i) S4x512x128.size (k1_off1_inb i)))) (k1_pay11 (View.ld x1 (Rect.unit (s := S4x4096x128) (k1_off1 i) S4x512x128.size (k1_off1_inb i))) x0 (k1_pay5 (F := F)) (k1_pay5 (F := F))) (k1_pay12 (View.ld x1 (Rect.unit (s := S4x4096x128) (k1_off1 i) S4x512x128.size (k1_off1_inb i))) x0 (k1_pay5 (F := F))) (k1_pay7 (F := F)) := by
  unfold sout1_A_2
  rw [View.read_writes_eq_canon _ _ _ (scover1_A_2 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S4x256x128) hz3]
  simp only [View.readCov_unit_zero (S := S4x256x1) _ hz3, View.readCov_unit_zero (S := S4x256x128) _ hz3, View.readAt_eq_ld, harg2.read_unread, harg3.read_unread, harg4.read_unread, View.ld_unit_zero (S := S4x256x128) hz3]

theorem out1_C_3_eq (c : Dev nD) (i : grid1.Coords) (arg2 : Memref sig .tc .vmem S4x256x128 .f32) (harg2 : arg2.IsWhole) (arg3 : Memref sig .tc .vmem S4x4096x128 .f32) (harg3 : arg3.IsWhole) (arg4 : Memref sig .tc .vmem S4x4096x128 .bf16) (harg4 : arg4.IsWhole) (arg5 : Memref sig .tc .vmem S4x256x128 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x128 .f32) (harg8 : arg8.IsWhole) (hc0 : ¬cond1_0 i) (hc1 : cond1_1 i)
    (x0 : Vec F S4x256x128 .f32) (x1 : Vec F S4x4096x128 .f32) (x2 : Vec F S4x4096x128 .bf16) (xs0 : Vec F S4x256x1 .f32) (xs1 : Vec F S4x256x1 .f32) (xs2 : Vec F S4x256x128 .f32) :
    out1_C_3 c i arg2 harg2 arg3 harg3 arg4 harg4 arg5 harg5 arg6 harg6 arg7 harg7 arg8 harg8 hc0 hc1 x0 x1 x2 xs0 xs1 xs2 = k1_pay4 (sout1_C_2 c i arg2 harg2 arg3 harg3 arg4 harg4 arg5 harg5 arg6 harg6 arg7 harg7 arg8 harg8 hc0 hc1 x0 x1 x2 xs0 xs1 xs2) (sout1_C_1 c i arg2 harg2 arg3 harg3 arg4 harg4 arg5 harg5 arg6 harg6 arg7 harg7 arg8 harg8 hc0 hc1 x0 x1 x2 xs0 xs1 xs2) := by
  rw [sout1_C_2_eq, sout1_C_1_eq]
  unfold out1_C_3
  rw [View.read_writes_eq_canon _ _ _ (cover1_C_3 c i arg2 harg2 arg3 harg3 arg4 harg4 arg5 harg5 arg6 harg6 arg7 harg7 arg8 harg8 hc0 hc1 x0 x1 x2 xs0 xs1 xs2)]
  unfold kernelRun1_C
  dsimp only
  sl_unfold_words
  dsimp only
  rw [View.canon_unit_zero hz3]
  simp only [View.readCov_unit_zero (S := S4x256x1) _ hz3, View.readCov_unit_zero (S := S4x256x128) _ hz3, View.readAt_eq_ld, harg2.read_unread, harg3.read_unread, harg4.read_unread, harg6.read_unread, harg7.read_unread, harg8.read_unread, View.ld_unit_zero (S := S4x256x128) hz3, View.ld_unit_zero (S := S4x256x1) hz3]

/-! ## Point by point -/

section
variable (V : (c : Dev nD) → (b : Ref sig .tc) → Buf (Elt F) ((c : Thread nD τ).loc b))

/-- At key tile 0 the scratch buffers are one step from the reset values. -/
theorem valA (c : Dev nD) (t : Fin cfg1.N) (h0 : t.val % 8 = 0) :
    (outsAt1 V c t.val t.isLt).2 = (k1_pay3 (k1_pay10 (View.ld (iblk1 V c 1 t) (Rect.unit (s := S4x4096x128) (k1_off1 (grid1.coords t)) S4x512x128.size (k1_off1_inb (grid1.coords t)))) (iblk1 V c 0 t) (k1_pay5 (F := F))), k1_pay1 (k1_pay13 (View.ld (iblk1 V c 1 t) (Rect.unit (s := S4x4096x128) (k1_off1 (grid1.coords t)) S4x512x128.size (k1_off1_inb (grid1.coords t)))) (iblk1 V c 0 t) (k1_pay5 (F := F)) (k1_pay5 (F := F)) (k1_pay6 (F := F))), k1_pay2 (k1_pay8 (View.ld (iblk1 V c 2 t) (Rect.unit (s := S4x4096x128) (k1_off1 (grid1.coords t)) S4x512x128.size (k1_off1_inb (grid1.coords t))))) (k1_pay11 (View.ld (iblk1 V c 1 t) (Rect.unit (s := S4x4096x128) (k1_off1 (grid1.coords t)) S4x512x128.size (k1_off1_inb (grid1.coords t)))) (iblk1 V c 0 t) (k1_pay5 (F := F)) (k1_pay5 (F := F))) (k1_pay12 (View.ld (iblk1 V c 1 t) (Rect.unit (s := S4x4096x128) (k1_off1 (grid1.coords t)) S4x512x128.size (k1_off1_inb (grid1.coords t)))) (iblk1 V c 0 t) (k1_pay5 (F := F))) (k1_pay7 (F := F))) := by
  have h1 : ¬t.val % 8 = 7 := by omega
  refine (congrArg Prod.snd (outsAt1_A V c t h0 h1)).trans ?_
  show (_, _, _) = _
  exact congr (congrArg Prod.mk (sout1_A_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)))
    (congr (congrArg Prod.mk (sout1_A_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)))
      (sout1_A_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)))

/-- At any other key tile they are one step from what the point before left. -/
theorem valB (c : Dev nD) (t : Fin cfg1.N) (h0 : ¬t.val % 8 = 0) :
    (outsAt1 V c t.val t.isLt).2 = (k1_pay3 (k1_pay10 (View.ld (iblk1 V c 1 t) (Rect.unit (s := S4x4096x128) (k1_off1 (grid1.coords t)) S4x512x128.size (k1_off1_inb (grid1.coords t)))) (iblk1 V c 0 t) (outsAt1 V c (t.val - 1) (Nat.lt_of_le_of_lt (Nat.sub_le _ _) t.isLt)).2.1), k1_pay1 (k1_pay13 (View.ld (iblk1 V c 1 t) (Rect.unit (s := S4x4096x128) (k1_off1 (grid1.coords t)) S4x512x128.size (k1_off1_inb (grid1.coords t)))) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.1 (outsAt1 V c (t.val - 1) (Nat.lt_of_le_of_lt (Nat.sub_le _ _) t.isLt)).2.2.1), k1_pay2 (k1_pay8 (View.ld (iblk1 V c 2 t) (Rect.unit (s := S4x4096x128) (k1_off1 (grid1.coords t)) S4x512x128.size (k1_off1_inb (grid1.coords t))))) (k1_pay11 (View.ld (iblk1 V c 1 t) (Rect.unit (s := S4x4096x128) (k1_off1 (grid1.coords t)) S4x512x128.size (k1_off1_inb (grid1.coords t)))) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.1) (k1_pay12 (View.ld (iblk1 V c 1 t) (Rect.unit (s := S4x4096x128) (k1_off1 (grid1.coords t)) S4x512x128.size (k1_off1_inb (grid1.coords t)))) (iblk1 V c 0 t) (outsAt1 V c (t.val - 1) (Nat.lt_of_le_of_lt (Nat.sub_le _ _) t.isLt)).2.1) (outsAt1 V c (t.val - 1) (Nat.lt_of_le_of_lt (Nat.sub_le _ _) t.isLt)).2.2.2) := by
  by_cases h1 : t.val % 8 = 7
  · refine (congrArg Prod.snd (outsAt1_C V c t h0 h1)).trans ?_
    show (_, _, _) = _
    exact congr (congrArg Prod.mk (sout1_C_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) _ _ _))
      (congr (congrArg Prod.mk (sout1_C_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) _ _ _))
        (sout1_C_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) _ _ _))
  · refine (congrArg Prod.snd (outsAt1_B V c t h0 h1)).trans ?_
    show (_, _, _) = _
    exact congr (congrArg Prod.mk (sout1_B_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) _ _ _))
      (congr (congrArg Prod.mk (sout1_B_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) _ _ _))
        (sout1_B_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) _ _ _))

/-- At the last key tile the output block is the new accumulator divided by the new sum. -/
theorem valC (c : Dev nD) (t : Fin cfg1.N) (h1 : t.val % 8 = 7) :
    (outsAt1 V c t.val t.isLt).1 = k1_pay4 (outsAt1 V c t.val t.isLt).2.2.2 (outsAt1 V c t.val t.isLt).2.2.1 := by
  have h0 : ¬t.val % 8 = 0 := by omega
  have e := outsAt1_C V c t h0 h1
  refine (congrArg Prod.fst e).trans ?_
  refine Eq.trans ?_ (congrArg (fun p : Vec F S4x256x128 .f32 × Vec F S4x256x1 .f32 × Vec F S4x256x1 .f32 × Vec F S4x256x128 .f32 => k1_pay4 p.2.2.2 p.2.2.1) e).symm
  unfold ptC
  dsimp only
  exact out1_C_3_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

end

end Cert.KernelIdeal.Hand

end
-- ==== Proof.IVal1.lean ====
/- REGION 1's value at the extended reals. Point t of the 16 x 8 grid works on query tile t / 8 and key tile t % 8. After
   the body at point t the three scratch buffers hold the streaming softmax's state of query tile t / 8 after key tile
   t % 8 — the row maxima, the row sums and the unnormalised output — as real arrays; at the last key tile the output
   window's buffer holds the quotient of the unnormalised output by the row sums. Hence the array the region leaves. -/
import proofs.«154512_j5798205849797_2_alg».proof.Proof.IR1
import proofs.«154512_j5798205849797_2_alg».proof.Proof.IGeom1
import proofs.«154512_j5798205849797_2_alg».proof.Proof.IPay1
import proofs.«154512_j5798205849797_2_alg».proof.Proof.IBridge
import proofs.«154512_j5798205849797_2_alg».proof.Proof.IFin1
import proofs.«154512_j5798205849797_2_alg».proof.Proof.IR1v

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.RealLift

/-! ## One step of the body on a real state is one step of the streaming softmax -/

section Steps
variable {Qa Ka Va : S4x4096x128.Idx → ℝ}
  {kt : Vec Ideal S4x512x128 .f32} {qb : Vec Ideal S4x256x128 .f32} {vt : Vec Ideal S4x512x128 .bf16}

/-- The first key tile: from the state (−∞, 0, 0) the body leaves the state after key tile 0. -/
theorem first_isR (qi : Fin 16) (hk : IsR kt (Cert.Bridge.ktile Ka 0)) (hq : IsR qb (Cert.Bridge.qtile Qa qi))
    (hv : IsR vt (Cert.Bridge.vtile Va 0)) :
    IsR (k1_pay3 (k1_pay10 (F := Ideal) kt qb (k1_pay5 (F := Ideal)))) (Cert.Bridge.mR Qa Ka qi 0)
    ∧ IsR (k1_pay1 (k1_pay13 (F := Ideal) kt qb (k1_pay5 (F := Ideal)) (k1_pay5 (F := Ideal)) (k1_pay6 (F := Ideal)))) (Cert.Bridge.lR Qa Ka qi 0)
    ∧ IsR (k1_pay2 (F := Ideal) (k1_pay8 vt) (k1_pay11 kt qb (k1_pay5 (F := Ideal)) (k1_pay5 (F := Ideal))) (k1_pay12 kt qb (k1_pay5 (F := Ideal))) (k1_pay7 (F := Ideal)))
        (Cert.Bridge.accR Qa Ka Va qi 0) := by
  rw [Cert.Bridge.mR_zero Qa Ka qi, Cert.Bridge.lR_zero Qa Ka qi, Cert.Bridge.accR_zero Qa Ka Va qi]
  exact ⟨Pay1.m0_isR hk hq Pay1.pay5_apply, Pay1.l0_isR hk hq Pay1.pay5_apply Pay1.pay6_apply,
    Pay1.acc0_isR hk hq hv Pay1.pay5_apply Pay1.pay7_apply⟩

/-- A later key tile: from the state after key tile kv the body leaves the state after key tile kv + 1. -/
theorem step_isR (qi : Fin 16) (kv : ℕ) (h : kv + 1 < 8) (hk : IsR kt (Cert.Bridge.ktile Ka ⟨kv + 1, h⟩))
    (hq : IsR qb (Cert.Bridge.qtile Qa qi)) (hv : IsR vt (Cert.Bridge.vtile Va ⟨kv + 1, h⟩))
    {m l : Vec Ideal S4x256x1 .f32} {acc : Vec Ideal S4x256x128 .f32}
    (hm : IsR m (Cert.Bridge.mR Qa Ka qi kv)) (hl : IsR l (Cert.Bridge.lR Qa Ka qi kv))
    (hacc : IsR acc (Cert.Bridge.accR Qa Ka Va qi kv)) :
    IsR (k1_pay3 (k1_pay10 (F := Ideal) kt qb m)) (Cert.Bridge.mR Qa Ka qi (kv + 1))
    ∧ IsR (k1_pay1 (k1_pay13 (F := Ideal) kt qb m m l)) (Cert.Bridge.lR Qa Ka qi (kv + 1))
    ∧ IsR (k1_pay2 (F := Ideal) (k1_pay8 vt) (k1_pay11 kt qb m m) (k1_pay12 kt qb m) acc)
        (Cert.Bridge.accR Qa Ka Va qi (kv + 1)) := by
  rw [Cert.Bridge.mR_succ Qa Ka qi kv h, Cert.Bridge.lR_succ Qa Ka qi kv h, Cert.Bridge.accR_succ Qa Ka Va qi kv h]
  exact ⟨Pay1.mNew_isR hk hq hm, Pay1.lNew_isR hk hq hm hl, Pay1.accNew_isR hk hq hv hm hacc⟩

/-- After the last key tile the output is the unnormalised output divided, row by row, by the (positive) row sum. -/
theorem quot_isR (qi : Fin 16) {l : Vec Ideal S4x256x1 .f32} {acc : Vec Ideal S4x256x128 .f32}
    (hl : IsR l (Cert.Bridge.lR Qa Ka qi 7)) (hacc : IsR acc (Cert.Bridge.accR Qa Ka Va qi 7)) :
    IsR (k1_pay4 (F := Ideal) acc l)
      (fun j => Cert.Bridge.accR Qa Ka Va qi 7 j / Cert.Bridge.lR Qa Ka qi 7 (ix3 (j 0) (j 1) 0)) :=
  Pay1.out_isR hacc hl (fun i => (Cert.Bridge.lR_pos Qa Ka qi 7 i).ne')

end Steps

/-! ## The tiles at a point -/

/-- The query tile of point t. -/
def qiOf (t : Fin cfg1.N) : Fin 16 := ⟨t.val / 8, by have := lt_N1 t; omega⟩
/-- The key tile of point t. -/
def kvOf (t : Fin cfg1.N) : Fin 8 := ⟨t.val % 8, Nat.mod_lt _ (by decide)⟩

section Tiles
variable {V : (c : Dev nD) → (b : Ref sig .tc) → Buf (Elt Ideal) ((c : Thread nD τ).loc b)} {c : Dev nD}
  {Qa Ka Va : S4x4096x128.Idx → ℝ}

theorem qblk_tile (hQ : IsR (V c main_v1_0) Qa) (t : Fin cfg1.N) : IsR (iblk1 V c 0 t) (Cert.Bridge.qtile Qa (qiOf t)) :=
  qblk_isR hQ t
theorem ktile_tile (hK : IsR (V c main_v1_1) Ka) (t : Fin cfg1.N) : IsR (ktileAt V c t) (Cert.Bridge.ktile Ka (kvOf t)) :=
  ktile_isR hK t
theorem vtile_tile (hV : IsR (V c main_v1_2) Va) (t : Fin cfg1.N) : IsR (vtileAt V c t) (Cert.Bridge.vtile Va (kvOf t)) :=
  vtile_isR hV t

end Tiles

/-! ## The invariant: the scratch after point n is the streaming state of query tile n / 8 after key tile n % 8 -/

section Inv
variable (V : (c : Dev nD) → (b : Ref sig .tc) → Buf (Elt Ideal) ((c : Thread nD τ).loc b)) (c : Dev nD)
  (Qa Ka Va : S4x4096x128.Idx → ℝ)

/-- The three scratch buffers after point t are real: maxima, sums and unnormalised output of the streaming softmax. -/
def ScratchIsR (t : Fin cfg1.N) : Prop :=
  IsR (outsAt1 (F := Ideal) V c t.val t.isLt).2.1 (Cert.Bridge.mR Qa Ka (qiOf t) (t.val % 8))
  ∧ IsR (outsAt1 (F := Ideal) V c t.val t.isLt).2.2.1 (Cert.Bridge.lR Qa Ka (qiOf t) (t.val % 8))
  ∧ IsR (outsAt1 (F := Ideal) V c t.val t.isLt).2.2.2 (Cert.Bridge.accR Qa Ka Va (qiOf t) (t.val % 8))

variable {V c Qa Ka Va}
variable (hQ : IsR (V c main_v1_0) Qa) (hK : IsR (V c main_v1_1) Ka) (hV : IsR (V c main_v1_2) Va)
-- the body's value equations: at key tile 0 the step from the initial state, elsewhere the step from what the point before left
variable (hA : ∀ t : Fin cfg1.N, t.val % 8 = 0 → (outsAt1 (F := Ideal) V c t.val t.isLt).2
    = (k1_pay3 (F := Ideal) (k1_pay10 (F := Ideal) (ktileAt V c t) (iblk1 V c 0 t) (k1_pay5 (F := Ideal))),
       k1_pay1 (F := Ideal) (k1_pay13 (F := Ideal) (ktileAt V c t) (iblk1 V c 0 t) (k1_pay5 (F := Ideal)) (k1_pay5 (F := Ideal)) (k1_pay6 (F := Ideal))),
       k1_pay2 (F := Ideal) (k1_pay8 (F := Ideal) (vtileAt V c t)) (k1_pay11 (F := Ideal) (ktileAt V c t) (iblk1 V c 0 t) (k1_pay5 (F := Ideal)) (k1_pay5 (F := Ideal))) (k1_pay12 (F := Ideal) (ktileAt V c t) (iblk1 V c 0 t) (k1_pay5 (F := Ideal))) (k1_pay7 (F := Ideal))))
variable (hB : ∀ (t : Fin cfg1.N) (h0 : ¬t.val % 8 = 0),
    (outsAt1 (F := Ideal) V c t.val t.isLt).2
    = (k1_pay3 (F := Ideal) (k1_pay10 (F := Ideal) (ktileAt V c t) (iblk1 V c 0 t) (outsAt1 (F := Ideal) V c (t.val - 1) (Nat.lt_of_le_of_lt (Nat.sub_le _ _) t.isLt)).2.1),
       k1_pay1 (F := Ideal) (k1_pay13 (F := Ideal) (ktileAt V c t) (iblk1 V c 0 t) (outsAt1 (F := Ideal) V c (t.val - 1) (Nat.lt_of_le_of_lt (Nat.sub_le _ _) t.isLt)).2.1
          (outsAt1 (F := Ideal) V c (t.val - 1) (Nat.lt_of_le_of_lt (Nat.sub_le _ _) t.isLt)).2.1
          (outsAt1 (F := Ideal) V c (t.val - 1) (Nat.lt_of_le_of_lt (Nat.sub_le _ _) t.isLt)).2.2.1),
       k1_pay2 (F := Ideal) (k1_pay8 (F := Ideal) (vtileAt V c t))
          (k1_pay11 (F := Ideal) (ktileAt V c t) (iblk1 V c 0 t) (outsAt1 (F := Ideal) V c (t.val - 1) (Nat.lt_of_le_of_lt (Nat.sub_le _ _) t.isLt)).2.1
            (outsAt1 (F := Ideal) V c (t.val - 1) (Nat.lt_of_le_of_lt (Nat.sub_le _ _) t.isLt)).2.1)
          (k1_pay12 (F := Ideal) (ktileAt V c t) (iblk1 V c 0 t) (outsAt1 (F := Ideal) V c (t.val - 1) (Nat.lt_of_le_of_lt (Nat.sub_le _ _) t.isLt)).2.1)
          (outsAt1 (F := Ideal) V c (t.val - 1) (Nat.lt_of_le_of_lt (Nat.sub_le _ _) t.isLt)).2.2.2))

include hQ hK hV hA in
/-- At key tile 0. -/
theorem scratch_first (t : Fin cfg1.N) (h0 : t.val % 8 = 0) : ScratchIsR V c Qa Ka Va t := by
  unfold ScratchIsR
  have e8 : kvOf t = 0 := Fin.ext h0
  have hk := ktile_tile hK t
  have hv := vtile_tile hV t
  rw [e8] at hk hv
  rw [hA t h0, h0]
  exact first_isR (qiOf t) hk (qblk_tile hQ t) hv

include hQ hK hV hB in
/-- At a later key tile, from the invariant at the point before (the same query tile). -/
theorem scratch_step (t : Fin cfg1.N) (h0 : ¬t.val % 8 = 0)
    (ih : ScratchIsR V c Qa Ka Va ⟨t.val - 1, Nat.lt_of_le_of_lt (Nat.sub_le _ _) t.isLt⟩) : ScratchIsR V c Qa Ka Va t := by
  unfold ScratchIsR at ih ⊢
  have hlt : (t.val - 1) % 8 + 1 < 8 := by omega
  have e8 : kvOf t = ⟨(t.val - 1) % 8 + 1, hlt⟩ := Fin.ext (by show t.val % 8 = (t.val - 1) % 8 + 1; omega)
  have eq : qiOf ⟨t.val - 1, Nat.lt_of_le_of_lt (Nat.sub_le _ _) t.isLt⟩ = qiOf t := Fin.ext (by show (t.val - 1) / 8 = t.val / 8; omega)
  have en : t.val % 8 = (t.val - 1) % 8 + 1 := by omega
  have hk := ktile_tile hK t
  have hv := vtile_tile hV t
  rw [e8] at hk hv
  rw [eq] at ih
  rw [hB t h0, en]
  exact step_isR (qiOf t) ((t.val - 1) % 8) hlt hk (qblk_tile hQ t) hv ih.1 ih.2.1 ih.2.2

include hQ hK hV hA hB in
/-- The invariant at every point, by induction along the grid. -/
theorem scratch_isR : ∀ (n : ℕ) (hn : n < cfg1.N), ScratchIsR V c Qa Ka Va ⟨n, hn⟩ := by
  intro n
  induction n with
  | zero => intro hn; exact scratch_first hQ hK hV hA ⟨0, hn⟩ rfl
  | succ n ih =>
    intro hn
    by_cases h0 : (n + 1) % 8 = 0
    · exact scratch_first hQ hK hV hA ⟨n + 1, hn⟩ h0
    · exact scratch_step hQ hK hV hB ⟨n + 1, hn⟩ h0 (ih (Nat.lt_of_succ_lt hn))

/-! ## The output at the last key tile, and the array the region leaves -/

/-- The attention output over whole arrays: at row i 1 = 256 qi + r of batch i 0, the quotient after the last key tile
    of query tile qi at row r. -/
def attnG (Qa Ka Va : S4x4096x128.Idx → ℝ) : S4x4096x128.Idx → ℝ := fun i =>
  Cert.Bridge.accR Qa Ka Va ⟨(i 1).val / 256, by have h : (i 1).val < 4096 := (i 1).isLt; omega⟩ 7
      (ix3 (i 0) (⟨(i 1).val % 256, Nat.mod_lt _ (by decide)⟩ : Fin 256) (i 2))
    / Cert.Bridge.lR Qa Ka ⟨(i 1).val / 256, by have h : (i 1).val < 4096 := (i 1).isLt; omega⟩ 7
      (ix3 (i 0) (⟨(i 1).val % 256, Nat.mod_lt _ (by decide)⟩ : Fin 256) 0)

/-- The specification at an index whose row is row r of query tile qi. -/
theorem attnG_eq (i : S4x4096x128.Idx) (qi : Fin 16) (r : Fin 256) (hq : (i 1).val / 256 = qi.val) (hr : (i 1).val % 256 = r.val) :
    attnG Qa Ka Va i = Cert.Bridge.accR Qa Ka Va qi 7 (ix3 (i 0) r (i 2)) / Cert.Bridge.lR Qa Ka qi 7 (ix3 (i 0) r 0) := by
  have e1 : (⟨(i 1).val / 256, by have h : (i 1).val < 4096 := (i 1).isLt; omega⟩ : Fin 16) = qi := Fin.ext hq
  have e2 : (⟨(i 1).val % 256, Nat.mod_lt _ (by decide)⟩ : Fin 256) = r := Fin.ext hr
  show Cert.Bridge.accR Qa Ka Va ⟨(i 1).val / 256, _⟩ 7 (ix3 (i 0) (⟨(i 1).val % 256, _⟩ : Fin 256) (i 2))
    / Cert.Bridge.lR Qa Ka ⟨(i 1).val / 256, _⟩ 7 (ix3 (i 0) (⟨(i 1).val % 256, _⟩ : Fin 256) 0) = _
  rw [e1, e2]

/-- The specification at row r of query tile t / 8 is the quotient of that tile at row r. -/
theorem attnG_at (t : Fin cfg1.N) (j : S4x256x128.Idx) :
    attnG Qa Ka Va (ix3 (j 0) (qrow t (j 1)) (j 2))
      = Cert.Bridge.accR Qa Ka Va (qiOf t) 7 j / Cert.Bridge.lR Qa Ka (qiOf t) 7 (ix3 (j 0) (j 1) 0) := by
  have hj : (j 1).val < 256 := (j 1).isLt
  have e := attnG_eq (Qa := Qa) (Ka := Ka) (Va := Va) (ix3 (j 0) (qrow t (j 1)) (j 2)) (qiOf t) (j 1)
    (by show (256 * (t.val / 8) + (j 1).val) / 256 = t.val / 8; omega)
    (by show (256 * (t.val / 8) + (j 1).val) % 256 = (j 1).val; omega)
  refine e.trans ?_
  exact congrArg (fun i => Cert.Bridge.accR Qa Ka Va (qiOf t) 7 i / Cert.Bridge.lR Qa Ka (qiOf t) 7 (ix3 (j 0) (j 1) 0)) (eq_ix3 j).symm

-- the body's value equation at the last key tile: the output window's buffer is the quotient payload of the new state
variable (hC : ∀ t : Fin cfg1.N, t.val % 8 = 7 → (outsAt1 (F := Ideal) V c t.val t.isLt).1
    = k1_pay4 (F := Ideal) (outsAt1 (F := Ideal) V c t.val t.isLt).2.2.2 (outsAt1 (F := Ideal) V c t.val t.isLt).2.2.1)

include hQ hK hV hA hB hC in
/-- What the output window's buffer holds at the last key tile: block t of the specification. -/
theorem out_last (t : Fin cfg1.N) (h7 : t.val % 8 = 7) :
    (outsAt1 (F := Ideal) V c t.val t.isLt).1 = fun j => ((attnG Qa Ka Va (ix3 (j 0) (qrow t (j 1)) (j 2)) : ℝ) : EReal) := by
  obtain ⟨-, hl, hacc⟩ := scratch_isR hQ hK hV hA hB t.val t.isLt
  rw [h7] at hl hacc
  funext j
  rw [hC t h7, attnG_at t j]
  exact quot_isR (qiOf t) hl hacc j

include hQ hK hV hA hB hC in
/-- THE ARRAY the region leaves: the attention output, every entry a real. -/
theorem arr1_3_isR' : IsR ((dat1 (F := Ideal) V c).arrAt 3 cfg1.N) (attnG Qa Ka Va) := by
  have h := arr1_3_of_out V c (fun i => ((attnG Qa Ka Va i : ℝ) : EReal)) (fun t h7 => out_last hQ hK hV hA hB hC t h7)
  intro i
  rw [h]

end Inv

/-- THE ARRAY the attention region leaves, for any entry contents whose query, key and value arrays are real: at
    (b, 256 qi + r, e) the streaming softmax's quotient of query tile qi after its last key tile at (b, r, e). The
    body's value equations are the accumulation's, case by case. -/
theorem arr1_3_isR (V : (c : Dev nD) → (b : Ref sig .tc) → Buf (Elt Ideal) ((c : Thread nD τ).loc b)) (c : Dev nD)
    (Qa Ka Va : S4x4096x128.Idx → ℝ) (hQ : IsR (V c main_v1_0) Qa) (hK : IsR (V c main_v1_1) Ka) (hV : IsR (V c main_v1_2) Va) :
    IsR ((dat1 (F := Ideal) V c).arrAt 3 cfg1.N) (attnG Qa Ka Va) :=
  arr1_3_isR' hQ hK hV (fun t h0 => valA (F := Ideal) V c t h0) (fun t h0 => valB (F := Ideal) V c t h0)
    (fun t h7 => valC (F := Ideal) V c t h7)

end Cert.KernelIdeal.Hand

end
-- ==== Proof.IProjBridge.lean ====
/-
  Region 0's three result arrays are the specification's projections.

  Region 0 multiplies each batch row of x by the three weight matrices laid side by side, W = [wq | wk | wv]
  (128 × 384), and keeps the column blocks 0 … 127, 128 … 255 and 256 … 383 of the product.  Column c + o of W is
  column c of wq, wk or wv for o = 0, 128, 256, so the three blocks are x wq, x wk and x wv.
-/
import proofs.«154512_j5798205849797_2_alg».proof.Proof.IVal0
import proofs.«154512_j5798205849797_2_alg».proof.Proof.IHost
import proofs.«154512_j5798205849797_2_alg».proof.Proof.SpecReal

noncomputable section

namespace Cert.KernelIdeal.Hand

open Cert.KernelIdeal Idealize.ShloMosaic Idealize.ShloMosaic.ValueIdx

/-! ## The side-by-side matrix, by column range -/

/-- Left of column 128 it is the first matrix … -/
theorem wcatR_of_lt (a b c : S128x128.Idx → ℝ) (j : S128x384.Idx) (h : (j 1).val < 128) :
    wcatR a b c j = a (ix2 (j 0) ⟨(j 1).val, h⟩) := dif_pos h

/-- … from column 128 to column 255 the second, shifted by 128 … -/
theorem wcatR_of_mid (a b c : S128x128.Idx → ℝ) (j : S128x384.Idx) (h1 : ¬(j 1).val < 128) (h2 : (j 1).val < 256) :
    wcatR a b c j = b (ix2 (j 0) ⟨(j 1).val - 128, by omega⟩) := by
  unfold wcatR
  rw [dif_neg h1, dif_pos h2]

/-- … and from column 256 on the third, shifted by 256. -/
theorem wcatR_of_ge (a b c : S128x128.Idx → ℝ) (j : S128x384.Idx) (h1 : ¬(j 1).val < 128) (h2 : ¬(j 1).val < 256) :
    wcatR a b c j = c (ix2 (j 0) ⟨(j 1).val - 256, by have hj : (j 1).val < 384 := (j 1).isLt; omega⟩) := by
  unfold wcatR
  rw [dif_neg h1, dif_neg h2]

variable (wq wk wv : S128x128.Idx → ℝ)

/-- Column `e` of the first block is column `e` of the first matrix. -/
theorem wcatR_q (d e : Fin 128) : wcatR wq wk wv (ix2 d (Val0.col 0 (by omega) e)) = wq (ix2 d e) := by
  have he : e.val < 128 := e.isLt
  refine (wcatR_of_lt wq wk wv _ (show e.val + 0 < 128 by omega)).trans (congrArg wq ?_)
  exact funext fun a => Fin.ext (by match a with | ⟨0, _⟩ => rfl | ⟨1, _⟩ => exact Nat.add_zero _)

/-- Column `e` of the second block is column `e` of the second matrix. -/
theorem wcatR_k (d e : Fin 128) : wcatR wq wk wv (ix2 d (Val0.col 128 (by omega) e)) = wk (ix2 d e) := by
  have he : e.val < 128 := e.isLt
  refine (wcatR_of_mid wq wk wv _ (show ¬e.val + 128 < 128 by omega) (show e.val + 128 < 256 by omega)).trans
    (congrArg wk ?_)
  exact funext fun a => Fin.ext (by
    match a with
    | ⟨0, _⟩ => rfl
    | ⟨1, _⟩ => show e.val + 128 - 128 = e.val; omega)

/-- Column `e` of the third block is column `e` of the third matrix. -/
theorem wcatR_v (d e : Fin 128) : wcatR wq wk wv (ix2 d (Val0.col 256 (by omega) e)) = wv (ix2 d e) := by
  have he : e.val < 128 := e.isLt
  refine (wcatR_of_ge wq wk wv _ (show ¬e.val + 256 < 128 by omega) (show ¬e.val + 256 < 256 by omega)).trans
    (congrArg wv ?_)
  exact funext fun a => Fin.ext (by
    match a with
    | ⟨0, _⟩ => rfl
    | ⟨1, _⟩ => show e.val + 256 - 256 = e.val; omega)

/-! ## The three column blocks of x · [wq | wk | wv] -/

variable (xr : S4x4096x128.Idx → ℝ)

/-- Columns 0 … 127 are the queries x wq. -/
theorem arrG_q :
    (fun i : S4x4096x128.Idx =>
        ∑ d : Fin 128, xr (ix3 (i 0) (i 1) d) * wcatR wq wk wv (ix2 d (Val0.col 0 (by omega) (i 2))))
      = fun i => Cert.SpecReal.Qr xr wq (i 0) (i 1) (i 2) := by
  funext i
  obtain ⟨b, s, e, rfl⟩ : ∃ (b : Fin 4) (s : Fin 4096) (e : Fin 128), i = ix3 b s e := ⟨i 0, i 1, i 2, eq_ix3 i⟩
  show ∑ d : Fin 128, xr (ix3 b s d) * wcatR wq wk wv (ix2 d (Val0.col 0 (by omega) e)) = Cert.SpecReal.proj xr wq b s e
  unfold Cert.SpecReal.proj
  exact Finset.sum_congr rfl fun d _ => congrArg (xr (ix3 b s d) * ·) (wcatR_q wq wk wv d e)

/-- Columns 128 … 255 are the keys x wk. -/
theorem arrG_k :
    (fun i : S4x4096x128.Idx =>
        ∑ d : Fin 128, xr (ix3 (i 0) (i 1) d) * wcatR wq wk wv (ix2 d (Val0.col 128 (by omega) (i 2))))
      = fun i => Cert.SpecReal.Kr xr wk (i 0) (i 1) (i 2) := by
  funext i
  obtain ⟨b, s, e, rfl⟩ : ∃ (b : Fin 4) (s : Fin 4096) (e : Fin 128), i = ix3 b s e := ⟨i 0, i 1, i 2, eq_ix3 i⟩
  show ∑ d : Fin 128, xr (ix3 b s d) * wcatR wq wk wv (ix2 d (Val0.col 128 (by omega) e)) = Cert.SpecReal.proj xr wk b s e
  unfold Cert.SpecReal.proj
  exact Finset.sum_congr rfl fun d _ => congrArg (xr (ix3 b s d) * ·) (wcatR_k wq wk wv d e)

/-- Columns 256 … 383 are the values x wv. -/
theorem arrG_v :
    (fun i : S4x4096x128.Idx =>
        ∑ d : Fin 128, xr (ix3 (i 0) (i 1) d) * wcatR wq wk wv (ix2 d (Val0.col 256 (by omega) (i 2))))
      = fun i => Cert.SpecReal.Vr xr wv (i 0) (i 1) (i 2) := by
  funext i
  obtain ⟨b, s, e, rfl⟩ : ∃ (b : Fin 4) (s : Fin 4096) (e : Fin 128), i = ix3 b s e := ⟨i 0, i 1, i 2, eq_ix3 i⟩
  show ∑ d : Fin 128, xr (ix3 b s d) * wcatR wq wk wv (ix2 d (Val0.col 256 (by omega) e)) = Cert.SpecReal.proj xr wv b s e
  unfold Cert.SpecReal.proj
  exact Finset.sum_congr rfl fun d _ => congrArg (xr (ix3 b s d) * ·) (wcatR_v wq wk wv d e)

end Cert.KernelIdeal.Hand

end
-- ==== Proof.IValue.lean ====
/-
  The kernel program's result.  Under the precondition the result array ends holding the softmax-weighted mean of the
  value projections: the projection region leaves q, k, v as the real projections of x by the three weight matrices
  (the concatenation's column blocks select the matrix); the attention region, fed those, leaves for every query row
  the quotient of the running weighted sum by the running normaliser after the last key tile; and that quotient is the
  softmax-weighted mean over all keys.
-/
import proofs.«154512_j5798205849797_2_alg».proof.Defs
import proofs.«154512_j5798205849797_2_alg».proof.Proof.IChain
import proofs.«154512_j5798205849797_2_alg».proof.Proof.IVal0
import proofs.«154512_j5798205849797_2_alg».proof.Proof.IVal1
import proofs.«154512_j5798205849797_2_alg».proof.Proof.IProjBridge
import proofs.«154512_j5798205849797_2_alg».proof.Proof.IBridge

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.RealLift Cert.SpecReal

attribute [local instance] Cert.Pre_finite_inputs.Gen.facts Cert.KernelIdeal.Gen.facts

variable (m : (ℓ : Loc nD τ sig) → Buf (Elt Ideal) ℓ) (ρ : Dev nD → PrngReg)

/-- Under the precondition the four float arguments are the coercions of their real parts. -/
theorem args_isR (hpre : Cert.Pre_KernelIdeal m) (c : Dev nD) :
    IsR (xE m c) (xR m c) ∧ IsR (wqE m c) (wqR m c) ∧ IsR (wkE m c) (wkR m c) ∧ IsR (wvE m c) (wvR m c) := by
  obtain ⟨hx, hq, hk, hv⟩ := Cert.PreReal.reals_of_pre _ _ _ _ _ (hpre c)
  exact ⟨isR_toReal _ hx, isR_toReal _ hq, isR_toReal _ hk, isR_toReal _ hv⟩

/-- The result: the softmax-weighted mean of the value projections, as extended reals. -/
def outE (c : Dev nD) : S4x4096x128.Idx → EReal :=
  fun i => ((Outr (xR m c) (wqR m c) (wkR m c) (wvR m c) (i 0) (i 1) (i 2) : ℝ) : EReal)

/-- The real arrays the projection region leaves. -/
abbrev QaR (c : Dev nD) : S4x4096x128.Idx → ℝ := fun i => Qr (xR m c) (wqR m c) (i 0) (i 1) (i 2)
abbrev KaR (c : Dev nD) : S4x4096x128.Idx → ℝ := fun i => Kr (xR m c) (wkR m c) (i 0) (i 1) (i 2)
abbrev VaR (c : Dev nD) : S4x4096x128.Idx → ℝ := fun i => Vr (xR m c) (wvR m c) (i 0) (i 1) (i 2)

/-- What the projection region finds: x, and the weights side by side, as real arrays. -/
theorem V1_x_isR (hpre : Cert.Pre_KernelIdeal m) (c : Dev nD) : IsR (V1 m ρ c main_arg0) (xR m c) := by
  rw [V1_arg0]; exact (args_isR m hpre c).1
theorem V1_w_isR (hpre : Cert.Pre_KernelIdeal m) (c : Dev nD) :
    IsR (V1 m ρ c main_v0) (wcatR (wqR m c) (wkR m c) (wvR m c)) := by
  obtain ⟨-, hq, hk, hv⟩ := args_isR m hpre c
  rw [V1_v0]; exact wcat_isR hq hk hv

/-- What the attention region finds: the three projections. -/
theorem V2_q_isR (hpre : Cert.Pre_KernelIdeal m) (c : Dev nD) : IsR (V2 m ρ c main_v1_0) (QaR m c) := by
  rw [V2_q]
  exact (Cert.KernelIdeal.Val0.arr0_2_isR (V1 m ρ) c _ _ (V1_x_isR m ρ hpre c) (V1_w_isR m ρ hpre c)).of_eq (congrFun (arrG_q _ _ _ _))
theorem V2_k_isR (hpre : Cert.Pre_KernelIdeal m) (c : Dev nD) : IsR (V2 m ρ c main_v1_1) (KaR m c) := by
  rw [V2_k]
  exact (Cert.KernelIdeal.Val0.arr0_3_isR (V1 m ρ) c _ _ (V1_x_isR m ρ hpre c) (V1_w_isR m ρ hpre c)).of_eq (congrFun (arrG_k _ _ _ _))
theorem V2_v_isR (hpre : Cert.Pre_KernelIdeal m) (c : Dev nD) : IsR (V2 m ρ c main_v1_2) (VaR m c) := by
  rw [V2_v]
  exact (Cert.KernelIdeal.Val0.arr0_4_isR (V1 m ρ) c _ _ (V1_x_isR m ρ hpre c) (V1_w_isR m ρ hpre c)).of_eq (congrFun (arrG_v _ _ _ _))

/-- The result array at the end. -/
theorem final_eq (hpre : Cert.Pre_KernelIdeal m) (c : Dev nD) : (dat1 (F := Ideal) (V2 m ρ) c).arrAt 3 cfg1.N = outE m c := by
  funext i
  refine (arr1_3_isR (V2 m ρ) c (QaR m c) (KaR m c) (VaR m c) (V2_q_isR m ρ hpre c) (V2_k_isR m ρ hpre c) (V2_v_isR m ρ hpre c) i).trans ?_
  unfold outE
  refine congrArg _ ?_
  have h1 : (i 1).val < 4096 := (i 1).isLt
  have hb := Cert.Bridge.bridge (xR m c) (wqR m c) (wkR m c) (wvR m c) (⟨(i 1).val / 256, by omega⟩ : Fin 16) (i 0)
    (⟨(i 1).val % 256, Nat.mod_lt _ (by decide)⟩ : Fin 256) (i 2)
  refine ((attnG_eq i (⟨(i 1).val / 256, by omega⟩ : Fin 16) (⟨(i 1).val % 256, Nat.mod_lt _ (by decide)⟩ : Fin 256) rfl rfl).trans hb).trans ?_
  have hq : Cert.Bridge.qrow (⟨(i 1).val / 256, by omega⟩ : Fin 16) (⟨(i 1).val % 256, Nat.mod_lt _ (by decide)⟩ : Fin 256) = i 1 :=
    Fin.ext (by show 256 * ((i 1).val / 256) + (i 1).val % 256 = (i 1).val; exact Nat.div_add_mod _ _)
  rw [hq]

/-- THE VALUE RUN: under the precondition every weakly fair execution of the kernel program terminates with the
    result array at the softmax-weighted mean and the arguments unchanged. -/
theorem value_run (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev nD,
      r.2.mem ((c.tc : Thread nD τ).loc main_v2) = outE m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v2 (by decide))).trans ((W3_out m ρ c).trans (final_eq m ρ hpre c)),
     (h c _ (mem_uc main_arg0 (by decide))).trans (W3_main_arg0 m ρ c),
     (h c _ (mem_uc main_arg1 (by decide))).trans (W3_untouched m ρ c main_arg1 (by decide) (by decide) (by decide)),
     (h c _ (mem_uc main_arg2 (by decide))).trans (W3_untouched m ρ c main_arg2 (by decide) (by decide) (by decide)),
     (h c _ (mem_uc main_arg3 (by decide))).trans (W3_untouched m ρ c main_arg3 (by decide) (by decide) (by decide)),
     (h c _ (mem_uc main_arg4 (by decide))).trans (W3_untouched m ρ c main_arg4 (by decide) (by decide) (by decide))⟩)
    (run_all (F := Ideal) m ρ)

end Cert.KernelIdeal.Hand

end
-- ==== Proof.RefReal.lean ====
/-
  The reference program's result as a formula over real arrays.  When the input x and the three weight matrices are
  finite (coercions of real arrays), every stage of the reference program is finite too, and the result read at an
  index (b, q, e) is the coercion of the attention formula of SpecReal:
      Out[b,q,e] = ∑ k, (exp (S[b,q,k] - M[b,q]) / L[b,q]) * V[b,k,e].
  The stages follow the reference program: three projections, the scores divided by the constant c, the row maximum
  (a fold of max from -∞ over the keys, which for finite entries is the coercion of the real maximum), the
  subtraction, the exponential, the row sum (positive, so the quotient stays finite), the quotient, and the last
  product with the values.
-/
import proofs.«154512_j5798205849797_2_alg».proof.Proof.Gen.ReferenceIdeal.Read
import proofs.«154512_j5798205849797_2_alg».proof.Proof.LibRealLift
import proofs.«154512_j5798205849797_2_alg».proof.Proof.SpecReal
import Idealize.ShloMosaic.PureOps.Ideal.Laws
import Idealize.ShloMosaic.Lib.ValueIdx

noncomputable section

open scoped BigOperators

namespace Cert.RefReal

open Cert.ReferenceIdeal Cert.ReferenceIdeal.Gen Cert.ReferenceIdeal.Read Cert.RealLift Cert.SpecReal
open Idealize.ShloMosaic Idealize.ShloMosaic.ValueIdx

/-! ## The three constants -/

/-- The divisor of the scores: the single-precision word 0x413504F3 is 11863283 / 2^20. -/
theorem ofBits_scale : Ideal.ofBits .f32 0x413504F3#32 = ((11863283 / 1048576 : ℝ) : EReal) := by
  simp [Ideal.ofBits, Ideal.ieee, -EReal.coe_mul]
  norm_num

/-- The initial value of the row maximum is -∞. -/
theorem ofBits_neg_inf : Ideal.ofBits .f32 0xFF800000#32 = (⊥ : EReal) := by
  simp [Ideal.ofBits, Ideal.ieee]

/-! ## A fold of max over finite entries -/

/-- The fold of max from -∞ over a nonempty finite family of reals is the coercion of the family's maximum. -/
theorem fold_max_coe {ι : Type} [Fintype ι] [Nonempty ι] (f : ι → ℝ) :
    (Finset.univ : Finset ι).fold max (⊥ : EReal) (fun k => ((f k : ℝ) : EReal))
      = ((Finset.univ.sup' Finset.univ_nonempty f : ℝ) : EReal) := by
  show Finset.univ.sup (fun k => ((f k : ℝ) : EReal)) = _
  refine le_antisymm (Finset.sup_le fun k _ => EReal.coe_le_coe_iff.2 (Finset.le_sup' f (Finset.mem_univ k))) ?_
  obtain ⟨k, _, hk⟩ := Finset.exists_mem_eq_sup' Finset.univ_nonempty f
  rw [hk]
  exact Finset.le_sup (f := fun k => ((f k : ℝ) : EReal)) (Finset.mem_univ k)

variable {x : (⟨S4x4096x128, .f32⟩ : BufTy).Contents (Elt Ideal)}
  {wq wk wv : (⟨S128x128, .f32⟩ : BufTy).Contents (Elt Ideal)} {xr : X} {wqr wkr wvr : W}

/-! ## The stages -/

/-- A projection x w. -/
theorem v0_real {w : (⟨S128x128, .f32⟩ : BufTy).Contents (Elt Ideal)} {wr : W} (hx : IsR x xr) (hw : IsR w wr) :
    IsR (val_main_v0 (F := Ideal) x w) (fun i => proj xr wr (i 0) (i 1) (i 2)) := by
  intro i
  rw [val_main_v0_apply]
  refine (sum_mul_coe _ _ _ _ _ (fun k => hx _) (fun k => hw _)).trans ?_
  refine congrArg _ (Finset.sum_congr rfl fun k _ => ?_)
  have el : lidx_main_v0 i k = ix3 (i 0 : Fin 4) (i 1 : Fin 4096) k := funext fun a => by
    match a with | ⟨0, _⟩ => rfl | ⟨1, _⟩ => rfl | ⟨2, _⟩ => rfl
  have er : ridx_main_v0 i k = ix2 k (i 2 : Fin 128) := funext fun a => by
    match a with | ⟨0, _⟩ => rfl | ⟨1, _⟩ => rfl
  exact congrArg₂ (· * ·) (congrArg xr el) (congrArg wr er)

/-- The unscaled scores Q Kᵀ. -/
theorem v3_real (hx : IsR x xr) (hq : IsR wq wqr) (hk : IsR wk wkr) :
    IsR (val_main_v3 (F := Ideal) x wq wk)
      (fun i => ∑ d : Fin 128, proj xr wqr (i 0) (i 1) d * proj xr wkr (i 0) (i 2) d) := by
  intro i
  rw [val_main_v3_apply]
  exact sum_mul_coe _ _ _ _ _ (fun k => v0_real hx hq _) (fun k => v0_real hx hk _)

/-- The scores. -/
theorem v5_real (hx : IsR x xr) (hq : IsR wq wqr) (hk : IsR wk wkr) :
    IsR (val_main_v5 (F := Ideal) x wq wk) (fun i => Sr xr wqr wkr (i 0) (i 1) (i 2)) := by
  intro i
  rw [val_main_v5_apply, val_main_v4_apply, val_main_cst_apply]
  show Ideal.div (val_main_v3 (F := Ideal) x wq wk i) (Ideal.ofBits .f32 0x413504F3#32) = _
  rw [v3_real hx hq hk i, ofBits_scale, IsR.div_coe _ _ (by norm_num)]
  rfl

/-- The row maximum: the fold of max from -∞ over the keys. -/
theorem v6_real (hx : IsR x xr) (hq : IsR wq wqr) (hk : IsR wk wkr) :
    IsR (val_main_v6 (F := Ideal) x wq wk) (fun i => Mr xr wqr wkr (i 0) (i 1)) := by
  intro i
  have h : S4x4096x4096.Reduces [2] S4x4096 := by decide
  unfold val_main_v6
  rw [Host.reduce_eq_fold_single FloatOps.maximumf _ _ reducesTo_S4x4096x4096_S4x4096_d2 h h_S_ i, val_main_cst_0_apply]
  have e : (val_main_v5 (F := Ideal) x wq wk ∘ h.lift i)
      = fun k => ((Sr xr wqr wkr (i 0) (i 1) k : ℝ) : EReal) := funext fun k => by
    have hl : h.lift i k = ix3 (i 0 : Fin 4) (i 1 : Fin 4096) (k : Fin 4096) := funext fun a => Fin.ext (by
      match a with | ⟨0, _⟩ => rfl | ⟨1, _⟩ => rfl | ⟨2, _⟩ => rfl)
    show val_main_v5 (F := Ideal) x wq wk (h.lift i k) = _
    rw [hl]
    exact v5_real hx hq hk _
  rw [e]
  show Finset.fold max (Ideal.ofBits .f32 0xFF800000#32) _ _ = _
  rw [ofBits_neg_inf]
  exact fold_max_coe (ι := Fin 4096) (fun k => Sr xr wqr wkr (i 0) (i 1) k)

/-- The maximum against -∞ changes nothing. -/
theorem v8_real (hx : IsR x xr) (hq : IsR wq wqr) (hk : IsR wk wkr) :
    IsR (val_main_v8 (F := Ideal) x wq wk) (fun i => Mr xr wqr wkr (i 0) (i 1)) := by
  intro i
  rw [val_main_v8_apply, val_main_v7_apply, val_main_cst_1_apply]
  show max (Ideal.ofBits .f32 0xFF800000#32) (val_main_v6 (F := Ideal) x wq wk i) = _
  rw [ofBits_neg_inf, v6_real hx hq hk i]
  exact max_eq_right bot_le

/-- The row maximum copied along the keys. -/
theorem v10_real (hx : IsR x xr) (hq : IsR wq wqr) (hk : IsR wk wkr) :
    IsR (val_main_v10 (F := Ideal) x wq wk) (fun i => Mr xr wqr wkr (i 0) (i 1)) := by
  intro i
  rw [val_main_v10_apply, val_main_v9_apply]
  exact v8_real hx hq hk _

/-- The scores less their row maximum. -/
theorem v11_real (hx : IsR x xr) (hq : IsR wq wqr) (hk : IsR wk wkr) :
    IsR (val_main_v11 (F := Ideal) x wq wk) (fun i => Sr xr wqr wkr (i 0) (i 1) (i 2) - Mr xr wqr wkr (i 0) (i 1)) := by
  intro i
  rw [val_main_v11_apply]
  show val_main_v5 (F := Ideal) x wq wk i - val_main_v10 (F := Ideal) x wq wk i = _
  rw [v5_real hx hq hk i, v10_real hx hq hk i, ← EReal.coe_sub]

/-- Their exponentials. -/
theorem v12_real (hx : IsR x xr) (hq : IsR wq wqr) (hk : IsR wk wkr) :
    IsR (val_main_v12 (F := Ideal) x wq wk)
      (fun i => Real.exp (Sr xr wqr wkr (i 0) (i 1) (i 2) - Mr xr wqr wkr (i 0) (i 1))) := by
  intro i
  rw [val_main_v12_apply]
  show Ideal.exp (val_main_v11 (F := Ideal) x wq wk i) = _
  rw [v11_real hx hq hk i]
  rfl

/-- The row sums of the exponentials. -/
theorem v13_real (hx : IsR x xr) (hq : IsR wq wqr) (hk : IsR wk wkr) :
    IsR (val_main_v13 (F := Ideal) x wq wk) (fun i => Lr xr wqr wkr (i 0) (i 1)) := by
  intro i
  rw [val_main_v13_apply, val_main_cst_2_apply]
  show Ideal.ofBits .f32 0x00000000#32 + _ = _
  rw [Ideal.ofBits_zero_f32, zero_add]
  exact sum_coe _ _ _ (fun k => v12_real hx hq hk _)

/-- The row sums copied along the keys. -/
theorem v15_real (hx : IsR x xr) (hq : IsR wq wqr) (hk : IsR wk wkr) :
    IsR (val_main_v15 (F := Ideal) x wq wk) (fun i => Lr xr wqr wkr (i 0) (i 1)) := by
  intro i
  rw [val_main_v15_apply, val_main_v14_apply]
  exact v13_real hx hq hk _

/-- The softmax weights. -/
theorem v16_real (hx : IsR x xr) (hq : IsR wq wqr) (hk : IsR wk wkr) :
    IsR (val_main_v16 (F := Ideal) x wq wk)
      (fun i => Real.exp (Sr xr wqr wkr (i 0) (i 1) (i 2) - Mr xr wqr wkr (i 0) (i 1)) / Lr xr wqr wkr (i 0) (i 1)) := by
  intro i
  rw [val_main_v16_apply]
  show Ideal.div (val_main_v12 (F := Ideal) x wq wk i) (val_main_v15 (F := Ideal) x wq wk i) = _
  rw [v12_real hx hq hk i, v15_real hx hq hk i]
  exact IsR.div_coe _ _ (Lr_pos xr wqr wkr _ _).ne'

/-- The reference's result at an index is the coercion of the attention formula. -/
theorem ref_real (hx : IsR x xr) (hq : IsR wq wqr) (hk : IsR wk wkr) (hv : IsR wv wvr) :
    IsR (val_main_v17 (F := Ideal) x wq wk wv) (fun i => Outr xr wqr wkr wvr (i 0) (i 1) (i 2)) := by
  intro i
  rw [val_main_v17_apply]
  exact sum_mul_coe _ _ _ _ _ (fun k => v16_real hx hq hk _) (fun k => v0_real hx hv _)

end Cert.RefReal

end
-- ==== Proof.lean ====
/-
  Single-head attention: the kernel program (one concatenation of the three weight matrices, a projection region that
  writes q, k, v, and an attention region that walks the keys tile by tile with a running maximum, a running
  normaliser and a running weighted sum) against the reference (projections, scores divided by the scale, a softmax
  over all keys at once, the weighted sum of values).

  At the ideal instance both end with the same array.  The kernel multiplies the scores by a named constant whose
  value is the reciprocal of the reference's divisor, so the two score arrays agree.  For finite inputs every
  intermediate is a real number, and over the reals the tile-by-tile recurrence
      m' = max m (max of the tile),  l' = exp (m - m') · l + Σ exp (s - m'),  acc' = exp (m - m') · acc + Σ exp (s - m') · v
  started at the first tile and followed by acc / l is the softmax-weighted mean Σ (exp (s - M) / Σ exp (s - M)) · v:
  the invariant is l = Σ exp (s - m) and acc = Σ exp (s - m) · v over the tiles seen so far, because
  exp (m - m') · exp (s - m) = exp (s - m'); the quotient does not depend on the shift.

  The three frames: each kernel program's run is the host line followed by its two regions, every region's body run
  once per control case; the reference's frame is its run with the result dropped.
-/
import proofs.«154512_j5798205849797_2_alg».proof.Defs
import proofs.«154512_j5798205849797_2_alg».proof.Proof.Gen.Kernel
import proofs.«154512_j5798205849797_2_alg».proof.Proof.Gen.KernelIdeal
import proofs.«154512_j5798205849797_2_alg».proof.Proof.Gen.ReferenceIdeal
import proofs.«154512_j5798205849797_2_alg».proof.Proof.Gen.Pre_finite_inputs
import proofs.«154512_j5798205849797_2_alg».proof.Proof.Gen.ReferenceIdeal.Run
import proofs.«154512_j5798205849797_2_alg».proof.Proof.Gen.ReferenceIdeal.Read
import proofs.«154512_j5798205849797_2_alg».proof.Proof.KRun
import proofs.«154512_j5798205849797_2_alg».proof.Proof.IValue
import proofs.«154512_j5798205849797_2_alg».proof.Proof.RefReal
import Idealize.ShloMosaic.Adequacy
import Idealize.ShloMosaic.Init

noncomputable section

namespace Cert.Proof

open Idealize.ShloMosaic Idealize.ShloMosaic.TcCoe Idealize.SL.Sem
open Cert.RealLift Cert.SpecReal

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the scale constant is named, and its name denotes the reciprocal of the
    reference's divisor. -/
theorem preserves : Cert.preserves_Kernel_KernelIdeal :=
  IdealRules.named_const.statement Cert.KernelIdeal.κ "inv_sqrt_dk" .f32 0x3DB504F3#32 ((1048576 / 11863283 : ℝ) : EReal) rfl

/-- Both runs end at the softmax-weighted mean of the value projections, as a function of the launch contents. -/
theorem algebraic : Cert.algebraic_KernelIdeal_ReferenceIdeal := by
  intro m ρ m' ρ' hpre hagree
  refine ⟨fun c => Cert.KernelIdeal.Hand.outE m c, Cert.KernelIdeal.Hand.value_run m ρ hpre, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.2.1, (hagree c).2.2.2.1, (hagree c).2.2.2.2]
  obtain ⟨hx, hq, hk, hv⟩ := Cert.KernelIdeal.Hand.args_isR m hpre c
  funext i
  exact (congrFun (Cert.ReferenceIdeal.Read.val_main_v17_eq _ _ _ _) i).trans (Cert.RefReal.ref_real hx hq hk hv i)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
